-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1024x3072 : Shape := ⟨2, ![1024, 3072]⟩
abbrev S3072 : Shape := ⟨1, ![3072]⟩
abbrev S8192x1024 : Shape := ⟨2, ![8192, 1024]⟩
abbrev S8192x3072 : Shape := ⟨2, ![8192, 3072]⟩
abbrev S512x1024 : Shape := ⟨2, ![512, 1024]⟩
abbrev S512x3072 : Shape := ⟨2, ![512, 3072]⟩
abbrev S1x3072 : Shape := ⟨2, ![1, 3072]⟩
abbrev S4x2048x3072 : Shape := ⟨3, ![4, 2048, 3072]⟩
abbrev S1x512x128 : Shape := ⟨3, ![1, 512, 128]⟩
abbrev S1x2048x128 : Shape := ⟨3, ![1, 2048, 128]⟩
abbrev S512x128 : Shape := ⟨2, ![512, 128]⟩
abbrev S2048x128 : Shape := ⟨2, ![2048, 128]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S1x512x64 : Shape := ⟨3, ![1, 512, 64]⟩
abbrev S1x1024 : Shape := ⟨2, ![1, 1024]⟩

abbrev nBuf : Space → Nat
  | .hbm => 72
  | .vmem => 20
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024, .i32⟩
  | .hbm, ⟨10, _⟩ => ⟨S1024, .i1⟩
  | .hbm, ⟨11, _⟩ => ⟨S1024, .i1⟩
  | .hbm, ⟨12, _⟩ => ⟨S1024, .i1⟩
  | .hbm, ⟨13, _⟩ => ⟨S1024, .i1⟩
  | .hbm, ⟨14, _⟩ => ⟨S1024, .i32⟩
  | .hbm, ⟨15, _⟩ => ⟨S1024, .i1⟩
  | .hbm, ⟨16, _⟩ => ⟨S1024, .i1⟩
  | .hbm, ⟨17, _⟩ => ⟨S_, .i32⟩
  | .hbm, ⟨18, _⟩ => ⟨S1024, .i32⟩
  | .hbm, ⟨19, _⟩ => ⟨S1024, .i32⟩
  | .hbm, ⟨20, _⟩ => ⟨S1024, .i32⟩
  | .hbm, ⟨21, _⟩ => ⟨S1024x1, .i32⟩
  | .hbm, ⟨22, _⟩ => ⟨S1024x1024, .f32⟩
  | .hbm, ⟨23, _⟩ => ⟨S_, .i32⟩
  | .hbm, ⟨24, _⟩ => ⟨S1024, .i32⟩
  | .hbm, ⟨25, _⟩ => ⟨S1024, .i32⟩
  | .hbm, ⟨26, _⟩ => ⟨S1024, .i32⟩
  | .hbm, ⟨27, _⟩ => ⟨S1024x1, .i32⟩
  | .hbm, ⟨28, _⟩ => ⟨S1024, .f32⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S1024x1, .i32⟩
  | .hbm, ⟨34, _⟩ => ⟨S1024x1024, .f32⟩
  | .hbm, ⟨35, _⟩ => ⟨S_, .i32⟩
  | .hbm, ⟨36, _⟩ => ⟨S1024, .i32⟩
  | .hbm, ⟨37, _⟩ => ⟨S1024, .i32⟩
  | .hbm, ⟨38, _⟩ => ⟨S1024, .i32⟩
  | .hbm, ⟨39, _⟩ => ⟨S1024x1, .i32⟩
  | .hbm, ⟨40, _⟩ => ⟨S1024, .f32⟩
  | .hbm, ⟨41, _⟩ => ⟨S_, .i32⟩
  | .hbm, ⟨42, _⟩ => ⟨S1024, .i32⟩
  | .hbm, ⟨43, _⟩ => ⟨S1024, .i32⟩
  | .hbm, ⟨44, _⟩ => ⟨S1024, .i32⟩
  | .hbm, ⟨45, _⟩ => ⟨S1024x1, .i32⟩
  | .hbm, ⟨46, _⟩ => ⟨S1024x1024, .f32⟩
  | .hbm, ⟨47, _⟩ => ⟨S_, .i32⟩
  | .hbm, ⟨48, _⟩ => ⟨S1024, .i32⟩
  | .hbm, ⟨49, _⟩ => ⟨S1024, .i32⟩
  | .hbm, ⟨50, _⟩ => ⟨S1024, .i32⟩
  | .hbm, ⟨51, _⟩ => ⟨S1024x1, .i32⟩
  | .hbm, ⟨52, _⟩ => ⟨S1024, .f32⟩
  | .hbm, ⟨53, _⟩ => ⟨S1024x1024, .f32⟩
  | .hbm, ⟨54, _⟩ => ⟨S1024x1024, .f32⟩
  | .hbm, ⟨55, _⟩ => ⟨S1024x1024, .f32⟩
  | .hbm, ⟨56, _⟩ => ⟨S1024x3072, .f32⟩
  | .hbm, ⟨57, _⟩ => ⟨S1024x3072, .bf16⟩
  | .hbm, ⟨58, _⟩ => ⟨S3072, .f32⟩
  | .hbm, ⟨59, _⟩ => ⟨S8192x1024, .f32⟩
  | .hbm, ⟨60, _⟩ => ⟨S8192x1024, .bf16⟩
  | .hbm, ⟨61, _⟩ => ⟨S8192x3072, .bf16⟩
  | .hbm, ⟨62, _⟩ => ⟨S4x2048x3072, .bf16⟩
  | .hbm, ⟨63, _⟩ => ⟨S4x2048x1024, .bf16⟩
  | .hbm, ⟨64, _⟩ => ⟨S4x2048x1024, .bf16⟩
  | .hbm, ⟨65, _⟩ => ⟨S4x2048x1024, .bf16⟩
  | .hbm, ⟨66, _⟩ => ⟨S4x2048x1024, .bf16⟩
  | .hbm, ⟨67, _⟩ => ⟨S1024x1024, .f32⟩
  | .hbm, ⟨68, _⟩ => ⟨S1024x1024, .bf16⟩
  | .hbm, ⟨69, _⟩ => ⟨S8192x1024, .bf16⟩
  | .hbm, ⟨70, _⟩ => ⟨S8192x1024, .f32⟩
  | .hbm, ⟨71, _⟩ => ⟨S4x2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S3072, .f32⟩
  | .local _ .vmem, ⟨4, _⟩ => ⟨S512x3072, .bf16⟩
  | .local _ .vmem, ⟨5, _⟩ => ⟨S512x3072, .bf16⟩
  | .local _ .vmem, ⟨6, _⟩ => ⟨S1x512x128, .bf16⟩
  | .local _ .vmem, ⟨7, _⟩ => ⟨S1x512x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x512x128, .bf16⟩
  | .local _ .vmem, ⟨13, _⟩ => ⟨S1x512x128, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1024, .f32⟩
  | .local _ .vmem, ⟨18, _⟩ => ⟨S512x1024, .f32⟩
  | .local _ .vmem, ⟨19, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_c_2 : Ref sig .tc := ⟨.hbm, 12, rfl⟩
abbrev main_c_3 : Ref sig .tc := ⟨.hbm, 13, rfl⟩
abbrev main_c_4 : Ref sig .tc := ⟨.hbm, 14, rfl⟩
abbrev main_c_5 : Ref sig .tc := ⟨.hbm, 15, rfl⟩
abbrev main_c_6 : Ref sig .tc := ⟨.hbm, 16, rfl⟩
abbrev main_c_7 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c_8 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c_9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c_10 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_11 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_12 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![4, 8, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S3072 : S3072.ShapeCasts S3072
  shapeCasts_S3072_S1x3072 : S3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S8192x3072_S4x2048x3072 : S8192x3072.ShapeCasts S4x2048x3072
  slices_S4x2048x3072_S4x2048x1024_0_0_0 : S4x2048x3072.Slices ![0, 0, 0] S4x2048x1024
  slices_S4x2048x3072_S4x2048x1024_0_0_1024 : S4x2048x3072.Slices ![0, 0, 1024] S4x2048x1024
  slices_S4x2048x3072_S4x2048x1024_0_0_2048 : S4x2048x3072.Slices ![0, 0, 2048] S4x2048x1024
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S512x128_o0_0_S512x64 : S512x128.Slices ![0, 0] S512x64
  slices_S2048x128_o0_0_S2048x64 : S2048x128.Slices ![0, 0] S2048x64
  reduces_S512x2048_S512 : S512x2048.Reduces [1] S512
  shapeCasts_S512_S512x1 : S512.ShapeCasts S512x1
  broadcasts_S512x1_S512x2048 : S512x1.Broadcasts S512x2048
  inb_S1x512x128_S1x512x64_0_0_0 : ∀ a, (![0, 0, 0] : Fin 3 → Nat) a + S1x512x64.size a ≤ S1x512x128.size a
  h_S1x512x64 : 0 < S1x512x64.numel
  shapeCasts_S1x512x64_S512x64 : S1x512x64.ShapeCasts S512x64
  shapeCasts_S512x64_S1x512x64 : S512x64.ShapeCasts S1x512x64
  packedbf16_S1x512x128_S1x512x64_0_0_0 : (Rect.unit (s := S1x512x128) ![0, 0, 0] S1x512x64.size inb_S1x512x128_S1x512x64_0_0_0).PackedRows (EltTy.packing .bf16)
  slices_S512x128_o0_64_S512x64 : S512x128.Slices ![0, 64] S512x64
  slices_S2048x128_o0_64_S2048x64 : S2048x128.Slices ![0, 64] S2048x64
  inb_S1x512x128_S1x512x64_0_0_64 : ∀ a, (![0, 0, 64] : Fin 3 → Nat) a + S1x512x64.size a ≤ S1x512x128.size a
  packedbf16_S1x512x128_S1x512x64_0_0_64 : (Rect.unit (s := S1x512x128) ![0, 0, 64] S1x512x64.size inb_S1x512x128_S1x512x64_0_0_64).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S8192x1024_S4x2048x1024 : S8192x1024.ShapeCasts S4x2048x1024
  gather_S1024x1024_S1024x1_S1024x1024_1_0_n_n_0_1_11024_wf : GatherDims.WF S1024x1024 S1024x1 S1024x1024 [1] [0] [] [0] [] 1 ![1, 1024]
  gather_S1024_S1024x1_S1024_n_0_n_n_0_1_1_wf : GatherDims.WF S1024 S1024x1 S1024 [] [0] [] [0] [] 1 ![1]
  dot_S512x1024_S1024x3072_S512x3072_1_0_0_1_n_n_wf : DotDims.WF S512x1024 S1024x3072 S512x3072 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .bf16 = 32 ∨ (Rect.block (s := S8192x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S8192x3072.size a
  hwx0_3 : ∀ i : grid0.Coords, EltTy.bits .bf16 = 32 ∨ (Rect.block (s := S8192x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S4x2048x1024.size a
  hwx1_0 : ∀ i : grid1.Coords, EltTy.bits .bf16 = 32 ∨ (Rect.block (s := S4x2048x1024) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S4x2048x1024.size a
  hwx1_1 : ∀ i : grid1.Coords, EltTy.bits .bf16 = 32 ∨ (Rect.block (s := S4x2048x1024) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S4x2048x1024.size a
  hwx1_2 : ∀ i : grid1.Coords, EltTy.bits .bf16 = 32 ∨ (Rect.block (s := S4x2048x1024) S1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x128.size a ≤ S4x2048x1024.size a
  hwx1_3 : ∀ i : grid1.Coords, EltTy.bits .bf16 = 32 ∨ (Rect.block (s := S4x2048x1024) S1x512x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .bf16 = 32 ∨ (Rect.block (s := S8192x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)

variable [Facts₀]

def gather_S1024x1024_S1024x1_S1024x1024_1_0_n_n_0_1_11024 : GatherDims S1024x1024 S1024x1 S1024x1024 where
  offsetDims := [1]
  collapsedSliceDims := [0]
  operandBatchingDims := []
  startIndicesBatchingDims := []
  startIndexMap := [0]
  indexVectorDim := 1
  sliceSizes := ![1, 1024]
  wf := gather_S1024x1024_S1024x1_S1024x1024_1_0_n_n_0_1_11024_wf
def gather_S1024_S1024x1_S1024_n_0_n_n_0_1_1 : GatherDims S1024 S1024x1 S1024 where
  offsetDims := []
  collapsedSliceDims := [0]
  operandBatchingDims := []
  startIndicesBatchingDims := []
  startIndexMap := [0]
  indexVectorDim := 1
  sliceSizes := ![1]
  wf := gather_S1024_S1024x1_S1024_n_0_n_n_0_1_1_wf
def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v37) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v38) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v40) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v46) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x64x16 : Shape := ⟨4, ![4, 2048, 64, 16]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S4x2048x16x64 : Shape := ⟨4, ![4, 2048, 16, 64]⟩

abbrev nBuf : Space → Nat
  | .hbm => 52
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4x2048x1024, .f32⟩
  | .hbm, ⟨10, _⟩ => ⟨S1x1x1024, .f32⟩
  | .hbm, ⟨11, _⟩ => ⟨S4x2048x1024, .f32⟩
  | .hbm, ⟨12, _⟩ => ⟨S4x2048x1024, .f32⟩
  | .hbm, ⟨13, _⟩ => ⟨S4x2048x64x16, .f32⟩
  | .hbm, ⟨14, _⟩ => ⟨S4x16x2048x64, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x64x16, .f32⟩
  | .hbm, ⟨20, _⟩ => ⟨S4x16x2048x64, .f32⟩
  | .hbm, ⟨21, _⟩ => ⟨S4x2048x1024, .f32⟩
  | .hbm, ⟨22, _⟩ => ⟨S1x1x1024, .f32⟩
  | .hbm, ⟨23, _⟩ => ⟨S4x2048x1024, .f32⟩
  | .hbm, ⟨24, _⟩ => ⟨S4x2048x1024, .f32⟩
  | .hbm, ⟨25, _⟩ => ⟨S4x2048x64x16, .f32⟩
  | .hbm, ⟨26, _⟩ => ⟨S4x16x2048x64, .f32⟩
  | .hbm, ⟨27, _⟩ => ⟨S4x16x2048x2048, .f32⟩
  | .hbm, ⟨28, _⟩ => ⟨S_, .f32⟩
  | .hbm, ⟨29, _⟩ => ⟨S4x16x2048x2048, .f32⟩
  | .hbm, ⟨30, _⟩ => ⟨S4x16x2048x2048, .f32⟩
  | .hbm, ⟨31, _⟩ => ⟨S_, .f32⟩
  | .hbm, ⟨32, _⟩ => ⟨S4x16x2048, .f32⟩
  | .hbm, ⟨33, _⟩ => ⟨S_, .f32⟩
  | .hbm, ⟨34, _⟩ => ⟨S4x16x2048, .f32⟩
  | .hbm, ⟨35, _⟩ => ⟨S4x16x2048, .f32⟩
  | .hbm, ⟨36, _⟩ => ⟨S4x16x2048x1, .f32⟩
  | .hbm, ⟨37, _⟩ => ⟨S4x16x2048x2048, .f32⟩
  | .hbm, ⟨38, _⟩ => ⟨S4x16x2048x2048, .f32⟩
  | .hbm, ⟨39, _⟩ => ⟨S4x16x2048x2048, .f32⟩
  | .hbm, ⟨40, _⟩ => ⟨S_, .f32⟩
  | .hbm, ⟨41, _⟩ => ⟨S4x16x2048, .f32⟩
  | .hbm, ⟨42, _⟩ => ⟨S4x16x2048x1, .f32⟩
  | .hbm, ⟨43, _⟩ => ⟨S4x16x2048x2048, .f32⟩
  | .hbm, ⟨44, _⟩ => ⟨S4x16x2048x2048, .f32⟩
  | .hbm, ⟨45, _⟩ => ⟨S4x16x2048x64, .f32⟩
  | .hbm, ⟨46, _⟩ => ⟨S4x2048x16x64, .f32⟩
  | .hbm, ⟨47, _⟩ => ⟨S4x2048x1024, .f32⟩
  | .hbm, ⟨48, _⟩ => ⟨S4x2048x1024, .f32⟩
  | .hbm, ⟨49, _⟩ => ⟨S1x1x1024, .f32⟩
  | .hbm, ⟨50, _⟩ => ⟨S4x2048x1024, .f32⟩
  | .hbm, ⟨51, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x2048x64x16 : S4x2048x1024.ShapeCasts S4x2048x64x16
  transposes_S4x2048x64x16_S4x16x2048x64_0_3_1_2 : S4x2048x64x16.Transposes [0, 3, 1, 2] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.FrameKb0.lean ====
/-
  The fused projection region: rows of the activations times the concatenated, row-permuted weights, plus the concatenated bias.
  This module states, for that region entered at arbitrary buffer contents, what each window's block is, what the
  kernel body leaves in the output block (one store over the whole block, its value a function of the three input
  blocks), the body's Hoare triple, and the per-point obligation the pipelined launch asks of the body.
-/
import proofs.«124737_j13280038879618_2_alg».proof.Proof.Gen.Kernel.Launch
import proofs.«124737_j13280038879618_2_alg».proof.Proof.Gen.Kernel.Skeleton
import proofs.«124737_j13280038879618_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The fused projection region: rows of the activations times the concatenated, row-permuted weights, plus the concatenated bias

The region's four windows: the row block of the activations, the whole weight matrix, the whole bias vector, and
the row block of the result. At a grid point the body reads the three input blocks and overwrites the output block
with one store covering it, so what the output's staging buffer holds afterwards is a function of the three input
blocks alone. -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not the point fetched it:
    an unfetched point has the same block index as the point before, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether or not the point fetched it:
    an unfetched point has the same block index as the point before, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether or not the point fetched it:
    an unfetched point has the same block index as the point before, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_x : Rect S512x1024 := Rect.unit (s := S512x1024) ![0, 0] S512x1024.size inb_S512x1024_S512x1024_0_0
abbrev r0_w : Rect S1024x3072 := Rect.unit (s := S1024x3072) ![0, 0] S1024x3072.size inb_S1024x3072_S1024x3072_0_0
abbrev r0_b : Rect S3072 := Rect.unit (s := S3072) ![0] S3072.size inb_S3072_S3072_0
abbrev r0_o : Rect S512x3072 := Rect.unit (s := S512x3072) ![0, 0] S512x3072.size inb_S512x3072_S512x3072_0_0

/-- The output window's staging buffer after the body, from the three input blocks: the one store's payload
    (the product of the row block with the weights, plus the bias row) laid over the whole block. -/
def out0_3 (x0 : Vec F S512x1024 .bf16) (x1 : Vec F S1024x3072 .bf16) (x2 : Vec F S3072 .f32) : Vec F S512x3072 .bf16 :=
  View.canon [⟨r0_o, k0_pay1 (View.ld x0 r0_x) (View.ld x1 r0_w) (View.ld x2 r0_b)⟩]

/-- The one store covers the block. -/
theorem cover0_3 (p0 : Vec F S512x3072 .bf16) (y : S512x3072.Idx) :
    ∃ pc ∈ ([⟨r0_o, p0⟩] : List (View.Piece (Elt F) S512x3072 .bf16)), y ∈ pc.1.set :=
  View.cover_of_tiled [⟨r0_o, p0⟩] S512x3072.size (by rfl) y

set_option maxHeartbeats 1000000 in
/-- The body on whole staging buffers, the inputs' holding `x0 x1 x2` and the output's holding anything, runs to its
    return with the inputs as they were and the output at `out0_3` of them. -/
theorem sound_kernel0 (c : Dev nD) (E : Set ℕ) (i : grid0.Coords)
    (arg1 : Memref sig .tc .vmem S512x1024 .bf16) (harg1 : arg1.IsWhole) (arg2 : Memref sig .tc .vmem S1024x3072 .bf16) (harg2 : arg2.IsWhole)
    (arg3 : Memref sig .tc .vmem S3072 .f32) (harg3 : arg3.IsWhole) (arg4 : Memref sig .tc .vmem S512x3072 .bf16) (harg4 : arg4.IsWhole)
    (x0 : Vec F S512x1024 .bf16) (x1 : Vec F S1024x3072 .bf16) (x2 : Vec F S3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data on core `c`: the arrays as the region finds them; after the body at point `t` each
    input's buffer still at its block and the output's at `out0_3` of the input blocks; the scoped rest and the
    random-number register ride along untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the rest passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every point. -/
theorem body_obligation0 (c : Dev nD) : BodyObligation (dat0 (F := F) V c) (defs₀ (F := F)) Variants.none () Set.univ := fun t => by
  rw [bigSep_W0, bigSep_W0]
  exact sound_body0 V c t

end Cert.Kernel.Body

end
-- ==== Proof.FrameKb1.lean ====
/-
  The attention region. This module states, for that region entered at arbitrary buffer contents, what each window's
  block is, what the kernel body leaves in the output block (two stores over its two lane halves, each value a function
  of the three input blocks), the body's Hoare triple, and the per-point obligation the pipelined launch asks of the body.
-/
import proofs.«124737_j13280038879618_2_alg».proof.Proof.Gen.Kernel.Launch
import proofs.«124737_j13280038879618_2_alg».proof.Proof.Gen.Kernel.Skeleton
import proofs.«124737_j13280038879618_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The attention region: for one batch entry, one pair of adjacent heads and one tile of 512 queries, the
softmax-weighted sums of the values, head by head

The region's four windows: the query tile's 128 lanes of the pair, all 2048 keys' 128 lanes, all 2048 values' 128
lanes, and the output tile's 128 lanes. The body reads the three input blocks and writes the output block in two
stores, lanes 0–63 (the pair's first head) and lanes 64–127 (its second head), which together tile the block; so what
the output's staging buffer holds afterwards is a function of the three input blocks alone. -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not the point fetched it:
    an unfetched point has the same block index as the point before, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether or not the point fetched it:
    an unfetched point has the same block index as the point before, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether or not the point fetched it:
    an unfetched point has the same block index as the point before, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body loads and stores through: the whole query tile, the whole key (and value) block, and the
    two lane halves of the output tile. -/
abbrev r1_q : Rect S1x512x128 := Rect.unit (s := S1x512x128) ![0, 0, 0] S1x512x128.size inb_S1x512x128_S1x512x128_0_0_0
abbrev r1_kv : Rect S1x2048x128 := Rect.unit (s := S1x2048x128) ![0, 0, 0] S1x2048x128.size inb_S1x2048x128_S1x2048x128_0_0_0
abbrev r1_lo : Rect S1x512x128 := Rect.unit (s := S1x512x128) ![0, 0, 0] S1x512x64.size inb_S1x512x128_S1x512x64_0_0_0
abbrev r1_hi : Rect S1x512x128 := Rect.unit (s := S1x512x128) ![0, 0, 64] S1x512x64.size inb_S1x512x128_S1x512x64_0_0_64

/-- The output window's staging buffer after the body, from the three input blocks: the second head's result over
    lanes 64–127 and the first head's over lanes 0–63 (the later store listed first). -/
def out1_3 (x0 : Vec F S1x512x128 .bf16) (x1 : Vec F S1x2048x128 .bf16) (x2 : Vec F S1x2048x128 .bf16) : Vec F S1x512x128 .bf16 :=
  View.canon [⟨r1_hi, k1_pay1 (k1_pay6 (View.ld x2 r1_kv)) (k1_pay7 (View.ld x0 r1_q) (View.ld x1 r1_kv)) (k1_pay8 (View.ld x0 r1_q) (View.ld x1 r1_kv))⟩,
    ⟨r1_lo, k1_pay5 (View.ld x0 r1_q) (View.ld x1 r1_kv) (View.ld x2 r1_kv)⟩]

/-- The two lane halves tile the block. -/
theorem cover1_3 (p1 p0 : Vec F S1x512x64 .bf16) (y : S1x512x128.Idx) :
    ∃ pc ∈ ([⟨r1_hi, p1⟩, ⟨r1_lo, p0⟩] : List (View.Piece (Elt F) S1x512x128 .bf16)), y ∈ pc.1.set :=
  View.cover_of_tiled [⟨r1_hi, p1⟩, ⟨r1_lo, p0⟩] S1x512x64.size (by rfl) y

set_option maxHeartbeats 4000000 in
/-- The body on whole staging buffers, the inputs' holding `x0 x1 x2` and the output's holding anything, runs to its
    return with the inputs as they were and the output at `out1_3` of them. -/
theorem sound_kernel1 (c : Dev nD) (E : Set ℕ) (i : grid1.Coords)
    (arg3 : Memref sig .tc .vmem S1x512x128 .bf16) (harg3 : arg3.IsWhole) (arg4 : Memref sig .tc .vmem S1x2048x128 .bf16) (harg4 : arg4.IsWhole)
    (arg5 : Memref sig .tc .vmem S1x2048x128 .bf16) (harg5 : arg5.IsWhole) (arg6 : Memref sig .tc .vmem S1x512x128 .bf16) (harg6 : arg6.IsWhole)
    (x0 : Vec F S1x512x128 .bf16) (x1 : Vec F S1x2048x128 .bf16) (x2 : Vec F S1x2048x128 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out1_3 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _ _)

/-- The region's proof data on core `c`: the arrays as the region finds them; after the body at point `t` each
    input's buffer still at its block and the output's at `out1_3` of the input blocks; the scoped rest and the
    random-number register ride along untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the rest passes through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every point. -/
theorem body_obligation1 (c : Dev nD) : BodyObligation (dat1 (F := F) V c) (defs₀ (F := F)) Variants.none () Set.univ := fun t => by
  rw [bigSep_W1, bigSep_W1]
  exact sound_body1 V c t

end Cert.Kernel.Body

end
-- ==== Proof.FrameKb2.lean ====
/-
  The output projection region: rows of the merged heads times the transposed output weights, plus the output bias.
  This module states, for that region entered at arbitrary buffer contents, what each window's block is, what the
  kernel body leaves in the output block (one store over the whole block, its value a function of the three input
  blocks), the body's Hoare triple, and the per-point obligation the pipelined launch asks of the body.
-/
import proofs.«124737_j13280038879618_2_alg».proof.Proof.Gen.Kernel.Launch
import proofs.«124737_j13280038879618_2_alg».proof.Proof.Gen.Kernel.Skeleton
import proofs.«124737_j13280038879618_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The output projection region: rows of the merged heads times the transposed output weights, plus the output bias

The region's four windows: the row block of the activations, the whole weight matrix, the whole bias vector, and
the row block of the result. At a grid point the body reads the three input blocks and overwrites the output block
with one store covering it, so what the output's staging buffer holds afterwards is a function of the three input
blocks alone. -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether or not the point fetched it:
    an unfetched point has the same block index as the point before, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether or not the point fetched it:
    an unfetched point has the same block index as the point before, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether or not the point fetched it:
    an unfetched point has the same block index as the point before, and the body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_x : Rect S512x1024 := Rect.unit (s := S512x1024) ![0, 0] S512x1024.size inb_S512x1024_S512x1024_0_0
abbrev r2_w : Rect S1024x1024 := Rect.unit (s := S1024x1024) ![0, 0] S1024x1024.size inb_S1024x1024_S1024x1024_0_0
abbrev r2_b : Rect S1024 := Rect.unit (s := S1024) ![0] S1024.size inb_S1024_S1024_0
abbrev r2_o : Rect S512x1024 := Rect.unit (s := S512x1024) ![0, 0] S512x1024.size inb_S512x1024_S512x1024_0_0

/-- The output window's staging buffer after the body, from the three input blocks: the one store's payload
    (the product of the row block with the weights, plus the bias row) laid over the whole block. -/
def out2_3 (x0 : Vec F S512x1024 .bf16) (x1 : Vec F S1024x1024 .bf16) (x2 : Vec F S1024 .f32) : Vec F S512x1024 .f32 :=
  View.canon [⟨r2_o, k2_pay1 (View.ld x0 r2_x) (View.ld x1 r2_w) (View.ld x2 r2_b)⟩]

/-- The one store covers the block. -/
theorem cover2_3 (p0 : Vec F S512x1024 .f32) (y : S512x1024.Idx) :
    ∃ pc ∈ ([⟨r2_o, p0⟩] : List (View.Piece (Elt F) S512x1024 .f32)), y ∈ pc.1.set :=
  View.cover_of_tiled [⟨r2_o, p0⟩] S512x1024.size (by rfl) y

set_option maxHeartbeats 1000000 in
/-- The body on whole staging buffers, the inputs' holding `x0 x1 x2` and the output's holding anything, runs to its
    return with the inputs as they were and the output at `out2_3` of them. -/
theorem sound_kernel2 (c : Dev nD) (E : Set ℕ) (i : grid2.Coords)
    (arg1 : Memref sig .tc .vmem S512x1024 .bf16) (harg1 : arg1.IsWhole) (arg2 : Memref sig .tc .vmem S1024x1024 .bf16) (harg2 : arg2.IsWhole)
    (arg3 : Memref sig .tc .vmem S1024 .f32) (harg3 : arg3.IsWhole) (arg4 : Memref sig .tc .vmem S512x1024 .f32) (harg4 : arg4.IsWhole)
    (x0 : Vec F S512x1024 .bf16) (x1 : Vec F S1024x1024 .bf16) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The region's proof data on core `c`: the arrays as the region finds them; after the body at point `t` each
    input's buffer still at its block and the output's at `out2_3` of the input blocks; the scoped rest and the
    random-number register ride along untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the rest passes through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every point. -/
theorem body_obligation2 (c : Dev nD) : BodyObligation (dat2 (F := F) V c) (defs₀ (F := F)) Variants.none () Set.univ := fun t => by
  rw [bigSep_W2, bigSep_W2]
  exact sound_body2 V c t

end Cert.Kernel.Body

end
-- ==== Proof.RunKb.lean ====
/-
  The whole run of the program as printed at word level: host operations, the fused projection region, host operations, the attention region,
  host operations, the output projection region, and a final reshape. The contents of every unscoped buffer are
  followed from the launch memory through the seven items; each region is entered with all of them at the contents
  the item before left and is left with its windows' arrays at what its pipeline writes back. One launch over the
  seven items then says: every execution terminates without a fault, and ends with every unscoped buffer at the last
  boundary's contents. The nine argument arrays are written by no item, so they end as launched.
-/
import proofs.«124737_j13280038879618_2_alg».proof.Proof.FrameKb0
import proofs.«124737_j13280038879618_2_alg».proof.Proof.FrameKb1
import proofs.«124737_j13280038879618_2_alg».proof.Proof.FrameKb2
import proofs.«124737_j13280038879618_2_alg».proof.Proof.Gen.Kernel.Regions

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the weight permutation, transposition and concatenation, the activations flattened). -/
abbrev W1 : Dev nD → Valuation τ sig (Elt F) := fun c => StableHlo.after hostOps0 (W0 m ρ c)
abbrev Ent0 : (c : Dev nD) → (b : Ref sig .tc) → Buf (Elt F) ((c : Thread nD τ).loc b) := fun c b => W1 m ρ c b

/-- At region 0's exit: its windows' arrays at what the pipeline leaves (an input as entered, the output at its
    write-backs folded over the grid), every other buffer as entered. -/
def W2 (c : Dev nD) : Valuation τ sig (Elt F) :=
  Pipeline.withArrays spec0 c (W1 m ρ c) fun w => (dat0 (Ent0 m ρ) c).arrAt w cfg0.N
theorem W2_arr (c : Dev nD) (w : Fin cfg0.W) :
    W2 m ρ c (Proc.devRef .tc (Pipeline.arrRef spec0 w)) = (dat0 (Ent0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves the region as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (Ent0 m ρ) c).arrAt_in w hw _).trans (A_eq0 (Ent0 m ρ) c w))
/-- The same read at the TensorCore's references (region 0's exit contents). -/
abbrev Ext0 : (c : Dev nD) → (b : Ref sig .tc) → Buf (Elt F) ((c : Thread nD τ).loc b) := fun c b => W2 m ρ c b
theorem hF0 (c : Dev nD) (w : Fin cfg0.W) : (dat0 (Ent0 m ρ) c).arrAt w cfg0.N = Ext0 m ρ c (Pipeline.arrRef spec0 w) :=
  (W2_arr m ρ c w).symm
theorem hrest0 (c : Dev nD) : ∀ b, b ∉ Finset.univ.image (Pipeline.arrRef spec0) → Ext0 m ρ c b = Ent0 m ρ c b :=
  fun b hb => W2_of_ne m ρ c b fun w e => hb (Finset.mem_image.mpr ⟨w, Finset.mem_univ _, e⟩)

/-- After the host stretch `hostOps1`. -/
abbrev W3 : Dev nD → Valuation τ sig (Elt F) := fun c => StableHlo.after hostOps1 (W2 m ρ c)

abbrev Ent1 : (c : Dev nD) → (b : Ref sig .tc) → Buf (Elt F) ((c : Thread nD τ).loc b) := fun c b => W3 m ρ c b

/-- At region 1's exit: its windows' arrays at what the pipeline leaves (an input as entered, the output at its
    write-backs folded over the grid), every other buffer as entered. -/
def W4 (c : Dev nD) : Valuation τ sig (Elt F) :=
  Pipeline.withArrays spec1 c (W3 m ρ c) fun w => (dat1 (Ent1 m ρ) c).arrAt w cfg1.N
theorem W4_arr (c : Dev nD) (w : Fin cfg1.W) :
    W4 m ρ c (Proc.devRef .tc (Pipeline.arrRef spec1 w)) = (dat1 (Ent1 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An input window's array leaves the region as it entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (Ent1 m ρ) c).arrAt_in w hw _).trans (A_eq1 (Ent1 m ρ) c w))
/-- The same read at the TensorCore's references (region 1's exit contents). -/
abbrev Ext1 : (c : Dev nD) → (b : Ref sig .tc) → Buf (Elt F) ((c : Thread nD τ).loc b) := fun c b => W4 m ρ c b
theorem hF1 (c : Dev nD) (w : Fin cfg1.W) : (dat1 (Ent1 m ρ) c).arrAt w cfg1.N = Ext1 m ρ c (Pipeline.arrRef spec1 w) :=
  (W4_arr m ρ c w).symm
theorem hrest1 (c : Dev nD) : ∀ b, b ∉ Finset.univ.image (Pipeline.arrRef spec1) → Ext1 m ρ c b = Ent1 m ρ c b :=
  fun b hb => W4_of_ne m ρ c b fun w e => hb (Finset.mem_image.mpr ⟨w, Finset.mem_univ _, e⟩)

/-- After the host stretch `hostOps2`. -/
abbrev W5 : Dev nD → Valuation τ sig (Elt F) := fun c => StableHlo.after hostOps2 (W4 m ρ c)

abbrev Ent2 : (c : Dev nD) → (b : Ref sig .tc) → Buf (Elt F) ((c : Thread nD τ).loc b) := fun c b => W5 m ρ c b

/-- At region 2's exit: its windows' arrays at what the pipeline leaves (an input as entered, the output at its
    write-backs folded over the grid), every other buffer as entered. -/
def W6 (c : Dev nD) : Valuation τ sig (Elt F) :=
  Pipeline.withArrays spec2 c (W5 m ρ c) fun w => (dat2 (Ent2 m ρ) c).arrAt w cfg2.N
theorem W6_arr (c : Dev nD) (w : Fin cfg2.W) :
    W6 m ρ c (Proc.devRef .tc (Pipeline.arrRef spec2 w)) = (dat2 (Ent2 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- An input window's array leaves the region as it entered. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (Ent2 m ρ) c).arrAt_in w hw _).trans (A_eq2 (Ent2 m ρ) c w))
/-- The same read at the TensorCore's references (region 2's exit contents). -/
abbrev Ext2 : (c : Dev nD) → (b : Ref sig .tc) → Buf (Elt F) ((c : Thread nD τ).loc b) := fun c b => W6 m ρ c b
theorem hF2 (c : Dev nD) (w : Fin cfg2.W) : (dat2 (Ent2 m ρ) c).arrAt w cfg2.N = Ext2 m ρ c (Pipeline.arrRef spec2 w) :=
  (W6_arr m ρ c w).symm
theorem hrest2 (c : Dev nD) : ∀ b, b ∉ Finset.univ.image (Pipeline.arrRef spec2) → Ext2 m ρ c b = Ent2 m ρ c b :=
  fun b hb => W6_of_ne m ρ c b fun w e => hb (Finset.mem_image.mpr ⟨w, Finset.mem_univ _, e⟩)

/-- After the host stretch `hostOps3`. -/
abbrev W7 : Dev nD → Valuation τ sig (Elt F) := fun c => StableHlo.after hostOps3 (W6 m ρ c)

/-! ## The arguments end as launched -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (r := main_arg0) (by decide)
    _ = W5 m ρ c (Proc.devRef .tc main_arg0) := W6_of_ne m ρ c main_arg0 (by decide)
    _ = W4 m ρ c (Proc.devRef .tc main_arg0) := StableHlo.after_of_writes_sub hostOps2 _ hostOps2_writes (r := main_arg0) (by decide)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps3 _ hostOps3_writes (r := main_arg1) (by decide)
    _ = W5 m ρ c (Proc.devRef .tc main_arg1) := W6_of_ne m ρ c main_arg1 (by decide)
    _ = W4 m ρ c (Proc.devRef .tc main_arg1) := StableHlo.after_of_writes_sub hostOps2 _ hostOps2_writes (r := main_arg1) (by decide)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps3 _ hostOps3_writes (r := main_arg2) (by decide)
    _ = W5 m ρ c (Proc.devRef .tc main_arg2) := W6_of_ne m ρ c main_arg2 (by decide)
    _ = W4 m ρ c (Proc.devRef .tc main_arg2) := StableHlo.after_of_writes_sub hostOps2 _ hostOps2_writes (r := main_arg2) (by decide)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps3 _ hostOps3_writes (r := main_arg3) (by decide)
    _ = W5 m ρ c (Proc.devRef .tc main_arg3) := W6_of_ne m ρ c main_arg3 (by decide)
    _ = W4 m ρ c (Proc.devRef .tc main_arg3) := StableHlo.after_of_writes_sub hostOps2 _ hostOps2_writes (r := main_arg3) (by decide)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps3 _ hostOps3_writes (r := main_arg4) (by decide)
    _ = W5 m ρ c (Proc.devRef .tc main_arg4) := W6_of_ne m ρ c main_arg4 (by decide)
    _ = W4 m ρ c (Proc.devRef .tc main_arg4) := StableHlo.after_of_writes_sub hostOps2 _ hostOps2_writes (r := main_arg4) (by decide)
    _ = W3 m ρ c (Proc.devRef .tc main_arg4) := W4_of_ne m ρ c main_arg4 (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps3 _ hostOps3_writes (r := main_arg5) (by decide)
    _ = W5 m ρ c (Proc.devRef .tc main_arg5) := W6_of_ne m ρ c main_arg5 (by decide)
    _ = W4 m ρ c (Proc.devRef .tc main_arg5) := StableHlo.after_of_writes_sub hostOps2 _ hostOps2_writes (r := main_arg5) (by decide)
    _ = W3 m ρ c (Proc.devRef .tc main_arg5) := W4_of_ne m ρ c main_arg5 (by decide)
    _ = W2 m ρ c (Proc.devRef .tc main_arg5) := StableHlo.after_of_writes_sub hostOps1 _ hostOps1_writes (r := main_arg5) (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_writes_sub hostOps3 _ hostOps3_writes (r := main_arg6) (by decide)
    _ = W5 m ρ c (Proc.devRef .tc main_arg6) := W6_of_ne m ρ c main_arg6 (by decide)
    _ = W4 m ρ c (Proc.devRef .tc main_arg6) := StableHlo.after_of_writes_sub hostOps2 _ hostOps2_writes (r := main_arg6) (by decide)
    _ = W3 m ρ c (Proc.devRef .tc main_arg6) := W4_of_ne m ρ c main_arg6 (by decide)
    _ = W2 m ρ c (Proc.devRef .tc main_arg6) := StableHlo.after_of_writes_sub hostOps1 _ hostOps1_writes (r := main_arg6) (by decide)
    _ = W1 m ρ c (Proc.devRef .tc main_arg6) := W2_of_ne m ρ c main_arg6 (by decide)
    _ = W0 m ρ c (Proc.devRef .tc main_arg6) := StableHlo.after_of_writes_sub hostOps0 _ hostOps0_writes (r := main_arg6) (by decide)
    _ = m ((c : Thread nD τ).loc main_arg6) := rfl

theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_writes_sub hostOps3 _ hostOps3_writes (r := main_arg7) (by decide)
    _ = W5 m ρ c (Proc.devRef .tc main_arg7) := W6_of_ne m ρ c main_arg7 (by decide)
    _ = W4 m ρ c (Proc.devRef .tc main_arg7) := StableHlo.after_of_writes_sub hostOps2 _ hostOps2_writes (r := main_arg7) (by decide)
    _ = W3 m ρ c (Proc.devRef .tc main_arg7) := W4_of_ne m ρ c main_arg7 (by decide)
    _ = W2 m ρ c (Proc.devRef .tc main_arg7) := StableHlo.after_of_writes_sub hostOps1 _ hostOps1_writes (r := main_arg7) (by decide)
    _ = W1 m ρ c (Proc.devRef .tc main_arg7) := W2_of_ne m ρ c main_arg7 (by decide)
    _ = W0 m ρ c (Proc.devRef .tc main_arg7) := StableHlo.after_of_writes_sub hostOps0 _ hostOps0_writes (r := main_arg7) (by decide)
    _ = m ((c : Thread nD τ).loc main_arg7) := rfl

theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_writes_sub hostOps3 _ hostOps3_writes (r := main_arg8) (by decide)
    _ = W5 m ρ c (Proc.devRef .tc main_arg8) := W6_in m ρ c 2 rfl
    _ = W4 m ρ c (Proc.devRef .tc main_arg8) := StableHlo.after_of_writes_sub hostOps2 _ hostOps2_writes (r := main_arg8) (by decide)
    _ = W3 m ρ c (Proc.devRef .tc main_arg8) := W4_of_ne m ρ c main_arg8 (by decide)
    _ = W2 m ρ c (Proc.devRef .tc main_arg8) := StableHlo.after_of_writes_sub hostOps1 _ hostOps1_writes (r := main_arg8) (by decide)
    _ = W1 m ρ c (Proc.devRef .tc main_arg8) := W2_of_ne m ρ c main_arg8 (by decide)
    _ = W0 m ρ c (Proc.devRef .tc main_arg8) := StableHlo.after_of_writes_sub hostOps0 _ hostOps0_writes (r := main_arg8) (by decide)
    _ = m ((c : Thread nD τ).loc main_arg8) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Ent0 m ρ) c
  | ⟨1, _⟩ => fun c => dat1 (Ent1 m ρ) c
  | ⟨2, _⟩ => fun c => dat2 (Ent2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's random-number register at some state and its dues, at nothing. -/
abbrev R (c : Dev nD) : sProp 𝕄 := iprop((∃ r, prngReg c r) ∗ ∃ W, owes (c : Thread nD τ) (0 : CellTallies nD τ sig Unit) W)
/-- A host stretch as an item: its operations run over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the random-number register at some state. -/
abbrev Tₙ (c : Dev nD) : sProp 𝕄 := iprop(StableHlo.held (c : Thread nD τ) (Pipeline.ucRefs τ sig) (W7 m ρ c) ∗ ∃ r, prngReg c r)

/-! ## The regions as items -/

set_option backward.isDefEq.respectTransparency.types false in
/-- Region 0 over the thread state: entered with every unscoped buffer at `W1`, left with them at `W2`. Its
    windows' arrays are split out of the unscoped buffers at entry and put back at their final contents at exit; the
    random-number register goes into the region's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ent0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Ent0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Ent0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Ent0 m ρ c) (Ext0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its
    windows' arrays are split out of the unscoped buffers at entry and put back at their final contents at exit; the
    random-number register goes into the region's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ent1 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (Ent1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Ent1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Ent1 m ρ c) (Ext1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W5`, left with them at `W6`. Its
    windows' arrays are split out of the unscoped buffers at entry and put back at their final contents at exit; the
    random-number register goes into the region's invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Ent2 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (Ent2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Ent2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Ent2 m ρ c) (Ext2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its seven items, and the launch -/

abbrev items : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

theorem main_run (c : Dev nD) : main (F := F) c = Pipeline.Seg.run (items m ρ) := (main_chain c).trans (by chain_rfl)

set_option backward.isDefEq.respectTransparency.types false in
/-- Every weakly fair execution of the program from memory `m` terminates, nothing faulting, and ends with every unscoped
    buffer of every core at the last boundary's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The frame: every execution terminates, nothing faulting, and the nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)) :=
  (θ_run defs _ _).mono (fun r h c =>
    ⟨(h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c)⟩) (run_all m ρ)

end Cert.Kernel.Body

end
-- ==== Proof.FrameKi0.lean ====
/-
  The fused projection region: rows of the activations times the concatenated, row-permuted weights, plus the concatenated bias.
  This module states, for that region entered at arbitrary buffer contents, what each window's block is, what the
  kernel body leaves in the output block (one store over the whole block, its value a function of the three input
  blocks), the body's Hoare triple, and the per-point obligation the pipelined launch asks of the body.
-/
import proofs.«124737_j13280038879618_2_alg».proof.Proof.Gen.KernelIdeal.Launch
import proofs.«124737_j13280038879618_2_alg».proof.Proof.Gen.KernelIdeal.Skeleton
import proofs.«124737_j13280038879618_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The fused projection region: rows of the activations times the concatenated, row-permuted weights, plus the concatenated bias

The region's four windows: the row block of the activations, the whole weight matrix, the whole bias vector, and
the row block of the result. At a grid point the body reads the three input blocks and overwrites the output block
with one store covering it, so what the output's staging buffer holds afterwards is a function of the three input
blocks alone. -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not the point fetched it:
    an unfetched point has the same block index as the point before, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether or not the point fetched it:
    an unfetched point has the same block index as the point before, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether or not the point fetched it:
    an unfetched point has the same block index as the point before, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_x : Rect S512x1024 := Rect.unit (s := S512x1024) ![0, 0] S512x1024.size inb_S512x1024_S512x1024_0_0
abbrev r0_w : Rect S1024x3072 := Rect.unit (s := S1024x3072) ![0, 0] S1024x3072.size inb_S1024x3072_S1024x3072_0_0
abbrev r0_b : Rect S3072 := Rect.unit (s := S3072) ![0] S3072.size inb_S3072_S3072_0
abbrev r0_o : Rect S512x3072 := Rect.unit (s := S512x3072) ![0, 0] S512x3072.size inb_S512x3072_S512x3072_0_0

/-- The output window's staging buffer after the body, from the three input blocks: the one store's payload
    (the product of the row block with the weights, plus the bias row) laid over the whole block. -/
def out0_3 (x0 : Vec F S512x1024 .bf16) (x1 : Vec F S1024x3072 .bf16) (x2 : Vec F S3072 .f32) : Vec F S512x3072 .bf16 :=
  View.canon [⟨r0_o, k0_pay1 (View.ld x0 r0_x) (View.ld x1 r0_w) (View.ld x2 r0_b)⟩]

/-- The one store covers the block. -/
theorem cover0_3 (p0 : Vec F S512x3072 .bf16) (y : S512x3072.Idx) :
    ∃ pc ∈ ([⟨r0_o, p0⟩] : List (View.Piece (Elt F) S512x3072 .bf16)), y ∈ pc.1.set :=
  View.cover_of_tiled [⟨r0_o, p0⟩] S512x3072.size (by rfl) y

set_option maxHeartbeats 1000000 in
/-- The body on whole staging buffers, the inputs' holding `x0 x1 x2` and the output's holding anything, runs to its
    return with the inputs as they were and the output at `out0_3` of them. -/
theorem sound_kernel0 (c : Dev nD) (E : Set ℕ) (i : grid0.Coords)
    (arg1 : Memref sig .tc .vmem S512x1024 .bf16) (harg1 : arg1.IsWhole) (arg2 : Memref sig .tc .vmem S1024x3072 .bf16) (harg2 : arg2.IsWhole)
    (arg3 : Memref sig .tc .vmem S3072 .f32) (harg3 : arg3.IsWhole) (arg4 : Memref sig .tc .vmem S512x3072 .bf16) (harg4 : arg4.IsWhole)
    (x0 : Vec F S512x1024 .bf16) (x1 : Vec F S1024x3072 .bf16) (x2 : Vec F S3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data on core `c`: the arrays as the region finds them; after the body at point `t` each
    input's buffer still at its block and the output's at `out0_3` of the input blocks; the scoped rest and the
    random-number register ride along untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the rest passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Body

end
-- ==== Proof.FrameKi1.lean ====
/-
  The attention region. This module states, for that region entered at arbitrary buffer contents, what each window's
  block is, what the kernel body leaves in the output block (two stores over its two lane halves, each value a function
  of the three input blocks), the body's Hoare triple, and the per-point obligation the pipelined launch asks of the body.
-/
import proofs.«124737_j13280038879618_2_alg».proof.Proof.Gen.KernelIdeal.Launch
import proofs.«124737_j13280038879618_2_alg».proof.Proof.Gen.KernelIdeal.Skeleton
import proofs.«124737_j13280038879618_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The attention region: for one batch entry, one pair of adjacent heads and one tile of 512 queries, the
softmax-weighted sums of the values, head by head

The region's four windows: the query tile's 128 lanes of the pair, all 2048 keys' 128 lanes, all 2048 values' 128
lanes, and the output tile's 128 lanes. The body reads the three input blocks and writes the output block in two
stores, lanes 0–63 (the pair's first head) and lanes 64–127 (its second head), which together tile the block; so what
the output's staging buffer holds afterwards is a function of the three input blocks alone. -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not the point fetched it:
    an unfetched point has the same block index as the point before, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether or not the point fetched it:
    an unfetched point has the same block index as the point before, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether or not the point fetched it:
    an unfetched point has the same block index as the point before, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body loads and stores through: the whole query tile, the whole key (and value) block, and the
    two lane halves of the output tile. -/
abbrev r1_q : Rect S1x512x128 := Rect.unit (s := S1x512x128) ![0, 0, 0] S1x512x128.size inb_S1x512x128_S1x512x128_0_0_0
abbrev r1_kv : Rect S1x2048x128 := Rect.unit (s := S1x2048x128) ![0, 0, 0] S1x2048x128.size inb_S1x2048x128_S1x2048x128_0_0_0
abbrev r1_lo : Rect S1x512x128 := Rect.unit (s := S1x512x128) ![0, 0, 0] S1x512x64.size inb_S1x512x128_S1x512x64_0_0_0
abbrev r1_hi : Rect S1x512x128 := Rect.unit (s := S1x512x128) ![0, 0, 64] S1x512x64.size inb_S1x512x128_S1x512x64_0_0_64

/-- The output window's staging buffer after the body, from the three input blocks: the second head's result over
    lanes 64–127 and the first head's over lanes 0–63 (the later store listed first). -/
def out1_3 (x0 : Vec F S1x512x128 .bf16) (x1 : Vec F S1x2048x128 .bf16) (x2 : Vec F S1x2048x128 .bf16) : Vec F S1x512x128 .bf16 :=
  View.canon [⟨r1_hi, k1_pay1 (k1_pay6 (View.ld x2 r1_kv)) (k1_pay7 (View.ld x0 r1_q) (View.ld x1 r1_kv)) (k1_pay8 (View.ld x0 r1_q) (View.ld x1 r1_kv))⟩,
    ⟨r1_lo, k1_pay5 (View.ld x0 r1_q) (View.ld x1 r1_kv) (View.ld x2 r1_kv)⟩]

/-- The two lane halves tile the block. -/
theorem cover1_3 (p1 p0 : Vec F S1x512x64 .bf16) (y : S1x512x128.Idx) :
    ∃ pc ∈ ([⟨r1_hi, p1⟩, ⟨r1_lo, p0⟩] : List (View.Piece (Elt F) S1x512x128 .bf16)), y ∈ pc.1.set :=
  View.cover_of_tiled [⟨r1_hi, p1⟩, ⟨r1_lo, p0⟩] S1x512x64.size (by rfl) y

set_option maxHeartbeats 4000000 in
/-- The body on whole staging buffers, the inputs' holding `x0 x1 x2` and the output's holding anything, runs to its
    return with the inputs as they were and the output at `out1_3` of them. -/
theorem sound_kernel1 (c : Dev nD) (E : Set ℕ) (i : grid1.Coords)
    (arg3 : Memref sig .tc .vmem S1x512x128 .bf16) (harg3 : arg3.IsWhole) (arg4 : Memref sig .tc .vmem S1x2048x128 .bf16) (harg4 : arg4.IsWhole)
    (arg5 : Memref sig .tc .vmem S1x2048x128 .bf16) (harg5 : arg5.IsWhole) (arg6 : Memref sig .tc .vmem S1x512x128 .bf16) (harg6 : arg6.IsWhole)
    (x0 : Vec F S1x512x128 .bf16) (x1 : Vec F S1x2048x128 .bf16) (x2 : Vec F S1x2048x128 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out1_3 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _ _)

/-- The region's proof data on core `c`: the arrays as the region finds them; after the body at point `t` each
    input's buffer still at its block and the output's at `out1_3` of the input blocks; the scoped rest and the
    random-number register ride along untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the rest passes through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Body

end
-- ==== Proof.FrameKi2.lean ====
/-
  The output projection region: rows of the merged heads times the transposed output weights, plus the output bias.
  This module states, for that region entered at arbitrary buffer contents, what each window's block is, what the
  kernel body leaves in the output block (one store over the whole block, its value a function of the three input
  blocks), the body's Hoare triple, and the per-point obligation the pipelined launch asks of the body.
-/
import proofs.«124737_j13280038879618_2_alg».proof.Proof.Gen.KernelIdeal.Launch
import proofs.«124737_j13280038879618_2_alg».proof.Proof.Gen.KernelIdeal.Skeleton
import proofs.«124737_j13280038879618_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The output projection region: rows of the merged heads times the transposed output weights, plus the output bias

The region's four windows: the row block of the activations, the whole weight matrix, the whole bias vector, and
the row block of the result. At a grid point the body reads the three input blocks and overwrites the output block
with one store covering it, so what the output's staging buffer holds afterwards is a function of the three input
blocks alone. -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether or not the point fetched it:
    an unfetched point has the same block index as the point before, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether or not the point fetched it:
    an unfetched point has the same block index as the point before, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether or not the point fetched it:
    an unfetched point has the same block index as the point before, and the body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_x : Rect S512x1024 := Rect.unit (s := S512x1024) ![0, 0] S512x1024.size inb_S512x1024_S512x1024_0_0
abbrev r2_w : Rect S1024x1024 := Rect.unit (s := S1024x1024) ![0, 0] S1024x1024.size inb_S1024x1024_S1024x1024_0_0
abbrev r2_b : Rect S1024 := Rect.unit (s := S1024) ![0] S1024.size inb_S1024_S1024_0
abbrev r2_o : Rect S512x1024 := Rect.unit (s := S512x1024) ![0, 0] S512x1024.size inb_S512x1024_S512x1024_0_0

/-- The output window's staging buffer after the body, from the three input blocks: the one store's payload
    (the product of the row block with the weights, plus the bias row) laid over the whole block. -/
def out2_3 (x0 : Vec F S512x1024 .bf16) (x1 : Vec F S1024x1024 .bf16) (x2 : Vec F S1024 .f32) : Vec F S512x1024 .f32 :=
  View.canon [⟨r2_o, k2_pay1 (View.ld x0 r2_x) (View.ld x1 r2_w) (View.ld x2 r2_b)⟩]

/-- The one store covers the block. -/
theorem cover2_3 (p0 : Vec F S512x1024 .f32) (y : S512x1024.Idx) :
    ∃ pc ∈ ([⟨r2_o, p0⟩] : List (View.Piece (Elt F) S512x1024 .f32)), y ∈ pc.1.set :=
  View.cover_of_tiled [⟨r2_o, p0⟩] S512x1024.size (by rfl) y

set_option maxHeartbeats 1000000 in
/-- The body on whole staging buffers, the inputs' holding `x0 x1 x2` and the output's holding anything, runs to its
    return with the inputs as they were and the output at `out2_3` of them. -/
theorem sound_kernel2 (c : Dev nD) (E : Set ℕ) (i : grid2.Coords)
    (arg1 : Memref sig .tc .vmem S512x1024 .bf16) (harg1 : arg1.IsWhole) (arg2 : Memref sig .tc .vmem S1024x1024 .bf16) (harg2 : arg2.IsWhole)
    (arg3 : Memref sig .tc .vmem S1024 .f32) (harg3 : arg3.IsWhole) (arg4 : Memref sig .tc .vmem S512x1024 .f32) (harg4 : arg4.IsWhole)
    (x0 : Vec F S512x1024 .bf16) (x1 : Vec F S1024x1024 .bf16) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The region's proof data on core `c`: the arrays as the region finds them; after the body at point `t` each
    input's buffer still at its block and the output's at `out2_3` of the input blocks; the scoped rest and the
    random-number register ride along untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the rest passes through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Body

end
-- ==== Proof.RunKi.lean ====
/-
  The whole run of the program: host operations, the fused projection region, host operations, the attention region,
  host operations, the output projection region, and a final reshape. The contents of every unscoped buffer are
  followed from the launch memory through the seven items; each region is entered with all of them at the contents
  the item before left and is left with its windows' arrays at what its pipeline writes back. One launch over the
  seven items then says: every execution terminates without a fault, and ends with every unscoped buffer at the last
  boundary's contents. The nine argument arrays are written by no item, so they end as launched.
-/
import proofs.«124737_j13280038879618_2_alg».proof.Proof.FrameKi0
import proofs.«124737_j13280038879618_2_alg».proof.Proof.FrameKi1
import proofs.«124737_j13280038879618_2_alg».proof.Proof.FrameKi2
import proofs.«124737_j13280038879618_2_alg».proof.Proof.Gen.KernelIdeal.Regions

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the weight permutation, transposition and concatenation, the activations flattened). -/
abbrev W1 : Dev nD → Valuation τ sig (Elt F) := fun c => StableHlo.after hostOps0 (W0 m ρ c)
abbrev Ent0 : (c : Dev nD) → (b : Ref sig .tc) → Buf (Elt F) ((c : Thread nD τ).loc b) := fun c b => W1 m ρ c b

/-- At region 0's exit: its windows' arrays at what the pipeline leaves (an input as entered, the output at its
    write-backs folded over the grid), every other buffer as entered. -/
def W2 (c : Dev nD) : Valuation τ sig (Elt F) :=
  Pipeline.withArrays spec0 c (W1 m ρ c) fun w => (dat0 (Ent0 m ρ) c).arrAt w cfg0.N
theorem W2_arr (c : Dev nD) (w : Fin cfg0.W) :
    W2 m ρ c (Proc.devRef .tc (Pipeline.arrRef spec0 w)) = (dat0 (Ent0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves the region as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (Ent0 m ρ) c).arrAt_in w hw _).trans (A_eq0 (Ent0 m ρ) c w))
/-- The same read at the TensorCore's references (region 0's exit contents). -/
abbrev Ext0 : (c : Dev nD) → (b : Ref sig .tc) → Buf (Elt F) ((c : Thread nD τ).loc b) := fun c b => W2 m ρ c b
theorem hF0 (c : Dev nD) (w : Fin cfg0.W) : (dat0 (Ent0 m ρ) c).arrAt w cfg0.N = Ext0 m ρ c (Pipeline.arrRef spec0 w) :=
  (W2_arr m ρ c w).symm
theorem hrest0 (c : Dev nD) : ∀ b, b ∉ Finset.univ.image (Pipeline.arrRef spec0) → Ext0 m ρ c b = Ent0 m ρ c b :=
  fun b hb => W2_of_ne m ρ c b fun w e => hb (Finset.mem_image.mpr ⟨w, Finset.mem_univ _, e⟩)

/-- After the host stretch `hostOps1`. -/
abbrev W3 : Dev nD → Valuation τ sig (Elt F) := fun c => StableHlo.after hostOps1 (W2 m ρ c)

abbrev Ent1 : (c : Dev nD) → (b : Ref sig .tc) → Buf (Elt F) ((c : Thread nD τ).loc b) := fun c b => W3 m ρ c b

/-- At region 1's exit: its windows' arrays at what the pipeline leaves (an input as entered, the output at its
    write-backs folded over the grid), every other buffer as entered. -/
def W4 (c : Dev nD) : Valuation τ sig (Elt F) :=
  Pipeline.withArrays spec1 c (W3 m ρ c) fun w => (dat1 (Ent1 m ρ) c).arrAt w cfg1.N
theorem W4_arr (c : Dev nD) (w : Fin cfg1.W) :
    W4 m ρ c (Proc.devRef .tc (Pipeline.arrRef spec1 w)) = (dat1 (Ent1 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An input window's array leaves the region as it entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (Ent1 m ρ) c).arrAt_in w hw _).trans (A_eq1 (Ent1 m ρ) c w))
/-- The same read at the TensorCore's references (region 1's exit contents). -/
abbrev Ext1 : (c : Dev nD) → (b : Ref sig .tc) → Buf (Elt F) ((c : Thread nD τ).loc b) := fun c b => W4 m ρ c b
theorem hF1 (c : Dev nD) (w : Fin cfg1.W) : (dat1 (Ent1 m ρ) c).arrAt w cfg1.N = Ext1 m ρ c (Pipeline.arrRef spec1 w) :=
  (W4_arr m ρ c w).symm
theorem hrest1 (c : Dev nD) : ∀ b, b ∉ Finset.univ.image (Pipeline.arrRef spec1) → Ext1 m ρ c b = Ent1 m ρ c b :=
  fun b hb => W4_of_ne m ρ c b fun w e => hb (Finset.mem_image.mpr ⟨w, Finset.mem_univ _, e⟩)

/-- After the host stretch `hostOps2`. -/
abbrev W5 : Dev nD → Valuation τ sig (Elt F) := fun c => StableHlo.after hostOps2 (W4 m ρ c)

abbrev Ent2 : (c : Dev nD) → (b : Ref sig .tc) → Buf (Elt F) ((c : Thread nD τ).loc b) := fun c b => W5 m ρ c b

/-- At region 2's exit: its windows' arrays at what the pipeline leaves (an input as entered, the output at its
    write-backs folded over the grid), every other buffer as entered. -/
def W6 (c : Dev nD) : Valuation τ sig (Elt F) :=
  Pipeline.withArrays spec2 c (W5 m ρ c) fun w => (dat2 (Ent2 m ρ) c).arrAt w cfg2.N
theorem W6_arr (c : Dev nD) (w : Fin cfg2.W) :
    W6 m ρ c (Proc.devRef .tc (Pipeline.arrRef spec2 w)) = (dat2 (Ent2 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- An input window's array leaves the region as it entered. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (Ent2 m ρ) c).arrAt_in w hw _).trans (A_eq2 (Ent2 m ρ) c w))
/-- The same read at the TensorCore's references (region 2's exit contents). -/
abbrev Ext2 : (c : Dev nD) → (b : Ref sig .tc) → Buf (Elt F) ((c : Thread nD τ).loc b) := fun c b => W6 m ρ c b
theorem hF2 (c : Dev nD) (w : Fin cfg2.W) : (dat2 (Ent2 m ρ) c).arrAt w cfg2.N = Ext2 m ρ c (Pipeline.arrRef spec2 w) :=
  (W6_arr m ρ c w).symm
theorem hrest2 (c : Dev nD) : ∀ b, b ∉ Finset.univ.image (Pipeline.arrRef spec2) → Ext2 m ρ c b = Ent2 m ρ c b :=
  fun b hb => W6_of_ne m ρ c b fun w e => hb (Finset.mem_image.mpr ⟨w, Finset.mem_univ _, e⟩)

/-- After the host stretch `hostOps3`. -/
abbrev W7 : Dev nD → Valuation τ sig (Elt F) := fun c => StableHlo.after hostOps3 (W6 m ρ c)

/-! ## The arguments end as launched -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (r := main_arg0) (by decide)
    _ = W5 m ρ c (Proc.devRef .tc main_arg0) := W6_of_ne m ρ c main_arg0 (by decide)
    _ = W4 m ρ c (Proc.devRef .tc main_arg0) := StableHlo.after_of_writes_sub hostOps2 _ hostOps2_writes (r := main_arg0) (by decide)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps3 _ hostOps3_writes (r := main_arg1) (by decide)
    _ = W5 m ρ c (Proc.devRef .tc main_arg1) := W6_of_ne m ρ c main_arg1 (by decide)
    _ = W4 m ρ c (Proc.devRef .tc main_arg1) := StableHlo.after_of_writes_sub hostOps2 _ hostOps2_writes (r := main_arg1) (by decide)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps3 _ hostOps3_writes (r := main_arg2) (by decide)
    _ = W5 m ρ c (Proc.devRef .tc main_arg2) := W6_of_ne m ρ c main_arg2 (by decide)
    _ = W4 m ρ c (Proc.devRef .tc main_arg2) := StableHlo.after_of_writes_sub hostOps2 _ hostOps2_writes (r := main_arg2) (by decide)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps3 _ hostOps3_writes (r := main_arg3) (by decide)
    _ = W5 m ρ c (Proc.devRef .tc main_arg3) := W6_of_ne m ρ c main_arg3 (by decide)
    _ = W4 m ρ c (Proc.devRef .tc main_arg3) := StableHlo.after_of_writes_sub hostOps2 _ hostOps2_writes (r := main_arg3) (by decide)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps3 _ hostOps3_writes (r := main_arg4) (by decide)
    _ = W5 m ρ c (Proc.devRef .tc main_arg4) := W6_of_ne m ρ c main_arg4 (by decide)
    _ = W4 m ρ c (Proc.devRef .tc main_arg4) := StableHlo.after_of_writes_sub hostOps2 _ hostOps2_writes (r := main_arg4) (by decide)
    _ = W3 m ρ c (Proc.devRef .tc main_arg4) := W4_of_ne m ρ c main_arg4 (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps3 _ hostOps3_writes (r := main_arg5) (by decide)
    _ = W5 m ρ c (Proc.devRef .tc main_arg5) := W6_of_ne m ρ c main_arg5 (by decide)
    _ = W4 m ρ c (Proc.devRef .tc main_arg5) := StableHlo.after_of_writes_sub hostOps2 _ hostOps2_writes (r := main_arg5) (by decide)
    _ = W3 m ρ c (Proc.devRef .tc main_arg5) := W4_of_ne m ρ c main_arg5 (by decide)
    _ = W2 m ρ c (Proc.devRef .tc main_arg5) := StableHlo.after_of_writes_sub hostOps1 _ hostOps1_writes (r := main_arg5) (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_writes_sub hostOps3 _ hostOps3_writes (r := main_arg6) (by decide)
    _ = W5 m ρ c (Proc.devRef .tc main_arg6) := W6_of_ne m ρ c main_arg6 (by decide)
    _ = W4 m ρ c (Proc.devRef .tc main_arg6) := StableHlo.after_of_writes_sub hostOps2 _ hostOps2_writes (r := main_arg6) (by decide)
    _ = W3 m ρ c (Proc.devRef .tc main_arg6) := W4_of_ne m ρ c main_arg6 (by decide)
    _ = W2 m ρ c (Proc.devRef .tc main_arg6) := StableHlo.after_of_writes_sub hostOps1 _ hostOps1_writes (r := main_arg6) (by decide)
    _ = W1 m ρ c (Proc.devRef .tc main_arg6) := W2_of_ne m ρ c main_arg6 (by decide)
    _ = W0 m ρ c (Proc.devRef .tc main_arg6) := StableHlo.after_of_writes_sub hostOps0 _ hostOps0_writes (r := main_arg6) (by decide)
    _ = m ((c : Thread nD τ).loc main_arg6) := rfl

theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_writes_sub hostOps3 _ hostOps3_writes (r := main_arg7) (by decide)
    _ = W5 m ρ c (Proc.devRef .tc main_arg7) := W6_of_ne m ρ c main_arg7 (by decide)
    _ = W4 m ρ c (Proc.devRef .tc main_arg7) := StableHlo.after_of_writes_sub hostOps2 _ hostOps2_writes (r := main_arg7) (by decide)
    _ = W3 m ρ c (Proc.devRef .tc main_arg7) := W4_of_ne m ρ c main_arg7 (by decide)
    _ = W2 m ρ c (Proc.devRef .tc main_arg7) := StableHlo.after_of_writes_sub hostOps1 _ hostOps1_writes (r := main_arg7) (by decide)
    _ = W1 m ρ c (Proc.devRef .tc main_arg7) := W2_of_ne m ρ c main_arg7 (by decide)
    _ = W0 m ρ c (Proc.devRef .tc main_arg7) := StableHlo.after_of_writes_sub hostOps0 _ hostOps0_writes (r := main_arg7) (by decide)
    _ = m ((c : Thread nD τ).loc main_arg7) := rfl

theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_writes_sub hostOps3 _ hostOps3_writes (r := main_arg8) (by decide)
    _ = W5 m ρ c (Proc.devRef .tc main_arg8) := W6_in m ρ c 2 rfl
    _ = W4 m ρ c (Proc.devRef .tc main_arg8) := StableHlo.after_of_writes_sub hostOps2 _ hostOps2_writes (r := main_arg8) (by decide)
    _ = W3 m ρ c (Proc.devRef .tc main_arg8) := W4_of_ne m ρ c main_arg8 (by decide)
    _ = W2 m ρ c (Proc.devRef .tc main_arg8) := StableHlo.after_of_writes_sub hostOps1 _ hostOps1_writes (r := main_arg8) (by decide)
    _ = W1 m ρ c (Proc.devRef .tc main_arg8) := W2_of_ne m ρ c main_arg8 (by decide)
    _ = W0 m ρ c (Proc.devRef .tc main_arg8) := StableHlo.after_of_writes_sub hostOps0 _ hostOps0_writes (r := main_arg8) (by decide)
    _ = m ((c : Thread nD τ).loc main_arg8) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Ent0 m ρ) c
  | ⟨1, _⟩ => fun c => dat1 (Ent1 m ρ) c
  | ⟨2, _⟩ => fun c => dat2 (Ent2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's random-number register at some state and its dues, at nothing. -/
abbrev R (c : Dev nD) : sProp 𝕄 := iprop((∃ r, prngReg c r) ∗ ∃ W, owes (c : Thread nD τ) (0 : CellTallies nD τ sig Unit) W)
/-- A host stretch as an item: its operations run over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the random-number register at some state. -/
abbrev Tₙ (c : Dev nD) : sProp 𝕄 := iprop(StableHlo.held (c : Thread nD τ) (Pipeline.ucRefs τ sig) (W7 m ρ c) ∗ ∃ r, prngReg c r)

/-! ## The regions as items -/

set_option backward.isDefEq.respectTransparency.types false in
/-- Region 0 over the thread state: entered with every unscoped buffer at `W1`, left with them at `W2`. Its
    windows' arrays are split out of the unscoped buffers at entry and put back at their final contents at exit; the
    random-number register goes into the region's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ent0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Ent0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Ent0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Ent0 m ρ c) (Ext0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its
    windows' arrays are split out of the unscoped buffers at entry and put back at their final contents at exit; the
    random-number register goes into the region's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ent1 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (Ent1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Ent1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Ent1 m ρ c) (Ext1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W5`, left with them at `W6`. Its
    windows' arrays are split out of the unscoped buffers at entry and put back at their final contents at exit; the
    random-number register goes into the region's invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Ent2 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (Ent2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Ent2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Ent2 m ρ c) (Ext2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its seven items, and the launch -/

abbrev items : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

theorem main_run (c : Dev nD) : main (F := F) c = Pipeline.Seg.run (items m ρ) := (main_chain c).trans (by chain_rfl)

set_option backward.isDefEq.respectTransparency.types false in
/-- Every weakly fair execution of the program from memory `m` terminates, nothing faulting, and ends with every unscoped
    buffer of every core at the last boundary's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The frame: every execution terminates, nothing faulting, and the nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)) :=
  (θ_run defs _ _).mono (fun r h c =>
    ⟨(h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c)⟩) (run_all m ρ)

end Cert.KernelIdeal.Body

end
-- ==== Proof.LibGraphOps.lean ====
/-
  The host's row gather and accumulating scatter read at an index, and the facts on index words and degree counts that go
  with them.

  Reading the rows `idx[e, 0]` of an array `x : [N, C]` (or the elements of an `x : [N]`) at a column of integers
  `idx : [E, 1]` is a `stablehlo.gather` with the row axis collapsed: result row `e` is the operand's row at `idx[e, 0]`, read
  as a signed integer and clamped into `[0, N − 1]`. Adding the rows `u[e]` of an array `u : [E, C]` into the rows
  `idx[e, 0]` of an array `z : [N, C]` is a `stablehlo.scatter` with an `add` body and the row axis inserted: update row `e`
  lands on the operand's row `idx[e, 0]`, read signed and NOT clamped, and is dropped when that is outside the operand. So
  an update that lands on row `n` has `idx[e, 0] = n` as an integer; such a word is not negative, so the negative-index wrap
  `if v < 0 then v + N else v` leaves it alone, and the gather's clamp reads row `n` too.
  Last, the degree a scatter of ones accumulates is a natural number, and the inverse square root of a real `≥ 1` is a
  nonnegative finite extended real.
-/
import Idealize.ShloMosaic.PureOps.Ideal
import Idealize.ShloMosaic.PureOps.Ideal.Laws
import Idealize.ShloMosaic.Lib.ValueIdx

noncomputable section

open scoped BigOperators

namespace Cert.Lib

open Idealize.ShloMosaic Idealize.ShloMosaic.ValueIdx

/-! ## The row gather of a rank-2 (or rank-1) operand at a column of start indices -/

section Gather
variable {α : Type}

/-- The row gather's dimension numbers for an operand `[N, C]`, start indices `[E, 1]` and result `[E, C]`: the row axis
    collapsed, the column axis an offset axis, whole rows sliced. -/
abbrev rowsGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row gather at `(e, k)`: the operand at row `idx[e, 0]`, read signed and clamped into `[0, N − 1]`, column `k`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowsGatherDims N C E wf) x idx (ix2 e k)
      = x (ix2 ⟨min (idx (ix2 e (⟨0, Nat.one_pos⟩ : Fin 1))).toInt.toNat (N - 1), by omega⟩ k) := by
  unfold Host.gather
  congr 1
  funext a
  refine Fin.ext ?_
  match a with
  | ⟨0, _⟩ =>
    show (rowsGatherDims N C E wf).start (ix2 e k) idx 0 + (rowsGatherDims N C E wf).batchCoord (ix2 e k) 0
      + (rowsGatherDims N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGatherDims N C E wf).startIndexMap from List.mem_singleton.mpr rfl)]
    have hsi : (rowsGatherDims N C E wf).siIdx (ix2 e k) ⟨List.idxOf (0 : Fin 2) (rowsGatherDims N C E wf).startIndexMap,
        List.idxOf_lt_length_iff.2 (List.mem_singleton.mpr rfl)⟩ = ix2 e (⟨0, Nat.one_pos⟩ : Fin 1) := by
      funext b; refine Fin.ext ?_
      match b with
      | ⟨0, _⟩ => rfl
      | ⟨1, _⟩ => rfl
    rw [hsi]
    rfl
  | ⟨1, _⟩ =>
    show (rowsGatherDims N C E wf).start (ix2 e k) idx 1 + (rowsGatherDims N C E wf).batchCoord (ix2 e k) 1
      + (rowsGatherDims N C E wf).offCoord (ix2 e k) 1 = _
    rw [GatherDims.batchCoord_eq_zero _ _ _ List.not_mem_nil]
    unfold GatherDims.start
    rw [dif_neg (show (1 : Fin 2) ∉ (rowsGatherDims N C E wf).startIndexMap from (by decide : (1 : Fin 2) ∉ ([0] : List (Fin 2))))]
    simp only [Nat.add_zero, Nat.zero_add]
    unfold GatherDims.offCoord
    rw [dif_pos ((GatherDims.mem_sKept _ _).2 ⟨(by decide : (1 : Fin 2) ∉ ([0] : List (Fin 2))), List.not_mem_nil⟩)]
    rfl

/-- The gather's dimension numbers for a flat operand `[N]`, start indices `[E, 1]` and result `[E]`: the one axis
    collapsed, single elements sliced. -/
abbrev vecGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The flat gather at `e`: the operand at `idx[e, 0]`, read signed and clamped into `[0, N − 1]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e (⟨0, Nat.one_pos⟩ : Fin 1))).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (⟨0, Nat.one_pos⟩ : Fin 1) := by
    funext b; refine Fin.ext ?_
    match b with
    | ⟨0, _⟩ => rfl
    | ⟨1, _⟩ => rfl
  rw [hsi]
  rfl

end Gather

/-! ## The accumulating scatter at a column of scatter indices: where an update lands -/

section Scatter

/-- The row scatter's dimension numbers for an operand `[N, C]`, scatter indices `[E, 1]` and updates `[E, C]`: the
    row axis inserted, the column axis a window axis. -/
abbrev rowsScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N C E w : Nat} (wf : ScatterDims.WF ⟨2, ![N, C]⟩ ⟨2, ![E, 1]⟩ ⟨2, ![E, C]⟩ [1] [0] [0] 1)

/-- On the row axis the window of update `(e, k)` starts at `idx[e, 0]` read as a signed integer … -/
theorem rowsScatter_start0 (j : (⟨2, ![E, C]⟩ : Shape).Idx) (idx : IVec ⟨2, ![E, 1]⟩ w) :
    (rowsScatterDims N C E wf).start j idx 0 = (idx (ix2 (j 0) (⟨0, Nat.one_pos⟩ : Fin 1))).toInt := by
  unfold ScatterDims.start
  rw [dif_pos (show (0 : Fin 2) ∈ (rowsScatterDims N C E wf).scatterDimsToOperandDims from List.mem_singleton.mpr rfl)]
  have hsi : (rowsScatterDims N C E wf).siIdx j ⟨List.idxOf (0 : Fin 2) (rowsScatterDims N C E wf).scatterDimsToOperandDims,
      List.idxOf_lt_length_iff.2 (List.mem_singleton.mpr rfl)⟩ = ix2 (j 0) (⟨0, Nat.one_pos⟩ : Fin 1) := by
    funext b; refine Fin.ext ?_
    match b with
    | ⟨0, _⟩ => rfl
    | ⟨1, _⟩ => rfl
  rw [hsi]
  rfl
/-- … and on the column axis at `0`; -/
theorem rowsScatter_start1 (j : (⟨2, ![E, C]⟩ : Shape).Idx) (idx : IVec ⟨2, ![E, 1]⟩ w) :
    (rowsScatterDims N C E wf).start j idx 1 = 0 := by
  unfold ScatterDims.start
  rw [dif_neg (show (1 : Fin 2) ∉ (rowsScatterDims N C E wf).scatterDimsToOperandDims from
    (by decide : (1 : Fin 2) ∉ ([0] : List (Fin 2))))]
/-- the window coordinate is `0` on the (inserted) row axis … -/
theorem rowsScatter_window0 (j : (⟨2, ![E, C]⟩ : Shape).Idx) : (rowsScatterDims N C E wf).window j 0 = 0 := by
  unfold ScatterDims.window
  rw [dif_neg (show (0 : Fin 2) ∉ (rowsScatterDims N C E wf).sKept from
    (by decide : (0 : Fin 2) ∉ ([1] : List (Fin 2))))]
/-- … and the update's column on the column axis. -/
theorem rowsScatter_window1 (j : (⟨2, ![E, C]⟩ : Shape).Idx) : (rowsScatterDims N C E wf).window j 1 = (j 1).val := by
  unfold ScatterDims.window
  rw [dif_pos (show (1 : Fin 2) ∈ (rowsScatterDims N C E wf).sKept from
    (by decide : (1 : Fin 2) ∈ ([1] : List (Fin 2))))]
  rfl

/-- WHERE A ROW UPDATE LANDS: update `j = (e, k)` lands on operand element `p` exactly when `idx[e, 0]`, read signed, is
    `p`'s row and `k` is `p`'s column. -/
theorem scatter_rows_resultIdx_iff (j : (⟨2, ![E, C]⟩ : Shape).Idx) (idx : IVec ⟨2, ![E, 1]⟩ w)
    (p : (⟨2, ![N, C]⟩ : Shape).Idx) :
    (rowsScatterDims N C E wf).resultIdx? j idx = some p
      ↔ (idx (ix2 (j 0) (⟨0, Nat.one_pos⟩ : Fin 1))).toInt = ((p 0).val : Int) ∧ (j 1).val = (p 1).val := by
  have hp0 := idx2_lt0 p
  have hp1 := idx2_lt1 p
  have hj1 := idx2_lt1 j
  unfold ScatterDims.resultIdx?
  constructor
  · intro h
    split at h
    · rename_i hall
      have heq := Option.some.inj h
      have h0 : ((rowsScatterDims N C E wf).start j idx 0 + ((rowsScatterDims N C E wf).window j 0 : Int)).toNat = (p 0).val :=
        congrArg Fin.val (congrFun heq 0)
      have h1 : ((rowsScatterDims N C E wf).start j idx 1 + ((rowsScatterDims N C E wf).window j 1 : Int)).toNat = (p 1).val :=
        congrArg Fin.val (congrFun heq 1)
      have hn0 := (hall 0).1
      rw [rowsScatter_start0, rowsScatter_window0] at h0 hn0
      rw [rowsScatter_start1, rowsScatter_window1] at h1
      constructor <;> omega
    · exact absurd h (by simp)
  · rintro ⟨h0, h1⟩
    have hall : ∀ a : Fin 2, 0 ≤ (rowsScatterDims N C E wf).start j idx a + ((rowsScatterDims N C E wf).window j a : Int)
        ∧ (rowsScatterDims N C E wf).start j idx a + ((rowsScatterDims N C E wf).window j a : Int)
          < ((⟨2, ![N, C]⟩ : Shape).size a : Int) := by
      intro a
      match a with
      | ⟨0, _⟩ =>
        show 0 ≤ (rowsScatterDims N C E wf).start j idx 0 + ((rowsScatterDims N C E wf).window j 0 : Int)
          ∧ (rowsScatterDims N C E wf).start j idx 0 + ((rowsScatterDims N C E wf).window j 0 : Int) < (N : Int)
        rw [rowsScatter_start0, rowsScatter_window0, h0]; omega
      | ⟨1, _⟩ =>
        show 0 ≤ (rowsScatterDims N C E wf).start j idx 1 + ((rowsScatterDims N C E wf).window j 1 : Int)
          ∧ (rowsScatterDims N C E wf).start j idx 1 + ((rowsScatterDims N C E wf).window j 1 : Int) < (C : Int)
        rw [rowsScatter_start1, rowsScatter_window1]; omega
    rw [dif_pos hall]
    congr 1
    funext a
    refine Fin.ext ?_
    match a with
    | ⟨0, _⟩ =>
      show ((rowsScatterDims N C E wf).start j idx 0 + ((rowsScatterDims N C E wf).window j 0 : Int)).toNat = (p 0).val
      rw [rowsScatter_start0, rowsScatter_window0, h0]; omega
    | ⟨1, _⟩ =>
      show ((rowsScatterDims N C E wf).start j idx 1 + ((rowsScatterDims N C E wf).window j 1 : Int)).toNat = (p 1).val
      rw [rowsScatter_start1, rowsScatter_window1]; omega

/-- A row update that lands on `p` has the integer `idx[e, 0]` equal to `p`'s row. -/
theorem scatter_rows_landing (j : (⟨2, ![E, C]⟩ : Shape).Idx) (idx : IVec ⟨2, ![E, 1]⟩ w) (p : (⟨2, ![N, C]⟩ : Shape).Idx)
    (h : (rowsScatterDims N C E wf).resultIdx? j idx = some p) :
    (idx (ix2 (j 0) (⟨0, Nat.one_pos⟩ : Fin 1))).toInt = ((p 0).val : Int) :=
  ((scatter_rows_resultIdx_iff wf j idx p).1 h).1

/-- A row update that lands on `p` has `p`'s column. -/
theorem scatter_rows_landing_col (j : (⟨2, ![E, C]⟩ : Shape).Idx) (idx : IVec ⟨2, ![E, 1]⟩ w) (p : (⟨2, ![N, C]⟩ : Shape).Idx)
    (h : (rowsScatterDims N C E wf).resultIdx? j idx = some p) : (j 1).val = (p 1).val :=
  ((scatter_rows_resultIdx_iff wf j idx p).1 h).2

end Scatter

section ScatterVec

/-- The dimension numbers of the same scatter into a flat operand `[N]`, scatter indices `[E, 1]` and updates `[E]`:
    the one axis inserted, no window axis. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- The window of update `e` starts at `idx[e, 0]` read as a signed integer … -/
theorem vecScatter_start0 (j : (⟨1, ![E]⟩ : Shape).Idx) (idx : IVec ⟨2, ![E, 1]⟩ w) :
    (vecScatterDims N E wf).start j idx 0 = (idx (ix2 (j 0) (⟨0, Nat.one_pos⟩ : Fin 1))).toInt := by
  unfold ScatterDims.start
  rw [dif_pos (show (0 : Fin 1) ∈ (vecScatterDims N E wf).scatterDimsToOperandDims from List.mem_singleton.mpr rfl)]
  have hsi : (vecScatterDims N E wf).siIdx j ⟨List.idxOf (0 : Fin 1) (vecScatterDims N E wf).scatterDimsToOperandDims,
      List.idxOf_lt_length_iff.2 (List.mem_singleton.mpr rfl)⟩ = ix2 (j 0) (⟨0, Nat.one_pos⟩ : Fin 1) := by
    funext b; refine Fin.ext ?_
    match b with
    | ⟨0, _⟩ => rfl
    | ⟨1, _⟩ => rfl
  rw [hsi]
  rfl
/-- … and its window coordinate on the (inserted) axis is `0`. -/
theorem vecScatter_window0 (j : (⟨1, ![E]⟩ : Shape).Idx) : (vecScatterDims N E wf).window j 0 = 0 := by
  unfold ScatterDims.window
  rw [dif_neg (show (0 : Fin 1) ∉ (vecScatterDims N E wf).sKept from
    (by decide : (0 : Fin 1) ∉ ([] : List (Fin 1))))]

/-- WHERE A FLAT UPDATE LANDS: update `e` lands on operand element `p` exactly when `idx[e, 0]`, read signed, is `p`. -/
theorem scatter_vec_resultIdx_iff (j : (⟨1, ![E]⟩ : Shape).Idx) (idx : IVec ⟨2, ![E, 1]⟩ w) (p : (⟨1, ![N]⟩ : Shape).Idx) :
    (vecScatterDims N E wf).resultIdx? j idx = some p
      ↔ (idx (ix2 (j 0) (⟨0, Nat.one_pos⟩ : Fin 1))).toInt = ((p 0).val : Int) := by
  have hp0 : (p 0).val < N := (p 0).isLt
  unfold ScatterDims.resultIdx?
  constructor
  · intro h
    split at h
    · rename_i hall
      have h0 : ((vecScatterDims N E wf).start j idx 0 + ((vecScatterDims N E wf).window j 0 : Int)).toNat = (p 0).val :=
        congrArg Fin.val (congrFun (Option.some.inj h) 0)
      have hn0 := (hall 0).1
      rw [vecScatter_start0, vecScatter_window0] at h0 hn0
      omega
    · exact absurd h (by simp)
  · intro h0
    have hall : ∀ a : Fin 1, 0 ≤ (vecScatterDims N E wf).start j idx a + ((vecScatterDims N E wf).window j a : Int)
        ∧ (vecScatterDims N E wf).start j idx a + ((vecScatterDims N E wf).window j a : Int)
          < ((⟨1, ![N]⟩ : Shape).size a : Int) := by
      intro a
      obtain rfl : a = 0 := Subsingleton.elim _ _
      show 0 ≤ (vecScatterDims N E wf).start j idx 0 + ((vecScatterDims N E wf).window j 0 : Int)
        ∧ (vecScatterDims N E wf).start j idx 0 + ((vecScatterDims N E wf).window j 0 : Int) < (N : Int)
      rw [vecScatter_start0, vecScatter_window0, h0]; omega
    rw [dif_pos hall]
    congr 1
    funext a
    obtain rfl : a = 0 := Subsingleton.elim _ _
    refine Fin.ext ?_
    show ((vecScatterDims N E wf).start j idx 0 + ((vecScatterDims N E wf).window j 0 : Int)).toNat = (p 0).val
    rw [vecScatter_start0, vecScatter_window0, h0]; omega

/-- A flat update that lands on `p` has the integer `idx[e, 0]` equal to `p`. -/
theorem scatter_vec_landing (j : (⟨1, ![E]⟩ : Shape).Idx) (idx : IVec ⟨2, ![E, 1]⟩ w) (p : (⟨1, ![N]⟩ : Shape).Idx)
    (h : (vecScatterDims N E wf).resultIdx? j idx = some p) :
    (idx (ix2 (j 0) (⟨0, Nat.one_pos⟩ : Fin 1))).toInt = ((p 0).val : Int) :=
  (scatter_vec_resultIdx_iff wf j idx p).1 h

end ScatterVec

/-! ## The accumulating scatter and the column broadcast at an index -/

section Reads

/-- The accumulating float scatter at the ideal instance, read at operand element `i`: the operand's element plus the sum
    of the updates that land on `i`. -/
theorem scatterAdd_apply {s si u : Shape} {w : Nat} {φ : FTy} (d : ScatterDims s si u) (x : FVec Ideal s φ)
    (idx : IVec si w) (upd : FVec Ideal u φ) (i : s.Idx) :
    Host.scatterAdd d x idx upd i = x i + ∑ j ∈ Finset.univ.filter (fun j => d.resultIdx? j idx = some i), upd j := rfl

/-- A vector `[E]` broadcast to the column `[E, 1]` reads at `(e, 0)` its element `e`. -/
theorem broadcastInDim_col_apply {α : Type} {E : Nat} (h : (⟨1, ![E]⟩ : Shape).BroadcastsInDim ⟨2, ![E, 1]⟩ ![0])
    (x : (⟨1, ![E]⟩ : Shape).Idx → α) (e : Fin E) :
    broadcastInDim ⟨2, ![E, 1]⟩ ![0] h x (ix2 e (⟨0, Nat.one_pos⟩ : Fin 1)) = x (ix1 e) := by
  unfold broadcastInDim
  congr 1
  funext a
  obtain rfl : a = 0 := Subsingleton.elim _ _
  refine Fin.ext ?_
  by_cases h1 : E = 1
  · rw [dif_pos (show (⟨1, ![E]⟩ : Shape).size 0 = 1 from h1)]
    show 0 = e.val
    have := e.isLt; omega
  · rw [dif_neg (show ¬ (⟨1, ![E]⟩ : Shape).size 0 = 1 from h1)]
    rfl

end Reads

/-! ## An index word that equals a row number: not negative, and its own clamp -/

section Words

/-- A word whose signed value is the natural number `i < N` is its own clamp into `[0, N − 1]`. -/
theorem clamp_of_toInt_eq {w N i : Nat} (hi : i < N) (v : BitVec w) (h : v.toInt = (i : Int)) :
    min v.toInt.toNat (N - 1) = i := by
  rw [h]; omega

/-- A word whose signed value is not negative is not below zero in the signed order. -/
theorem slt_zero_of_nonneg {w : Nat} (v : BitVec w) (h : 0 ≤ v.toInt) : v.slt 0#w = false := by
  rw [BitVec.slt_eq_decide, BitVec.toInt_zero]
  exact decide_eq_false (by omega)

/-- The negative-index wrap `if v < 0 then v + n else v` (signed comparison) leaves a word that is not negative alone. -/
theorem wrap_of_nonneg {w : Nat} (v n : BitVec w) (h : 0 ≤ v.toInt) :
    Scalar.select (IntOp.cmpi .slt v 0#w) (IntOp.addi v n) v = v := by
  unfold IntOp.cmpi
  simp only [slt_zero_of_nonneg v h]
  exact select_zero _ _

/-- The same on vectors, read at an index: where the comparand `z` is `0` and `v` is not negative, the wrapped vector
    is `v`. -/
theorem select_wrap_apply {s : Shape} {w : Nat} (v z m : IVec s w) (i : s.Idx) (hz : z i = 0#w) (h : 0 ≤ (v i).toInt) :
    select (cmpi .slt v z) (addi v m) v i = v i := by
  show Scalar.select (IntOp.cmpi .slt (v i) (z i)) (IntOp.addi (v i) (m i)) (v i) = v i
  rw [hz]
  exact wrap_of_nonneg _ _ h

/-- The same against the constant vectors `0` and `n`. -/
theorem select_wrap_const_apply {s : Shape} {w : Nat} (v : IVec s w) (n : BitVec w) (i : s.Idx) (h : 0 ≤ (v i).toInt) :
    select (cmpi .slt v (fun _ => 0#w)) (addi v (fun _ => n)) v i = v i :=
  select_wrap_apply v _ _ i rfl h

end Words

/-! ## Degrees: a count of ones, and the inverse square root of a real at least one -/

section Degree

/-- Accumulating the constant `1` over a finite set into `0` gives the set's cardinality, a real number. -/
theorem zero_add_sum_one {J : Type} (S : Finset J) : (0 : EReal) + ∑ _j ∈ S, (1 : EReal) = ((S.card : ℝ) : EReal) := by
  rw [zero_add, Finset.sum_const, EReal.nsmul_eq_mul, mul_one, EReal.coe_natCast]

/-- … so the degree with the self loop, `(0 + Σ_{j ∈ S} 1) + 1`, is the real number `|S| + 1`. -/
theorem zero_add_sum_one_add_one {J : Type} (S : Finset J) :
    ((0 : EReal) + ∑ _j ∈ S, (1 : EReal)) + 1 = (((S.card : ℝ) + 1 : ℝ) : EReal) := by
  rw [zero_add_sum_one, EReal.coe_add, EReal.coe_one]

/-- The inverse square root of a real `r ≥ 1` is a nonnegative extended real other than `⊤`. -/
theorem rsqrt_nonneg_ne_top {r : ℝ} (hr : 1 ≤ r) : 0 ≤ Ideal.rsqrt (r : EReal) ∧ Ideal.rsqrt (r : EReal) ≠ ⊤ := by
  rw [Ideal.rsqrt_coe, if_neg (by linarith), if_neg (by linarith)]
  exact ⟨EReal.coe_nonneg.2 (inv_nonneg.2 (Real.sqrt_nonneg r)), EReal.coe_ne_top _⟩

/-- It is the real number `(√r)⁻¹`. -/
theorem rsqrt_coe_of_one_le {r : ℝ} (hr : 1 ≤ r) : Ideal.rsqrt (r : EReal) = (((Real.sqrt r)⁻¹ : ℝ) : EReal) := by
  rw [Ideal.rsqrt_coe, if_neg (by linarith), if_neg (by linarith)]

/-- The inverse square root of a degree with the self loop is nonnegative and finite. -/
theorem rsqrt_degree_nonneg_ne_top {J : Type} (S : Finset J) :
    0 ≤ Ideal.rsqrt (((0 : EReal) + ∑ _j ∈ S, (1 : EReal)) + 1)
      ∧ Ideal.rsqrt (((0 : EReal) + ∑ _j ∈ S, (1 : EReal)) + 1) ≠ ⊤ := by
  rw [zero_add_sum_one_add_one]
  exact rsqrt_nonneg_ne_top (by have : (0 : ℝ) ≤ (S.card : ℝ) := Nat.cast_nonneg _; linarith)

end Degree

end Cert.Lib

end
-- ==== Proof.BridgeHost0.lean ====
/-
  The fused projection's weight matrix as the first stretch of host operations builds it: the rows of each of the three
  projection weights are gathered in head-major order (row g = h·64+j of the gathered matrix is row j·16+h of the weight),
  each gathered matrix is transposed, and the three are laid side by side along the columns. So column off+g of the fused
  matrix, at row e, is the weight's entry at (j·16+h, e), for off = 0, 1024, 2048 and the query, key and value weights.
-/
import proofs.«124737_j13280038879618_2_alg».proof.Proof.RunKi
import proofs.«124737_j13280038879618_2_alg».proof.Proof.LibGraphOps
import Idealize.ShloMosaic.Lib.StableHlo.Run
import Idealize.ShloMosaic.PureOps.Ideal
import Idealize.ShloMosaic.Lib.ValueIdx
import Idealize.ShloMosaic.Lib.ValueLayout
import Idealize.ShloMosaic.Lib.Pipeline.Value

set_option maxRecDepth 16384

noncomputable section

namespace Cert.KernelIdeal.Host0

open Idealize.ShloMosaic Idealize.ShloMosaic.TcCoe Idealize.ShloMosaic.StableHlo Idealize.ShloMosaic.ValueIdx
open Idealize.SL Idealize.SL.Sem
open Cert.KernelIdeal Cert.KernelIdeal.Gen Cert.KernelIdeal.Body

/-- What one buffer holds after a line of host operations, in one simplifier pass: each operation's result rewritten to
    its function's value at its own buffer and to what was there at any other. An operation of several operands given as a
    family leaves its function applied to the family of the operands' contents, each still to be read at its own buffer. -/
macro "host_results" : tactic =>
  `(tactic| (simp (disch := decide) only [StableHlo.after_cons, StableHlo.after_nil,
      StableHlo.nullary_result', StableHlo.unary_result', StableHlo.binary_result', StableHlo.ternary_result', StableHlo.reshape_result', StableHlo.nary_result',
      StableHlo.nullary_result_ne', StableHlo.unary_result_ne', StableHlo.binary_result_ne', StableHlo.ternary_result_ne', StableHlo.reshape_result_ne',
      StableHlo.nary_result_ne']))

variable (m : (ℓ : Loc nD τ sig) → Buf (Elt Ideal) ℓ) (ρ : Dev nD → PrngReg) (c : Dev nD)

/-! ## The index tables -/

/-- Both index tables list, at position g = h·64+j, the row number j·16+h. -/
theorem lit0_eq : ∀ n : Fin 1024, lit0 n = BitVec.ofNat 32 ((n.val % 64) * 16 + n.val / 64) := by decide +kernel
theorem lit1_eq : ∀ n : Fin 1024, lit1 n = BitVec.ofNat 32 ((n.val % 64) * 16 + n.val / 64) := by decide +kernel

/-- Such a row number, as a 32-bit word, reads back as itself. -/
theorem toInt_row : ∀ p : Fin 1024, (BitVec.ofNat 32 p.val).toInt = (p.val : Int) := by decide +kernel

section Pure
variable {α : Type}

/-- The column of start rows a gather is given: the table, wrapped where negative (never: the wrap's condition is the
    constant false), as a [1024, 1] column. At (n, 0) it is the table's entry n. -/
theorem idxCol_apply (tbl : Fin 1024 → BitVec 32) (hb : (⟨1, ![1024]⟩ : Shape).BroadcastsInDim ⟨2, ![1024, 1]⟩ ![0])
    (hb0 : (⟨0, ![]⟩ : Shape).BroadcastsInDim ⟨1, ![1024]⟩ ![]) (n : Fin 1024) :
    broadcastInDim ⟨2, ![1024, 1]⟩ ![0] hb
        (select (constantI ⟨1, ![1024]⟩ 1 0#1)
          (addi (fun i => tbl ((⟨1, ![1024]⟩ : Shape).rowMajor i)) (broadcastInDim ⟨1, ![1024]⟩ ![] hb0 (constantI ⟨0, ![]⟩ 32 1024#32)))
          (fun i => tbl ((⟨1, ![1024]⟩ : Shape).rowMajor i)))
        (ix2 n (⟨0, Nat.one_pos⟩ : Fin 1)) = tbl n := by
  rw [Cert.Lib.broadcastInDim_col_apply]
  show Scalar.select (0#1) _ (tbl ((⟨1, ![1024]⟩ : Shape).rowMajor (ix1 n))) = tbl n
  unfold Scalar.select
  rw [if_neg (by decide)]
  exact congrArg tbl (Fin.ext (by rw [Shape.rowMajor_val_one]))

/-- A row gather whose start column holds, at n, the row number p reads at (n, e) the operand at (p, e). -/
theorem gather_row_at (x : (⟨2, ![1024, 1024]⟩ : Shape).Idx → α) (idx : IVec ⟨2, ![1024, 1]⟩ 32)
    (wf : GatherDims.WF ⟨2, ![1024, 1024]⟩ ⟨2, ![1024, 1]⟩ ⟨2, ![1024, 1024]⟩ [1] [0] [] [0] [] 1 ![1, 1024])
    (n e p : Fin 1024) (h : idx (ix2 n (⟨0, Nat.one_pos⟩ : Fin 1)) = BitVec.ofNat 32 p.val) :
    Host.gather (Cert.Lib.rowsGatherDims 1024 1024 1024 wf) x idx (ix2 n e) = x (ix2 p e) := by
  rw [Cert.Lib.gather_rows_apply (by decide)]
  refine congrArg x (congrArg (fun r => ix2 r e) (Fin.ext ?_))
  show min (idx (ix2 n (⟨0, Nat.one_pos⟩ : Fin 1))).toInt.toNat (1024 - 1) = p.val
  rw [h]
  exact Cert.Lib.clamp_of_toInt_eq p.isLt _ (toInt_row p)

/-- Three [1024, 1024] matrices laid side by side along the columns: column off+g of the result is column g of the
    matrix that spans it. -/
theorem beside3_apply0 (X0 X1 X2 : (⟨2, ![1024, 1024]⟩ : Shape).Idx → α)
    (h : Shape.Concatenates [(⟨2, ![1024, 1024]⟩ : Shape), ⟨2, ![1024, 1024]⟩, ⟨2, ![1024, 1024]⟩] ⟨2, ![1024, 3072]⟩ 1)
    (e g : Fin 1024) (col : Fin 3072) (hcol : col.val = g.val) :
    concatenate ⟨2, ![1024, 3072]⟩ 1 [⟨⟨2, ![1024, 1024]⟩, X0⟩, ⟨⟨2, ![1024, 1024]⟩, X1⟩, ⟨⟨2, ![1024, 1024]⟩, X2⟩] h (ix2 e col) = X0 (ix2 e g) :=
  concatenate_apply_piece (t := ⟨2, ![1024, 3072]⟩) (1 : Fin 2) [⟨⟨2, ![1024, 1024]⟩, X0⟩, ⟨⟨2, ![1024, 1024]⟩, X1⟩, ⟨⟨2, ![1024, 1024]⟩, X2⟩] h (ix2 e col) 0 (by show (0 : ℕ) < 3; omega) ⟨2, ![1024, 1024]⟩ X0 rfl rfl 0 rfl (ix2 e g)
    (fun b hb => match b with | ⟨0, _⟩ => rfl | ⟨1, _⟩ => absurd rfl hb) (by show 0 + g.val = col.val; omega)
theorem beside3_apply1 (X0 X1 X2 : (⟨2, ![1024, 1024]⟩ : Shape).Idx → α)
    (h : Shape.Concatenates [(⟨2, ![1024, 1024]⟩ : Shape), ⟨2, ![1024, 1024]⟩, ⟨2, ![1024, 1024]⟩] ⟨2, ![1024, 3072]⟩ 1)
    (e g : Fin 1024) (col : Fin 3072) (hcol : col.val = 1024 + g.val) :
    concatenate ⟨2, ![1024, 3072]⟩ 1 [⟨⟨2, ![1024, 1024]⟩, X0⟩, ⟨⟨2, ![1024, 1024]⟩, X1⟩, ⟨⟨2, ![1024, 1024]⟩, X2⟩] h (ix2 e col) = X1 (ix2 e g) :=
  concatenate_apply_piece (t := ⟨2, ![1024, 3072]⟩) (1 : Fin 2) [⟨⟨2, ![1024, 1024]⟩, X0⟩, ⟨⟨2, ![1024, 1024]⟩, X1⟩, ⟨⟨2, ![1024, 1024]⟩, X2⟩] h (ix2 e col) 1 (by show (1 : ℕ) < 3; omega) ⟨2, ![1024, 1024]⟩ X1 rfl rfl 1024 rfl (ix2 e g)
    (fun b hb => match b with | ⟨0, _⟩ => rfl | ⟨1, _⟩ => absurd rfl hb) (by show 1024 + g.val = col.val; omega)
theorem beside3_apply2 (X0 X1 X2 : (⟨2, ![1024, 1024]⟩ : Shape).Idx → α)
    (h : Shape.Concatenates [(⟨2, ![1024, 1024]⟩ : Shape), ⟨2, ![1024, 1024]⟩, ⟨2, ![1024, 1024]⟩] ⟨2, ![1024, 3072]⟩ 1)
    (e g : Fin 1024) (col : Fin 3072) (hcol : col.val = 2048 + g.val) :
    concatenate ⟨2, ![1024, 3072]⟩ 1 [⟨⟨2, ![1024, 1024]⟩, X0⟩, ⟨⟨2, ![1024, 1024]⟩, X1⟩, ⟨⟨2, ![1024, 1024]⟩, X2⟩] h (ix2 e col) = X2 (ix2 e g) :=
  concatenate_apply_piece (t := ⟨2, ![1024, 3072]⟩) (1 : Fin 2) [⟨⟨2, ![1024, 1024]⟩, X0⟩, ⟨⟨2, ![1024, 1024]⟩, X1⟩, ⟨⟨2, ![1024, 1024]⟩, X2⟩] h (ix2 e col) 2 (by show (2 : ℕ) < 3; omega) ⟨2, ![1024, 1024]⟩ X2 rfl rfl 2048 rfl (ix2 e g)
    (fun b hb => match b with | ⟨0, _⟩ => rfl | ⟨1, _⟩ => absurd rfl hb) (by show 2048 + g.val = col.val; omega)

/-- A weight gathered by a table that lists j·16+h at h·64+j, then transposed: at (e, g) it is the weight at (the table's
    row for g, e). -/
theorem permuted_transposed_apply (x : (⟨2, ![1024, 1024]⟩ : Shape).Idx → α) (tbl : Fin 1024 → BitVec 32)
    (htbl : ∀ n : Fin 1024, tbl n = BitVec.ofNat 32 ((n.val % 64) * 16 + n.val / 64))
    (wf : GatherDims.WF ⟨2, ![1024, 1024]⟩ ⟨2, ![1024, 1]⟩ ⟨2, ![1024, 1024]⟩ [1] [0] [] [0] [] 1 ![1, 1024])
    (tr : (⟨2, ![1024, 1024]⟩ : Shape).Transposes [1, 0] ⟨2, ![1024, 1024]⟩)
    (hb : (⟨1, ![1024]⟩ : Shape).BroadcastsInDim ⟨2, ![1024, 1]⟩ ![0]) (hb0 : (⟨0, ![]⟩ : Shape).BroadcastsInDim ⟨1, ![1024]⟩ ![])
    (e g : Fin 1024) :
    transpose ⟨2, ![1024, 1024]⟩ [1, 0]
      (Host.gather (Cert.Lib.rowsGatherDims 1024 1024 1024 wf) x
        (broadcastInDim ⟨2, ![1024, 1]⟩ ![0] hb
          (select (constantI ⟨1, ![1024]⟩ 1 0#1)
            (addi (fun i => tbl ((⟨1, ![1024]⟩ : Shape).rowMajor i)) (broadcastInDim ⟨1, ![1024]⟩ ![] hb0 (constantI ⟨0, ![]⟩ 32 1024#32)))
            (fun i => tbl ((⟨1, ![1024]⟩ : Shape).rowMajor i))))) tr (ix2 e g)
      = x (ix2 ⟨(g.val % 64) * 16 + g.val / 64, by have := g.isLt; omega⟩ e) := by
  rw [transpose_ix2_apply]
  exact gather_row_at x _ wf g e ⟨(g.val % 64) * 16 + g.val / 64, by have := g.isLt; omega⟩
    ((idxCol_apply tbl hb hb0 g).trans (htbl g))

end Pure

/-! ## The fused weight matrix the projection region is entered with -/

set_option maxHeartbeats 4000000 in
/-- Columns 0–1023 of the fused matrix are the query weight's rows in head-major order, transposed. -/
theorem ent0_wq (e g : Fin 1024) (C : Fin 3072) (hC : C.val = g.val) :
    W1 (F := Ideal) m ρ c (Proc.devRef .tc main_v34) (ix2 e C)
      = m ((c : Thread nD τ).loc main_arg1) (ix2 ⟨(g.val % 64) * 16 + g.val / 64, by have := g.isLt; omega⟩ e) := by
  show StableHlo.after hostOps0 (W0 m ρ c) (Proc.devRef .tc main_v34) (ix2 e C) = _
  host_results
  refine (truncf_apply (φ := .f32) (ψ := .bf16) _ _ _).trans ?_
  refine (beside3_apply0 _ _ _ _ e g C hC).trans ?_
  dsimp only [Matrix.cons_val, Matrix.cons_val_zero, Matrix.cons_val_one, Matrix.head_cons]
  host_results
  exact permuted_transposed_apply _ lit0 lit0_eq _ _ _ _ e g

set_option maxHeartbeats 4000000 in
/-- Columns 1024–2047 are the key weight's. -/
theorem ent0_wk (e g : Fin 1024) (C : Fin 3072) (hC : C.val = 1024 + g.val) :
    W1 (F := Ideal) m ρ c (Proc.devRef .tc main_v34) (ix2 e C)
      = m ((c : Thread nD τ).loc main_arg3) (ix2 ⟨(g.val % 64) * 16 + g.val / 64, by have := g.isLt; omega⟩ e) := by
  show StableHlo.after hostOps0 (W0 m ρ c) (Proc.devRef .tc main_v34) (ix2 e C) = _
  host_results
  refine (truncf_apply (φ := .f32) (ψ := .bf16) _ _ _).trans ?_
  refine (beside3_apply1 _ _ _ _ e g C hC).trans ?_
  dsimp only [Matrix.cons_val, Matrix.cons_val_zero, Matrix.cons_val_one, Matrix.head_cons]
  host_results
  exact permuted_transposed_apply _ lit0 lit0_eq _ _ _ _ e g

set_option maxHeartbeats 4000000 in
/-- Columns 2048–3071 are the value weight's. -/
theorem ent0_wv (e g : Fin 1024) (C : Fin 3072) (hC : C.val = 2048 + g.val) :
    W1 (F := Ideal) m ρ c (Proc.devRef .tc main_v34) (ix2 e C)
      = m ((c : Thread nD τ).loc main_arg5) (ix2 ⟨(g.val % 64) * 16 + g.val / 64, by have := g.isLt; omega⟩ e) := by
  show StableHlo.after hostOps0 (W0 m ρ c) (Proc.devRef .tc main_v34) (ix2 e C) = _
  host_results
  refine (truncf_apply (φ := .f32) (ψ := .bf16) _ _ _).trans ?_
  refine (beside3_apply2 _ _ _ _ e g C hC).trans ?_
  dsimp only [Matrix.cons_val, Matrix.cons_val_zero, Matrix.cons_val_one, Matrix.head_cons]
  host_results
  exact permuted_transposed_apply _ lit1 lit1_eq _ _ _ _ e g

end Cert.KernelIdeal.Host0
end
-- ==== Proof.HostPre.lean ====
/-
  Before the fused projection: the activations [4, 2048, 1024] are flattened to [8192, 1024] (row b * 2048 + l) and
  changed to the narrower format, which keeps every extended real as it is; the three biases are each permuted into
  head-major order — entry g of the permuted bias is entry (g % 64) * 16 + g / 64 of the bias as given, so that head
  g / 64, coordinate g % 64 sits at g — and laid end to end: query bias at 0–1023, key bias at 1024–2047, value bias
  at 2048–3071.
-/
import proofs.«124737_j13280038879618_2_alg».proof.Proof.RunKi
import proofs.«124737_j13280038879618_2_alg».proof.Proof.LibGraphOps
import Idealize.ShloMosaic.Lib.StableHlo.Run
import Idealize.ShloMosaic.PureOps.Ideal
import Idealize.ShloMosaic.Lib.ValueIdx
import Idealize.ShloMosaic.Lib.Pipeline.Value

set_option maxRecDepth 16384

noncomputable section

namespace Cert.KernelIdeal.HostPre

open Idealize.ShloMosaic Idealize.ShloMosaic.TcCoe Idealize.ShloMosaic.ValueIdx Idealize.ShloMosaic.StableHlo
open Idealize.SL.Sem
open Cert.KernelIdeal Cert.KernelIdeal.Gen Cert.KernelIdeal.Body

/-- A host operation with three operands (a concatenation of three arrays) leaves in its result buffer its function of the
    three operands' contents, each read at its own reference. -/
theorem nary3_result {F : FTy → Type} [FloatOps F] {x a b y : Ref sig .tc}
    (f : ((k : Fin 3) → ((![x, a, b] : Fin 3 → Ref sig .tc) k).ty.Contents (Elt F)) → y.ty.Contents (Elt F)) (hxs hy)
    (V : Valuation τ sig (Elt F)) :
    (StableHlo.nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [StableHlo.nary_result]; congr 1; funext k; fin_cases k <;> rfl

/-- The same, in the form a simplifier pass matches (the result reference not used as an index key). -/
theorem nary3_result' {F : FTy → Type} [FloatOps F] {x a b y : Ref sig .tc}
    (f : ((k : Fin 3) → ((![x, a, b] : Fin 3 → Ref sig .tc) k).ty.Contents (Elt F)) → y.ty.Contents (Elt F)) (hxs hy)
    (V : Valuation τ sig (Elt F)) :
    (StableHlo.nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) :=
  nary3_result f hxs hy V

/-- What one buffer holds after a line of host operations, in one simplifier pass: each operation's result rewritten to
    its function's value at its own buffer and to what was there at any other, three-operand operations included. -/
macro "after_results3" : tactic =>
  `(tactic| (simp (disch := decide) only [StableHlo.after_cons, StableHlo.after_nil,
      StableHlo.nullary_result', StableHlo.unary_result', StableHlo.binary_result', StableHlo.ternary_result', StableHlo.reshape_result', nary3_result',
      StableHlo.nullary_result_ne', StableHlo.unary_result_ne', StableHlo.binary_result_ne', StableHlo.ternary_result_ne', StableHlo.reshape_result_ne',
      StableHlo.nary_result_ne']))

/-- Flattening batch and position into one row axis: row b * 2048 + l of the flat array is (b, l) of the original. -/
theorem flatten_rows {α : Type} (X : (⟨3, ![4, 2048, 1024]⟩ : Shape).Idx → α)
    (hc : (⟨3, ![4, 2048, 1024]⟩ : Shape).ShapeCasts ⟨2, ![8192, 1024]⟩) (b : Fin 4) (l : Fin 2048) (e : Fin 1024)
    (R : Fin 8192) (hR : R.val = b.val * 2048 + l.val) :
    shapeCast ⟨2, ![8192, 1024]⟩ X hc (ix2 R e) = X (ix3 b l e) := by
  refine shapeCast_apply X hc _ _ ?_
  rw [Shape.rowMajor_val_two, Shape.rowMajor_val_three]
  show (b.val * 2048 + l.val) * 1024 + e.val = R.val * 1024 + e.val
  rw [hR]

/-- The query and key index table, entry by entry: position n holds (n % 64) * 16 + n / 64. -/
theorem lit0_toInt : ∀ n : Fin 1024, (lit0 n).toInt = (((n.val % 64) * 16 + n.val / 64 : Nat) : Int) := by decide +kernel
/-- The value index table holds the same entries. -/
theorem lit1_toInt : ∀ n : Fin 1024, (lit1 n).toInt = (((n.val % 64) * 16 + n.val / 64 : Nat) : Int) := by decide +kernel

/-- A bias gathered at the head-major index table (the table passed through a select on a condition that is false
    everywhere, and laid out as a column): entry g is entry (g % 64) * 16 + g / 64 of the bias. -/
theorem permuted_bias_apply (X : (⟨1, ![1024]⟩ : Shape).Idx → EReal) (tbl : Fin 1024 → BitVec 32)
    (htbl : ∀ n : Fin 1024, (tbl n).toInt = (((n.val % 64) * 16 + n.val / 64 : Nat) : Int)) (g : Fin 1024) :
    Host.gather gather_S1024_S1024x1_S1024_n_0_n_n_0_1_1 X
        (broadcastInDim S1024x1 ![0] bcast_S1024_S1024x1_0
          (select (constantI S1024 1 0#1)
            (addi (fun i => tbl (S1024.rowMajor i)) (broadcastInDim S1024 ![] bcast_S_S1024 (constantI S_ 32 1024#32)))
            fun i => tbl (S1024.rowMajor i))) (ix1 g)
      = X (ix1 ⟨(g.val % 64) * 16 + g.val / 64, by omega⟩) := by
  show Host.gather (Cert.Lib.vecGatherDims 1024 1024 _) _ _ _ = _
  rw [Cert.Lib.gather_vec_apply (by decide : 0 < 1024)]
  have hv : (select (constantI S1024 1 0#1)
            (addi (fun i => tbl (S1024.rowMajor i)) (broadcastInDim S1024 ![] bcast_S_S1024 (constantI S_ 32 1024#32)))
            fun i => tbl (S1024.rowMajor i)) (ix1 g) = tbl g := by
    show Scalar.select 0#1 _ (tbl (S1024.rowMajor (ix1 g))) = tbl g
    rw [select_zero]
    exact congrArg tbl (Fin.ext (Shape.rowMajor_val_one _))
  refine congrArg (fun t => X (ix1 t)) (Fin.ext ?_)
  show min (BitVec.toInt _).toNat (1024 - 1) = (g.val % 64) * 16 + g.val / 64
  rw [Cert.Lib.broadcastInDim_col_apply, hv]
  exact Cert.Lib.clamp_of_toInt_eq (by omega) _ (htbl g)

/-- Three arrays of 1024 entries laid end to end, read in the first … -/
theorem beside3_first {α : Type} (X0 X1 X2 : (⟨1, ![1024]⟩ : Shape).Idx → α)
    (h : Shape.Concatenates (([⟨⟨1, ![1024]⟩, X0⟩, ⟨⟨1, ![1024]⟩, X1⟩, ⟨⟨1, ![1024]⟩, X2⟩] :
      List ((s : Shape) × (s.Idx → α))).map (·.1)) ⟨1, ![3072]⟩ 0)
    (g : Fin 1024) (C : Fin 3072) (hC : C.val = g.val) :
    concatenate ⟨1, ![3072]⟩ 0 [⟨⟨1, ![1024]⟩, X0⟩, ⟨⟨1, ![1024]⟩, X1⟩, ⟨⟨1, ![1024]⟩, X2⟩] h (ix1 C) = X0 (ix1 g) :=
  concatenate_apply_piece (t := ⟨1, ![3072]⟩) (0 : Fin 1) _ h (ix1 C) 0 (by show (0 : ℕ) < 3; omega) ⟨1, ![1024]⟩ X0 rfl rfl 0 rfl (ix1 g)
    (fun b hb => absurd (Subsingleton.elim _ _) hb) (by show 0 + g.val = C.val; omega)
/-- … the second … -/
theorem beside3_second {α : Type} (X0 X1 X2 : (⟨1, ![1024]⟩ : Shape).Idx → α)
    (h : Shape.Concatenates (([⟨⟨1, ![1024]⟩, X0⟩, ⟨⟨1, ![1024]⟩, X1⟩, ⟨⟨1, ![1024]⟩, X2⟩] :
      List ((s : Shape) × (s.Idx → α))).map (·.1)) ⟨1, ![3072]⟩ 0)
    (g : Fin 1024) (C : Fin 3072) (hC : C.val = 1024 + g.val) :
    concatenate ⟨1, ![3072]⟩ 0 [⟨⟨1, ![1024]⟩, X0⟩, ⟨⟨1, ![1024]⟩, X1⟩, ⟨⟨1, ![1024]⟩, X2⟩] h (ix1 C) = X1 (ix1 g) :=
  concatenate_apply_piece (t := ⟨1, ![3072]⟩) (0 : Fin 1) _ h (ix1 C) 1 (by show (1 : ℕ) < 3; omega) ⟨1, ![1024]⟩ X1 rfl rfl 1024 rfl (ix1 g)
    (fun b hb => absurd (Subsingleton.elim _ _) hb) (by show 1024 + g.val = C.val; omega)
/-- … and the third stretch of 1024. -/
theorem beside3_third {α : Type} (X0 X1 X2 : (⟨1, ![1024]⟩ : Shape).Idx → α)
    (h : Shape.Concatenates (([⟨⟨1, ![1024]⟩, X0⟩, ⟨⟨1, ![1024]⟩, X1⟩, ⟨⟨1, ![1024]⟩, X2⟩] :
      List ((s : Shape) × (s.Idx → α))).map (·.1)) ⟨1, ![3072]⟩ 0)
    (g : Fin 1024) (C : Fin 3072) (hC : C.val = 2048 + g.val) :
    concatenate ⟨1, ![3072]⟩ 0 [⟨⟨1, ![1024]⟩, X0⟩, ⟨⟨1, ![1024]⟩, X1⟩, ⟨⟨1, ![1024]⟩, X2⟩] h (ix1 C) = X2 (ix1 g) :=
  concatenate_apply_piece (t := ⟨1, ![3072]⟩) (0 : Fin 1) _ h (ix1 C) 2 (by show (2 : ℕ) < 3; omega) ⟨1, ![1024]⟩ X2 rfl rfl 2048 rfl (ix1 g)
    (fun b hb => absurd (Subsingleton.elim _ _) hb) (by show 2048 + g.val = C.val; omega)

variable (m : (ℓ : Loc nD τ sig) → Buf (Elt Ideal) ℓ) (ρ : Dev nD → PrngReg)

set_option maxHeartbeats 2000000 in
/-- The activations the fused projection is entered with, at row b * 2048 + l, lane e. -/
theorem ent0_x (c : Dev nD) (b : Fin 4) (l : Fin 2048) (e : Fin 1024) (R : Fin 8192) (hR : R.val = b.val * 2048 + l.val) :
    W1 (F := Ideal) m ρ c (Proc.devRef .tc main_v37) (ix2 R e) = m ((c : Thread nD τ).loc main_arg0) (ix3 b l e) := by
  show StableHlo.after hostOps0 (W0 (F := Ideal) m ρ c) (Proc.devRef .tc main_v37) (ix2 R e) = _
  after_results3
  exact flatten_rows _ _ b l e R hR

set_option maxHeartbeats 2000000 in
/-- The query bias the fused projection is entered with: entry g of the first stretch. -/
theorem ent0_bq (c : Dev nD) (g : Fin 1024) (C : Fin 3072) (hC : C.val = g.val) :
    W1 (F := Ideal) m ρ c (Proc.devRef .tc main_v35) (ix1 C)
      = m ((c : Thread nD τ).loc main_arg2) (ix1 ⟨(g.val % 64) * 16 + g.val / 64, by omega⟩) := by
  show StableHlo.after hostOps0 (W0 (F := Ideal) m ρ c) (Proc.devRef .tc main_v35) (ix1 C) = _
  after_results3
  refine (beside3_first _ _ _ _ g C hC).trans ?_
  exact permuted_bias_apply _ lit0 lit0_toInt g

set_option maxHeartbeats 2000000 in
/-- The key bias: entry g of the second stretch. -/
theorem ent0_bk (c : Dev nD) (g : Fin 1024) (C : Fin 3072) (hC : C.val = 1024 + g.val) :
    W1 (F := Ideal) m ρ c (Proc.devRef .tc main_v35) (ix1 C)
      = m ((c : Thread nD τ).loc main_arg4) (ix1 ⟨(g.val % 64) * 16 + g.val / 64, by omega⟩) := by
  show StableHlo.after hostOps0 (W0 (F := Ideal) m ρ c) (Proc.devRef .tc main_v35) (ix1 C) = _
  after_results3
  refine (beside3_second _ _ _ _ g C hC).trans ?_
  exact permuted_bias_apply _ lit0 lit0_toInt g

set_option maxHeartbeats 2000000 in
/-- The value bias: entry g of the third stretch. -/
theorem ent0_bv (c : Dev nD) (g : Fin 1024) (C : Fin 3072) (hC : C.val = 2048 + g.val) :
    W1 (F := Ideal) m ρ c (Proc.devRef .tc main_v35) (ix1 C)
      = m ((c : Thread nD τ).loc main_arg6) (ix1 ⟨(g.val % 64) * 16 + g.val / 64, by omega⟩) := by
  show StableHlo.after hostOps0 (W0 (F := Ideal) m ρ c) (Proc.devRef .tc main_v35) (ix1 C) = _
  after_results3
  refine (beside3_third _ _ _ _ g C hC).trans ?_
  exact permuted_bias_apply _ lit1 lit1_toInt g

end Cert.KernelIdeal.HostPre

end
-- ==== Proof.HostMid1.lean ====
/-
  Between the fused projection and the attention: the projection's [8192, 3072] result is regrouped as
  [4, 2048, 3072] (row r = b * 2048 + l) and cut along its last axis into three [4, 2048, 1024] arrays, the query, key and
  value activations: lanes 0–1023, 1024–2047 and 2048–3071.  Read at (b, l, f) each is the projection's result at row
  b * 2048 + l and lane f, 1024 + f, 2048 + f.
-/
import proofs.«124737_j13280038879618_2_alg».proof.Proof.RunKi
import Idealize.ShloMosaic.Lib.StableHlo.Run
import Idealize.ShloMosaic.PureOps.Ideal
import Idealize.ShloMosaic.Lib.ValueIdx
import Idealize.ShloMosaic.Lib.Pipeline.Value

set_option maxRecDepth 16384

noncomputable section

namespace Cert.KernelIdeal.HostMid

open Idealize.ShloMosaic Idealize.ShloMosaic.TcCoe Idealize.ShloMosaic.ValueIdx Idealize.ShloMosaic.StableHlo
open Idealize.SL.Sem
open Cert.KernelIdeal Cert.KernelIdeal.Gen Cert.KernelIdeal.Body

/-- A lane window of width 1024 at offset `off` of the regrouped array, read at (b, l, f): the flat array at row
    b * 2048 + l, lane off + f. -/
theorem slice_regroup {α : Type} (X : (⟨2, ![8192, 3072]⟩ : Shape).Idx → α) (off : Nat)
    (hc : (⟨2, ![8192, 3072]⟩ : Shape).ShapeCasts ⟨3, ![4, 2048, 3072]⟩)
    (hs : (⟨3, ![4, 2048, 3072]⟩ : Shape).Slices ![0, 0, off] ⟨3, ![4, 2048, 1024]⟩)
    (b : Fin 4) (l : Fin 2048) (f : Fin 1024) (r : Fin 8192) (col : Fin 3072)
    (hr : r.val = b.val * 2048 + l.val) (hcol : col.val = off + f.val) :
    extractStridedSlice ⟨3, ![4, 2048, 1024]⟩ ![0, 0, off] (shapeCast ⟨3, ![4, 2048, 3072]⟩ X hc) hs (ix3 b l f)
      = X (ix2 r col) := by
  rw [extractStridedSlice_apply _ _ hs (ix3 b l f) (ix3 b l col) (fun a => by
    match a with
    | ⟨0, _⟩ => exact (Nat.zero_add _).symm
    | ⟨1, _⟩ => exact (Nat.zero_add _).symm
    | ⟨2, _⟩ => exact hcol)]
  refine shapeCast_apply X hc _ _ ?_
  rw [Shape.rowMajor_val_two, Shape.rowMajor_val_three]
  show r.val * 3072 + col.val = (b.val * 2048 + l.val) * 3072 + col.val
  rw [hr]

variable (m : (ℓ : Loc nD τ sig) → Buf (Elt Ideal) ℓ) (ρ : Dev nD → PrngReg)

/-- The query activations the attention is entered with, at (b, l, f). -/
theorem ent1_q (c : Dev nD) (b : Fin 4) (l : Fin 2048) (f : Fin 1024) :
    Ent1 (F := Ideal) m ρ c main_v40 (ix3 b l f)
      = W2 (F := Ideal) m ρ c (Proc.devRef .tc main_v38) (ix2 ⟨b.val * 2048 + l.val, by omega⟩ ⟨f.val, by omega⟩) := by
  show StableHlo.after hostOps1 (W2 (F := Ideal) m ρ c) (Proc.devRef .tc main_v40) (ix3 b l f) = _
  after_results
  exact slice_regroup _ 0 _ _ b l f _ _ rfl (Nat.zero_add _).symm

/-- The key activations the attention is entered with, at (b, l, f). -/
theorem ent1_k (c : Dev nD) (b : Fin 4) (l : Fin 2048) (f : Fin 1024) :
    Ent1 (F := Ideal) m ρ c main_v41 (ix3 b l f)
      = W2 (F := Ideal) m ρ c (Proc.devRef .tc main_v38) (ix2 ⟨b.val * 2048 + l.val, by omega⟩ ⟨1024 + f.val, by omega⟩) := by
  show StableHlo.after hostOps1 (W2 (F := Ideal) m ρ c) (Proc.devRef .tc main_v41) (ix3 b l f) = _
  after_results
  exact slice_regroup _ 1024 _ _ b l f _ _ rfl rfl

/-- The value activations the attention is entered with, at (b, l, f). -/
theorem ent1_v (c : Dev nD) (b : Fin 4) (l : Fin 2048) (f : Fin 1024) :
    Ent1 (F := Ideal) m ρ c main_v42 (ix3 b l f)
      = W2 (F := Ideal) m ρ c (Proc.devRef .tc main_v38) (ix2 ⟨b.val * 2048 + l.val, by omega⟩ ⟨2048 + f.val, by omega⟩) := by
  show StableHlo.after hostOps1 (W2 (F := Ideal) m ρ c) (Proc.devRef .tc main_v42) (ix3 b l f) = _
  after_results
  exact slice_regroup _ 2048 _ _ b l f _ _ rfl rfl

end Cert.KernelIdeal.HostMid

end
-- ==== Proof.HostMid2.lean ====
/-
  Between the attention and the output projection: the attention's [4, 2048, 1024] result is flattened to [8192, 1024]
  (row r holds batch r / 2048, position r % 2048); the output matrix is transposed, so that entry (f, e) of the
  projection's right operand is entry (e, f) of the matrix as given, and changed to the narrower format, which keeps
  every extended real as it is; the output bias is passed through untouched.
-/
import proofs.«124737_j13280038879618_2_alg».proof.Proof.RunKi
import Idealize.ShloMosaic.Lib.StableHlo.Run
import Idealize.ShloMosaic.PureOps.Ideal
import Idealize.ShloMosaic.Lib.ValueIdx
import Idealize.ShloMosaic.Lib.ValueLayout
import Idealize.ShloMosaic.Lib.Pipeline.Value

set_option maxRecDepth 16384

noncomputable section

namespace Cert.KernelIdeal.HostMid

open Idealize.ShloMosaic Idealize.ShloMosaic.TcCoe Idealize.ShloMosaic.ValueIdx Idealize.ShloMosaic.StableHlo
open Idealize.SL.Sem
open Cert.KernelIdeal Cert.KernelIdeal.Gen Cert.KernelIdeal.Body

/-- Flattening batch and position into one row axis: row r of the flat array is (r / 2048, r % 2048) of the original. -/
theorem flatten_rows {α : Type} (X : (⟨3, ![4, 2048, 1024]⟩ : Shape).Idx → α)
    (hc : (⟨3, ![4, 2048, 1024]⟩ : Shape).ShapeCasts ⟨2, ![8192, 1024]⟩) (r : Fin 8192) (f : Fin 1024) :
    shapeCast ⟨2, ![8192, 1024]⟩ X hc (ix2 r f) = X (ix3 ⟨r.val / 2048, by omega⟩ ⟨r.val % 2048, by omega⟩ f) := by
  refine shapeCast_apply X hc _ _ ?_
  rw [Shape.rowMajor_val_two, Shape.rowMajor_val_three]
  show (r.val / 2048 * 2048 + r.val % 2048) * 1024 + f.val = r.val * 1024 + f.val
  omega

variable (m : (ℓ : Loc nD τ sig) → Buf (Elt Ideal) ℓ) (ρ : Dev nD → PrngReg)

/-- The activations the output projection is entered with, at (r, f). -/
theorem ent2_a (c : Dev nD) (r : Fin 8192) (f : Fin 1024) :
    Ent2 (F := Ideal) m ρ c main_v46 (ix2 r f)
      = W4 (F := Ideal) m ρ c (Proc.devRef .tc main_v43) (ix3 ⟨r.val / 2048, by omega⟩ ⟨r.val % 2048, by omega⟩ f) := by
  show StableHlo.after hostOps2 (W4 (F := Ideal) m ρ c) (Proc.devRef .tc main_v46) (ix2 r f) = _
  after_results
  exact flatten_rows _ _ r f

/-- The output matrix is written by nothing before the output projection. -/
theorem W4_main_arg7 (c : Dev nD) : W4 (F := Ideal) m ρ c (Proc.devRef .tc main_arg7) = m ((c : Thread nD τ).loc main_arg7) :=
  calc W4 (F := Ideal) m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (r := main_arg7) (by decide)
    _ = W1 m ρ c (Proc.devRef .tc main_arg7) := W2_of_ne m ρ c main_arg7 (by decide)
    _ = W0 m ρ c (Proc.devRef .tc main_arg7) := StableHlo.after_of_writes_sub hostOps0 _ hostOps0_writes (r := main_arg7) (by decide)
    _ = m ((c : Thread nD τ).loc main_arg7) := rfl

/-- The right operand the output projection is entered with, at (f, e): the output matrix at (e, f). -/
theorem ent2_w (c : Dev nD) (f e : Fin 1024) :
    Ent2 (F := Ideal) m ρ c main_v45 (ix2 f e) = m ((c : Thread nD τ).loc main_arg7) (ix2 e f) := by
  show StableHlo.after hostOps2 (W4 (F := Ideal) m ρ c) (Proc.devRef .tc main_v45) (ix2 f e) = _
  after_results
  rw [W4_main_arg7]
  exact transpose_ix2_apply _ _ f e

/-- The bias the output projection is entered with is the output bias as given. -/
theorem ent2_b (c : Dev nD) : Ent2 (F := Ideal) m ρ c main_arg8 = m ((c : Thread nD τ).loc main_arg8) :=
  calc W5 (F := Ideal) m ρ c (Proc.devRef .tc main_arg8)
    _ = W4 m ρ c (Proc.devRef .tc main_arg8) := StableHlo.after_of_writes_sub hostOps2 _ hostOps2_writes (r := main_arg8) (by decide)
    _ = W3 m ρ c (Proc.devRef .tc main_arg8) := W4_of_ne m ρ c main_arg8 (by decide)
    _ = W2 m ρ c (Proc.devRef .tc main_arg8) := StableHlo.after_of_writes_sub hostOps1 _ hostOps1_writes (r := main_arg8) (by decide)
    _ = W1 m ρ c (Proc.devRef .tc main_arg8) := W2_of_ne m ρ c main_arg8 (by decide)
    _ = W0 m ρ c (Proc.devRef .tc main_arg8) := StableHlo.after_of_writes_sub hostOps0 _ hostOps0_writes (r := main_arg8) (by decide)
    _ = m ((c : Thread nD τ).loc main_arg8) := rfl

end Cert.KernelIdeal.HostMid

end
-- ==== Proof.HostMid3.lean ====
/-
  After the output projection: its [8192, 1024] result is regrouped as [4, 2048, 1024]; entry (b, l, e) of the layer's
  result is row b * 2048 + l, lane e of the projection's result.
-/
import proofs.«124737_j13280038879618_2_alg».proof.Proof.RunKi
import Idealize.ShloMosaic.Lib.StableHlo.Run
import Idealize.ShloMosaic.PureOps.Ideal
import Idealize.ShloMosaic.Lib.ValueIdx
import Idealize.ShloMosaic.Lib.Pipeline.Value

set_option maxRecDepth 16384

noncomputable section

namespace Cert.KernelIdeal.HostMid

open Idealize.ShloMosaic Idealize.ShloMosaic.TcCoe Idealize.ShloMosaic.ValueIdx Idealize.ShloMosaic.StableHlo
open Idealize.SL.Sem
open Cert.KernelIdeal Cert.KernelIdeal.Gen Cert.KernelIdeal.Body

/-- Splitting the row axis into batch and position: (b, l) of the regrouped array is row b * 2048 + l of the flat one. -/
theorem regroup_rows {α : Type} (X : (⟨2, ![8192, 1024]⟩ : Shape).Idx → α)
    (hc : (⟨2, ![8192, 1024]⟩ : Shape).ShapeCasts ⟨3, ![4, 2048, 1024]⟩) (b : Fin 4) (l : Fin 2048) (e : Fin 1024) :
    shapeCast ⟨3, ![4, 2048, 1024]⟩ X hc (ix3 b l e) = X (ix2 ⟨b.val * 2048 + l.val, by omega⟩ e) := by
  refine shapeCast_apply X hc _ _ ?_
  rw [Shape.rowMajor_val_two, Shape.rowMajor_val_three]
  rfl

variable (m : (ℓ : Loc nD τ sig) → Buf (Elt Ideal) ℓ) (ρ : Dev nD → PrngReg)

/-- The layer's result at (b, l, e). -/
theorem out_reshape (c : Dev nD) (b : Fin 4) (l : Fin 2048) (e : Fin 1024) :
    W7 (F := Ideal) m ρ c (Proc.devRef .tc main_v48) (ix3 b l e)
      = W6 (F := Ideal) m ρ c (Proc.devRef .tc main_v47) (ix2 ⟨b.val * 2048 + l.val, by omega⟩ e) := by
  show StableHlo.after hostOps3 (W6 (F := Ideal) m ρ c) (Proc.devRef .tc main_v48) (ix3 b l e) = _
  after_results
  exact regroup_rows _ _ b l e

end Cert.KernelIdeal.HostMid

end
-- ==== Proof.ArrLinear0.lean ====
/-
  The fused projection over the whole array. At every grid point the region writes back one block of 512 rows of
  the result, and that block is the same function of the arrays the region reads: entry (r, n) is row r of the
  activations contracted with column n of the weights over the 1024 input features, plus bias entry n. The row blocks
  tile the 8192 rows, so the array the region leaves is that function at every index.
-/
import proofs.«124737_j13280038879618_2_alg».proof.Proof.FrameKi0
import proofs.«124737_j13280038879618_2_alg».proof.Proof.Gen.KernelIdeal.Points
import Idealize.ShloMosaic.PureOps.Ideal
import Idealize.ShloMosaic.Lib.Pipeline.Value
import Idealize.ShloMosaic.Lib.ValueIdx

noncomputable section

open scoped BigOperators

namespace Cert.KernelIdeal.Arr

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)

/-- The linear layer as one function of whole arrays: entry (r, n) is the sum over the 1024 input features e of
    a (r, e) * w (e, n), plus bias n. -/
def linear0 (a : S8192x1024.Idx → EReal) (w : S1024x3072.Idx → EReal) (bias : S3072.Idx → EReal) :
    S8192x3072.Idx → EReal :=
  fun i => (∑ e : Fin 1024, a (ix2 (i 0) e) * w (ix2 e (i 1))) + bias (ix1 (i 1))

theorem linear0_apply (a : S8192x1024.Idx → EReal) (w : S1024x3072.Idx → EReal) (bias : S3072.Idx → EReal)
    (r : Fin 8192) (n : Fin 3072) :
    linear0 a w bias (ix2 r n) = (∑ e : Fin 1024, a (ix2 r e) * w (ix2 e n)) + bias (ix1 n) := rfl

private theorem zeros2 : (![0, 0] : Fin 2 → Nat) = fun _ => 0 := funext fun a => by fin_cases a <;> rfl
private theorem zeros1 : (![0] : Fin 1 → Nat) = fun _ => 0 := funext fun a => by fin_cases a <;> rfl

/-- The stored value of a row block at (p, n) is the layer's entry (r, n) whenever row p of the block is row r of the
    activations and the block's weights and bias are the whole weights and bias. -/
theorem block_entry0_coords
    (hpay : ∀ (v0 : Vec Ideal S512x1024 .bf16) (v2 : Vec Ideal S1024x3072 .bf16) (v5 : Vec Ideal S3072 .f32)
      (r : Fin 512) (n : Fin 3072),
      k0_pay1 (F := Ideal) v0 v2 v5 (ix2 r n) = (∑ e : Fin 1024, v0 (ix2 r e) * v2 (ix2 e n)) + v5 (ix1 n))
    (x0 : Vec Ideal S512x1024 .bf16) (x1 : Vec Ideal S1024x3072 .bf16) (x2 : Vec Ideal S3072 .f32)
    (a : S8192x1024.Idx → EReal) (w : S1024x3072.Idx → EReal) (bias : S3072.Idx → EReal)
    (p : Fin 512) (n : Fin 3072) (r : Fin 8192)
    (h0 : ∀ e : Fin 1024, x0 (ix2 p e) = a (ix2 r e)) (h1 : x1 = w) (h2 : x2 = bias) :
    k0_pay1 (F := Ideal) x0 x1 x2 (ix2 p n) = linear0 a w bias (ix2 r n) := by
  subst h1 h2
  rw [hpay, linear0_apply]
  simp only [h0]

/-- The same at an index of the block and an index of the array that share the column. -/
theorem block_entry0
    (hpay : ∀ (v0 : Vec Ideal S512x1024 .bf16) (v2 : Vec Ideal S1024x3072 .bf16) (v5 : Vec Ideal S3072 .f32)
      (r : Fin 512) (n : Fin 3072),
      k0_pay1 (F := Ideal) v0 v2 v5 (ix2 r n) = (∑ e : Fin 1024, v0 (ix2 r e) * v2 (ix2 e n)) + v5 (ix1 n))
    (x0 : Vec Ideal S512x1024 .bf16) (x1 : Vec Ideal S1024x3072 .bf16) (x2 : Vec Ideal S3072 .f32)
    (a : S8192x1024.Idx → EReal) (w : S1024x3072.Idx → EReal) (bias : S3072.Idx → EReal)
    (y : S512x3072.Idx) (i : S8192x3072.Idx) (hcol : (i 1).val = (y 1).val)
    (h0 : ∀ e : Fin 1024, x0 (ix2 (y 0) e) = a (ix2 (i 0) e)) (h1 : x1 = w) (h2 : x2 = bias) :
    k0_pay1 (F := Ideal) x0 x1 x2 y = linear0 a w bias i := by
  have hi : i = ix2 (i 0) (y 1) := (eq_ix2 i).trans (congrArg (ix2 (i 0)) (Fin.ext hcol))
  exact (congrArg (k0_pay1 (F := Ideal) x0 x1 x2) (eq_ix2 y)).trans
    ((block_entry0_coords hpay x0 x1 x2 a w bias (y 0) (y 1) (i 0) h0 h1 h2).trans
      (congrArg (linear0 a w bias) hi.symm))

/-- The printed index maps over the 16 grid points: the activations' row block moves with the result's row block;
    every other block index is zero. -/
theorem index_facts0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 1) = 0
    ∧ win0_3.index t (1 : Fin 2) = 0 :=
  (by decide +kernel : ∀ t : Fin grid0.N, _)

/-- Every one of the 16 row blocks of the result is some point's. -/
theorem index_onto0 : ∀ q : Fin 16, ∃ t : Fin cfg0.N, win0_3.index t (0 : Fin 2) = q.val :=
  (by decide +kernel : ∀ q : Fin 16, ∃ t : Fin grid0.N, win0_3.index t (0 : Fin 2) = q.val)

variable (V : (c : Dev nD) → (b : Ref sig .tc) → Buf (Elt Ideal) ((c : Thread nD τ).loc b))

/-- What point t writes back is block t of the layer applied to the arrays the region reads. -/
theorem flushed0_eq
    (hpay : ∀ (v0 : Vec Ideal S512x1024 .bf16) (v2 : Vec Ideal S1024x3072 .bf16) (v5 : Vec Ideal S3072 .f32)
      (r : Fin 512) (n : Fin 3072),
      k0_pay1 (F := Ideal) v0 v2 v5 (ix2 r n) = (∑ e : Fin 1024, v0 (ix2 r e) * v2 (ix2 e n)) + v5 (ix1 n))
    (c : Dev nD) (t : Fin cfg0.N) :
    (dat0 (F := Ideal) V c).flushed 3 t = ((cfg0.win 3).blk t).view.read (Elt Ideal)
      (linear0 (V c (Pipeline.arrRef spec0 0)) (V c (Pipeline.arrRef spec0 1)) (V c (Pipeline.arrRef spec0 2))) := by
  show (cfg0.win 3).cut (grid0.coords t) ((dat0 (F := Ideal) V c).after 3 t) = _
  rw [after0_3]
  unfold out0_3
  rw [View.canon_unit_zero zeros2]
  simp only [View.ld_unit_zero (S := S512x1024) zeros2, View.ld_unit_zero (S := S1024x3072) zeros2,
    View.ld_unit_zero (S := S3072) zeros1]
  obtain ⟨e0, e1, e2, e3, e4, e5⟩ := index_facts0 t
  funext j
  show k0_pay1 (F := Ideal) (iblk0 V c 0 t) (iblk0 V c 1 t) (iblk0 V c 2 t) j
    = linear0 (V c main_v37) (V c main_v34) (V c main_v35) (((cfg0.win 3).blk t).view.emb j)
  refine block_entry0 hpay (iblk0 V c 0 t) (iblk0 V c 1 t) (iblk0 V c 2 t) (V c main_v37) (V c main_v34) (V c main_v35)
    j (((cfg0.win 3).blk t).view.emb j) ?_ ?_ ?_ ?_
  · show win0_3.index t (1 : Fin 2) * 3072 + 1 * (j 1).val = (j 1).val
    omega
  · intro e
    show V c main_v37 (((cfg0.win 0).blk t).view.emb (ix2 (j 0) e)) = V c main_v37 (ix2 (((cfg0.win 3).blk t).view.emb j 0) e)
    refine congrArg (V c main_v37) (funext fun a => Fin.ext ?_)
    match a with
    | ⟨0, _⟩ => show win0_0.index t (0 : Fin 2) * 512 + 1 * (j 0).val = win0_3.index t (0 : Fin 2) * 512 + 1 * (j 0).val; omega
    | ⟨1, _⟩ => show win0_0.index t (1 : Fin 2) * 1024 + 1 * e.val = e.val; omega
  · funext y
    show V c main_v34 (((cfg0.win 1).blk t).view.emb y) = V c main_v34 y
    refine congrArg (V c main_v34) (funext fun a => Fin.ext ?_)
    match a with
    | ⟨0, _⟩ => show win0_1.index t (0 : Fin 2) * 1024 + 1 * (y 0).val = (y 0).val; omega
    | ⟨1, _⟩ => show win0_1.index t (1 : Fin 2) * 3072 + 1 * (y 1).val = (y 1).val; omega
  · funext y
    show V c main_v35 (((cfg0.win 2).blk t).view.emb y) = V c main_v35 y
    refine congrArg (V c main_v35) (funext fun a => Fin.ext ?_)
    match a with
    | ⟨0, _⟩ => show win0_2.index t (0 : Fin 1) * 3072 + 1 * (y 0).val = (y 0).val; omega

/-- An index of the result array is in point t's block iff each coordinate is in the block's range on its axis. -/
theorem mem_block0 (t : Fin cfg0.N) (i : S8192x3072.Idx) :
    i ∈ ((cfg0.win 3).blk t).view.set ↔ ∀ a : Fin 2, win0_3.index t a * S512x3072.size a ≤ (i a).val
      ∧ (i a).val < win0_3.index t a * S512x3072.size a + S512x3072.size a := by
  show i ∈ ((View.whole main_v38).slice (win0_3.rect t)).set ↔ _
  rw [View.set_slice_whole, Rect.mem_set_unit]
  exact Iff.rfl

/-- Every index of the result array lies in the block of the point numbered by its row divided by 512. -/
theorem covered0 (i : S8192x3072.Idx) :
    ∃ t : Fin cfg0.N, (cfg0.win 3).flush t = true ∧ i ∈ ((cfg0.win 3).blk t).view.set := by
  have hi0 : (i 0).val < 8192 := (i 0).isLt
  have hi1 : (i 1).val < 3072 := (i 1).isLt
  obtain ⟨t, ht⟩ := index_onto0 ⟨(i 0).val / 512, by omega⟩
  have q0 : win0_3.index t (0 : Fin 2) = (i 0).val / 512 := ht
  obtain ⟨e0, e1, e2, e3, e4, e5⟩ := index_facts0 t
  refine ⟨t, flush0_3 t, ?_⟩
  rw [mem_block0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 3072 ≤ (i 1).val ∧ (i 1).val < win0_3.index t (1 : Fin 2) * 3072 + 3072; omega

/-- The array the fused projection leaves is the layer applied to the arrays it reads. -/
theorem array0
    (hpay : ∀ (v0 : Vec Ideal S512x1024 .bf16) (v2 : Vec Ideal S1024x3072 .bf16) (v5 : Vec Ideal S3072 .f32)
      (r : Fin 512) (n : Fin 3072),
      k0_pay1 (F := Ideal) v0 v2 v5 (ix2 r n) = (∑ e : Fin 1024, v0 (ix2 r e) * v2 (ix2 e n)) + v5 (ix1 n))
    (c : Dev nD) :
    (dat0 (F := Ideal) V c).arrAt 3 cfg0.N
      = linear0 (V c (Pipeline.arrRef spec0 0)) (V c (Pipeline.arrRef spec0 1)) (V c (Pipeline.arrRef spec0 2)) :=
  (dat0 (F := Ideal) V c).arrAt_eq_of_cover 3 _ (fun t _ => flushed0_eq V hpay c t) covered0

end Cert.KernelIdeal.Arr

end
-- ==== Proof.ArrLinear2.lean ====
/-
  The output projection over the whole array. At every grid point the region writes back one block of 512 rows of
  the result, and that block is the same function of the arrays the region reads: entry (r, n) is row r of the merged
  heads contracted with column n of the output weights over the 1024 features, plus bias entry n. The row blocks tile
  the 8192 rows, so the array the region leaves is that function at every index.
-/
import proofs.«124737_j13280038879618_2_alg».proof.Proof.FrameKi2
import proofs.«124737_j13280038879618_2_alg».proof.Proof.Gen.KernelIdeal.Points
import Idealize.ShloMosaic.PureOps.Ideal
import Idealize.ShloMosaic.Lib.Pipeline.Value
import Idealize.ShloMosaic.Lib.ValueIdx

noncomputable section

open scoped BigOperators

namespace Cert.KernelIdeal.Arr

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)

/-- The linear layer as one function of whole arrays: entry (r, n) is the sum over the 1024 features e of
    a (r, e) * w (e, n), plus bias n. -/
def linear2 (a : S8192x1024.Idx → EReal) (w : S1024x1024.Idx → EReal) (bias : S1024.Idx → EReal) :
    S8192x1024.Idx → EReal :=
  fun i => (∑ e : Fin 1024, a (ix2 (i 0) e) * w (ix2 e (i 1))) + bias (ix1 (i 1))

theorem linear2_apply (a : S8192x1024.Idx → EReal) (w : S1024x1024.Idx → EReal) (bias : S1024.Idx → EReal)
    (r : Fin 8192) (n : Fin 1024) :
    linear2 a w bias (ix2 r n) = (∑ e : Fin 1024, a (ix2 r e) * w (ix2 e n)) + bias (ix1 n) := rfl

private theorem zeros2 : (![0, 0] : Fin 2 → Nat) = fun _ => 0 := funext fun a => by fin_cases a <;> rfl
private theorem zeros1 : (![0] : Fin 1 → Nat) = fun _ => 0 := funext fun a => by fin_cases a <;> rfl

/-- The stored value of a row block at (p, n) is the layer's entry (r, n) whenever row p of the block is row r of the
    merged heads and the block's weights and bias are the whole weights and bias. -/
theorem block_entry2_coords
    (hpay : ∀ (v0 : Vec Ideal S512x1024 .bf16) (v2 : Vec Ideal S1024x1024 .bf16) (v5 : Vec Ideal S1024 .f32)
      (r : Fin 512) (n : Fin 1024),
      k2_pay1 (F := Ideal) v0 v2 v5 (ix2 r n) = (∑ e : Fin 1024, v0 (ix2 r e) * v2 (ix2 e n)) + v5 (ix1 n))
    (x0 : Vec Ideal S512x1024 .bf16) (x1 : Vec Ideal S1024x1024 .bf16) (x2 : Vec Ideal S1024 .f32)
    (a : S8192x1024.Idx → EReal) (w : S1024x1024.Idx → EReal) (bias : S1024.Idx → EReal)
    (p : Fin 512) (n : Fin 1024) (r : Fin 8192)
    (h0 : ∀ e : Fin 1024, x0 (ix2 p e) = a (ix2 r e)) (h1 : x1 = w) (h2 : x2 = bias) :
    k2_pay1 (F := Ideal) x0 x1 x2 (ix2 p n) = linear2 a w bias (ix2 r n) := by
  subst h1 h2
  rw [hpay, linear2_apply]
  simp only [h0]

/-- The same at an index of the block and an index of the array that share the column. -/
theorem block_entry2
    (hpay : ∀ (v0 : Vec Ideal S512x1024 .bf16) (v2 : Vec Ideal S1024x1024 .bf16) (v5 : Vec Ideal S1024 .f32)
      (r : Fin 512) (n : Fin 1024),
      k2_pay1 (F := Ideal) v0 v2 v5 (ix2 r n) = (∑ e : Fin 1024, v0 (ix2 r e) * v2 (ix2 e n)) + v5 (ix1 n))
    (x0 : Vec Ideal S512x1024 .bf16) (x1 : Vec Ideal S1024x1024 .bf16) (x2 : Vec Ideal S1024 .f32)
    (a : S8192x1024.Idx → EReal) (w : S1024x1024.Idx → EReal) (bias : S1024.Idx → EReal)
    (y : S512x1024.Idx) (i : S8192x1024.Idx) (hcol : (i 1).val = (y 1).val)
    (h0 : ∀ e : Fin 1024, x0 (ix2 (y 0) e) = a (ix2 (i 0) e)) (h1 : x1 = w) (h2 : x2 = bias) :
    k2_pay1 (F := Ideal) x0 x1 x2 y = linear2 a w bias i := by
  have hi : i = ix2 (i 0) (y 1) := (eq_ix2 i).trans (congrArg (ix2 (i 0)) (Fin.ext hcol))
  exact (congrArg (k2_pay1 (F := Ideal) x0 x1 x2) (eq_ix2 y)).trans
    ((block_entry2_coords hpay x0 x1 x2 a w bias (y 0) (y 1) (i 0) h0 h1 h2).trans
      (congrArg (linear2 a w bias) hi.symm))

/-- The printed index maps over the 16 grid points: the merged heads' row block moves with the result's row block;
    every other block index is zero. -/
theorem index_facts2 : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 1) = 0
    ∧ win2_3.index t (1 : Fin 2) = 0 :=
  (by decide +kernel : ∀ t : Fin grid2.N, _)

/-- Every one of the 16 row blocks of the result is some point's. -/
theorem index_onto2 : ∀ q : Fin 16, ∃ t : Fin cfg2.N, win2_3.index t (0 : Fin 2) = q.val :=
  (by decide +kernel : ∀ q : Fin 16, ∃ t : Fin grid2.N, win2_3.index t (0 : Fin 2) = q.val)

variable (V : (c : Dev nD) → (b : Ref sig .tc) → Buf (Elt Ideal) ((c : Thread nD τ).loc b))

/-- What point t writes back is block t of the layer applied to the arrays the region reads. -/
theorem flushed2_eq
    (hpay : ∀ (v0 : Vec Ideal S512x1024 .bf16) (v2 : Vec Ideal S1024x1024 .bf16) (v5 : Vec Ideal S1024 .f32)
      (r : Fin 512) (n : Fin 1024),
      k2_pay1 (F := Ideal) v0 v2 v5 (ix2 r n) = (∑ e : Fin 1024, v0 (ix2 r e) * v2 (ix2 e n)) + v5 (ix1 n))
    (c : Dev nD) (t : Fin cfg2.N) :
    (dat2 (F := Ideal) V c).flushed 3 t = ((cfg2.win 3).blk t).view.read (Elt Ideal)
      (linear2 (V c (Pipeline.arrRef spec2 0)) (V c (Pipeline.arrRef spec2 1)) (V c (Pipeline.arrRef spec2 2))) := by
  show (cfg2.win 3).cut (grid2.coords t) ((dat2 (F := Ideal) V c).after 3 t) = _
  rw [after2_3]
  unfold out2_3
  rw [View.canon_unit_zero zeros2]
  simp only [View.ld_unit_zero (S := S512x1024) zeros2, View.ld_unit_zero (S := S1024x1024) zeros2,
    View.ld_unit_zero (S := S1024) zeros1]
  obtain ⟨e0, e1, e2, e3, e4, e5⟩ := index_facts2 t
  funext j
  show k2_pay1 (F := Ideal) (iblk2 V c 0 t) (iblk2 V c 1 t) (iblk2 V c 2 t) j
    = linear2 (V c main_v46) (V c main_v45) (V c main_arg8) (((cfg2.win 3).blk t).view.emb j)
  refine block_entry2 hpay (iblk2 V c 0 t) (iblk2 V c 1 t) (iblk2 V c 2 t) (V c main_v46) (V c main_v45) (V c main_arg8)
    j (((cfg2.win 3).blk t).view.emb j) ?_ ?_ ?_ ?_
  · show win2_3.index t (1 : Fin 2) * 1024 + 1 * (j 1).val = (j 1).val
    omega
  · intro e
    show V c main_v46 (((cfg2.win 0).blk t).view.emb (ix2 (j 0) e)) = V c main_v46 (ix2 (((cfg2.win 3).blk t).view.emb j 0) e)
    refine congrArg (V c main_v46) (funext fun a => Fin.ext ?_)
    match a with
    | ⟨0, _⟩ => show win2_0.index t (0 : Fin 2) * 512 + 1 * (j 0).val = win2_3.index t (0 : Fin 2) * 512 + 1 * (j 0).val; omega
    | ⟨1, _⟩ => show win2_0.index t (1 : Fin 2) * 1024 + 1 * e.val = e.val; omega
  · funext y
    show V c main_v45 (((cfg2.win 1).blk t).view.emb y) = V c main_v45 y
    refine congrArg (V c main_v45) (funext fun a => Fin.ext ?_)
    match a with
    | ⟨0, _⟩ => show win2_1.index t (0 : Fin 2) * 1024 + 1 * (y 0).val = (y 0).val; omega
    | ⟨1, _⟩ => show win2_1.index t (1 : Fin 2) * 1024 + 1 * (y 1).val = (y 1).val; omega
  · funext y
    show V c main_arg8 (((cfg2.win 2).blk t).view.emb y) = V c main_arg8 y
    refine congrArg (V c main_arg8) (funext fun a => Fin.ext ?_)
    match a with
    | ⟨0, _⟩ => show win2_2.index t (0 : Fin 1) * 1024 + 1 * (y 0).val = (y 0).val; omega

/-- An index of the result array is in point t's block iff each coordinate is in the block's range on its axis. -/
theorem mem_block2 (t : Fin cfg2.N) (i : S8192x1024.Idx) :
    i ∈ ((cfg2.win 3).blk t).view.set ↔ ∀ a : Fin 2, win2_3.index t a * S512x1024.size a ≤ (i a).val
      ∧ (i a).val < win2_3.index t a * S512x1024.size a + S512x1024.size a := by
  show i ∈ ((View.whole main_v47).slice (win2_3.rect t)).set ↔ _
  rw [View.set_slice_whole, Rect.mem_set_unit]
  exact Iff.rfl

/-- Every index of the result array lies in the block of the point numbered by its row divided by 512. -/
theorem covered2 (i : S8192x1024.Idx) :
    ∃ t : Fin cfg2.N, (cfg2.win 3).flush t = true ∧ i ∈ ((cfg2.win 3).blk t).view.set := by
  have hi0 : (i 0).val < 8192 := (i 0).isLt
  have hi1 : (i 1).val < 1024 := (i 1).isLt
  obtain ⟨t, ht⟩ := index_onto2 ⟨(i 0).val / 512, by omega⟩
  have q0 : win2_3.index t (0 : Fin 2) = (i 0).val / 512 := ht
  obtain ⟨e0, e1, e2, e3, e4, e5⟩ := index_facts2 t
  refine ⟨t, flush2_3 t, ?_⟩
  rw [mem_block2]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- The array the output projection leaves is the layer applied to the arrays it reads. -/
theorem array2
    (hpay : ∀ (v0 : Vec Ideal S512x1024 .bf16) (v2 : Vec Ideal S1024x1024 .bf16) (v5 : Vec Ideal S1024 .f32)
      (r : Fin 512) (n : Fin 1024),
      k2_pay1 (F := Ideal) v0 v2 v5 (ix2 r n) = (∑ e : Fin 1024, v0 (ix2 r e) * v2 (ix2 e n)) + v5 (ix1 n))
    (c : Dev nD) :
    (dat2 (F := Ideal) V c).arrAt 3 cfg2.N
      = linear2 (V c (Pipeline.arrRef spec2 0)) (V c (Pipeline.arrRef spec2 1)) (V c (Pipeline.arrRef spec2 2)) :=
  (dat2 (F := Ideal) V c).arrAt_eq_of_cover 3 _ (fun t _ => flushed2_eq V hpay c t) covered2

end Cert.KernelIdeal.Arr

end
-- ==== Proof.PayLinear.lean ====
/-
  The two linear layers' stored values read at an index: a row of the left operand contracted with a column of the
  right operand, plus the bias entry of that column. At the ideal values the zero accumulator contributes nothing,
  the one-row bias broadcast reads its entry at the column, and the narrowing of the result is the identity.
-/
import proofs.«124737_j13280038879618_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pay

open Cert.KernelIdeal Cert.KernelIdeal.Gen Idealize.ShloMosaic Idealize.ShloMosaic.ValueIdx

/-- Row coordinate of the left operand's index: the output row. -/
theorem matmul_qkv_apply_lhs0 (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide),
    dif_pos (show (0 : Fin S512x1024.rank) ∈ dot_S512x1024_S1024x3072_S512x3072_1_0_0_1_n_n.lhsNonContracting by decide)]
  rfl

/-- Column coordinate of the right operand's index: the output column. -/
theorem matmul_qkv_apply_rhs1 (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide),
    dif_pos (show (1 : Fin S1024x3072.rank) ∈ dot_S512x1024_S1024x3072_S512x3072_1_0_0_1_n_n.rhsNonContracting by decide)]
  rfl

/-- The fused projection's product into the zero accumulator, at `(r, n)`: row `r` of the left operand contracted with
    column `n` of the right operand over the 1024 input features. -/
theorem matmul_qkv_apply (A : FVec Ideal S512x1024 .bf16) (B : FVec Ideal S1024x3072 .bf16) (r : Fin 512) (n : Fin 3072) :
    matmul dot_S512x1024_S1024x3072_S512x3072_1_0_0_1_n_n none A B (constant (F := Ideal) S512x3072 .f32 0x00000000#32) (ix2 r n)
      = ∑ e : Fin 1024, A (ix2 r e) * B (ix2 e n) := by
  refine (Ideal.matmul_constant_zero_apply dot_S512x1024_S1024x3072_S512x3072_1_0_0_1_n_n none A B (ix2 r n)).trans ?_
  rw [← Equiv.sum_comp (contrEquiv1 dot_S512x1024_S1024x3072_S512x3072_1_0_0_1_n_n 1024 rfl rfl).symm]
  refine Finset.sum_congr rfl fun e _ => ?_
  have he := contrEquiv1_symm_val dot_S512x1024_S1024x3072_S512x3072_1_0_0_1_n_n 1024 rfl rfl e
  have el : dot_S512x1024_S1024x3072_S512x3072_1_0_0_1_n_n.lhsIdx (ix2 r n) ((contrEquiv1 dot_S512x1024_S1024x3072_S512x3072_1_0_0_1_n_n 1024 rfl rfl).symm e) = ix2 r e :=
    funext fun ax => Fin.ext (by
      match ax with
      | ⟨0, _⟩ => exact matmul_qkv_apply_lhs0 _ _
      | ⟨1, _⟩ => exact (dot_S512x1024_S1024x3072_S512x3072_1_0_0_1_n_n.lhsIdx_val_of_single rfl _ _).trans he)
  have er : dot_S512x1024_S1024x3072_S512x3072_1_0_0_1_n_n.rhsIdx (ix2 r n) ((contrEquiv1 dot_S512x1024_S1024x3072_S512x3072_1_0_0_1_n_n 1024 rfl rfl).symm e) = ix2 e n :=
    funext fun ax => Fin.ext (by
      match ax with
      | ⟨0, _⟩ => exact (dot_S512x1024_S1024x3072_S512x3072_1_0_0_1_n_n.rhsIdx_val_of_single rfl _ _).trans he
      | ⟨1, _⟩ => exact matmul_qkv_apply_rhs1 _ _)
  rw [el, er]

/-- Row coordinate of the left operand's index: the output row. -/
theorem matmul_out_apply_lhs0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl

/-- Column coordinate of the right operand's index: the output column. -/
theorem matmul_out_apply_rhs1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- The output projection's product into the zero accumulator, at `(r, n)`: row `r` of the left operand contracted with
    column `n` of the right operand over the 1024 features. -/
theorem matmul_out_apply (A : FVec Ideal S512x1024 .bf16) (B : FVec Ideal S1024x1024 .bf16) (r : Fin 512) (n : Fin 1024) :
    matmul dot_S512x1024_S1024x1024_S512x1024_1_0_0_1_n_n none A B (constant (F := Ideal) S512x1024 .f32 0x00000000#32) (ix2 r n)
      = ∑ e : Fin 1024, A (ix2 r e) * B (ix2 e n) := by
  refine (Ideal.matmul_constant_zero_apply dot_S512x1024_S1024x1024_S512x1024_1_0_0_1_n_n none A B (ix2 r n)).trans ?_
  rw [← Equiv.sum_comp (contrEquiv1 dot_S512x1024_S1024x1024_S512x1024_1_0_0_1_n_n 1024 rfl rfl).symm]
  refine Finset.sum_congr rfl fun e _ => ?_
  have he := contrEquiv1_symm_val dot_S512x1024_S1024x1024_S512x1024_1_0_0_1_n_n 1024 rfl rfl e
  have el : dot_S512x1024_S1024x1024_S512x1024_1_0_0_1_n_n.lhsIdx (ix2 r n) ((contrEquiv1 dot_S512x1024_S1024x1024_S512x1024_1_0_0_1_n_n 1024 rfl rfl).symm e) = ix2 r e :=
    funext fun ax => Fin.ext (by
      match ax with
      | ⟨0, _⟩ => exact matmul_out_apply_lhs0 _ _
      | ⟨1, _⟩ => exact (dot_S512x1024_S1024x1024_S512x1024_1_0_0_1_n_n.lhsIdx_val_of_single rfl _ _).trans he)
  have er : dot_S512x1024_S1024x1024_S512x1024_1_0_0_1_n_n.rhsIdx (ix2 r n) ((contrEquiv1 dot_S512x1024_S1024x1024_S512x1024_1_0_0_1_n_n 1024 rfl rfl).symm e) = ix2 e n :=
    funext fun ax => Fin.ext (by
      match ax with
      | ⟨0, _⟩ => exact (dot_S512x1024_S1024x1024_S512x1024_1_0_0_1_n_n.rhsIdx_val_of_single rfl _ _).trans he
      | ⟨1, _⟩ => exact matmul_out_apply_rhs1 _ _)
  rw [el, er]

/-- The fused projection's stored value at `(r, n)`: the contraction plus the bias entry `n`. -/
theorem k0_pay1_apply (v0 : FVec Ideal S512x1024 .bf16) (v2 : FVec Ideal S1024x3072 .bf16) (v5 : FVec Ideal S3072 .f32)
    (r : Fin 512) (n : Fin 3072) :
    k0_pay1 (F := Ideal) v0 v2 v5 (ix2 r n) = (∑ e : Fin 1024, v0 (ix2 r e) * v2 (ix2 e n)) + v5 (ix1 n) := by
  have hm := matmul_qkv_apply v0 v2 r n
  have hb : broadcastTo S512x3072 (shapeCast S1x3072 v5 Facts₀.shapeCasts_S3072_S1x3072)
      Facts₀.broadcasts_S1x3072_S512x3072 (ix2 r n) = v5 (ix1 n) :=
    (broadcastTo_1b_ab_apply _ _ r n).trans (shapeCast_a_1a_apply v5 _ 0 n)
  unfold k0_pay1
  simp only [shapeCast_self]
  exact congrArg₂ (· + ·) hm hb

/-- The output projection's stored value at `(r, n)`: the contraction plus the bias entry `n`. -/
theorem k2_pay1_apply (v0 : FVec Ideal S512x1024 .bf16) (v2 : FVec Ideal S1024x1024 .bf16) (v5 : FVec Ideal S1024 .f32)
    (r : Fin 512) (n : Fin 1024) :
    k2_pay1 (F := Ideal) v0 v2 v5 (ix2 r n) = (∑ e : Fin 1024, v0 (ix2 r e) * v2 (ix2 e n)) + v5 (ix1 n) := by
  have hm := matmul_out_apply v0 v2 r n
  have hb : broadcastTo S512x1024 (shapeCast S1x1024 v5 Facts₀.shapeCasts_S1024_S1x1024)
      Facts₀.broadcasts_S1x1024_S512x1024 (ix2 r n) = v5 (ix1 n) :=
    (broadcastTo_1b_ab_apply _ _ r n).trans (shapeCast_a_1a_apply v5 _ 0 n)
  unfold k2_pay1
  simp only [shapeCast_self]
  exact congrArg₂ (· + ·) hm hb

end Cert.KernelIdeal.Pay

end
-- ==== Proof.ArrAttn.lean ====
/-
  The attention region, from the blocks to the whole array.

  At each grid point (batch entry, pair of adjacent heads, tile of 512 queries) the body leaves in the output block the
  results of the pair's two heads, side by side on the lanes: lanes 0–63 the first head's, lanes 64–127 the second's.
  Each head's result at a query row and a lane is one fixed function of that row's 64 query lanes of the head, of all
  2048 keys' 64 lanes of the head, and of all 2048 values at the one lane. That fixed function is a parameter here; the
  two facts that the body's two stored values are that function of the head's lanes are hypotheses. From them: the
  output block after the body at every index, what every point writes back as a block of one function of the three
  operand arrays, and — the blocks tiling the array — the whole output array after the region.
-/
import proofs.«124737_j13280038879618_2_alg».proof.Proof.FrameKi1
import proofs.«124737_j13280038879618_2_alg».proof.Proof.Gen.KernelIdeal.Points
import Idealize.ShloMosaic.Lib.Pipeline.Value
import Idealize.ShloMosaic.Lib.ValueIdx

set_option maxRecDepth 16384

noncomputable section

namespace Cert.KernelIdeal.Arr

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Body

/-- One head's result at a query row and a coordinate of the head: a function of the row's 64 query coordinates, of
    the 2048 keys' 64 coordinates each, and of the 2048 values at the one coordinate. -/
abbrev HeadFn : Type := (Fin 64 → EReal) → (Fin 2048 → Fin 64 → EReal) → (Fin 2048 → EReal) → EReal

variable (core : HeadFn)

/-! ## One block -/

/-- Head `h` of the pair (0 or 1) read off the blocks: `core` of lanes `64 h … 64 h + 63` of query row `r`, of the
    same lanes of every key, and of lane `64 h + d` of every value. -/
def headAt (h : Fin 2) (q : Vec Ideal S1x512x128 .bf16) (k v : Vec Ideal S1x2048x128 .bf16) (r : Fin 512) (d : Fin 64) : EReal :=
  core (fun j => q (ix3 0 r ⟨h.val * 64 + j.val, by omega⟩))
    (fun m j => k (ix3 0 m ⟨h.val * 64 + j.val, by omega⟩))
    (fun m => v (ix3 0 m ⟨h.val * 64 + d.val, by omega⟩))

theorem headAt_congr {h h' : Fin 2} {r r' : Fin 512} {d d' : Fin 64} (eh : h = h') (er : r = r') (ed : d = d')
    (q : Vec Ideal S1x512x128 .bf16) (k v : Vec Ideal S1x2048x128 .bf16) :
    headAt core h q k v r d = headAt core h' q k v r' d' := by subst eh; subst er; subst ed; rfl

/-- The output block as one function of its index: at row `r` and lane `l`, head `l / 64` of the pair at coordinate
    `l % 64`. -/
def blockOut (x0 : Vec Ideal S1x512x128 .bf16) (x1 x2 : Vec Ideal S1x2048x128 .bf16) : S1x512x128.Idx → EReal := fun y =>
  headAt core ⟨(y 2).val / 64, by have h : (y 2).val < 128 := (y 2).isLt; omega⟩ x0 x1 x2 (y 1)
    ⟨(y 2).val % 64, by omega⟩

theorem zero3 : (![0, 0, 0] : Fin 3 → Nat) = fun _ => 0 := funext fun a => by fin_cases a <;> rfl

/-- The two facts about the body's stored values: lanes 0–63 hold the pair's first head, lanes 64–127 its second. -/
abbrev LoFact : Prop := ∀ (v0 : Vec Ideal S1x512x128 .bf16) (v2 v4 : Vec Ideal S1x2048x128 .bf16) (r : Fin 512) (d : Fin 64),
  k1_pay5 (F := Ideal) v0 v2 v4 (ix3 0 r d) = headAt core 0 v0 v2 v4 r d
abbrev HiFact : Prop := ∀ (v0 : Vec Ideal S1x512x128 .bf16) (v2 v4 : Vec Ideal S1x2048x128 .bf16) (r : Fin 512) (d : Fin 64),
  k1_pay1 (F := Ideal) (k1_pay6 v4) (k1_pay7 v0 v2) (k1_pay8 v0 v2) (ix3 0 r d) = headAt core 1 v0 v2 v4 r d

/-- The store over lanes 0–63 holds, at each of its indices, the block function at the index's place in the block. -/
theorem lo_piece (hlo : LoFact core) (x0 : Vec Ideal S1x512x128 .bf16) (x1 x2 : Vec Ideal S1x2048x128 .bf16) (x : S1x512x64.Idx) :
    k1_pay5 (F := Ideal) (View.ld x0 r1_q) (View.ld x1 r1_kv) (View.ld x2 r1_kv) x = blockOut core x0 x1 x2 (r1_lo.emb x) := by
  have e0 : View.ld x0 r1_q = x0 := View.ld_unit_zero (S := S1x512x128) zero3 _ x0
  have e1 : View.ld x1 r1_kv = x1 := View.ld_unit_zero (S := S1x2048x128) zero3 _ x1
  have e2 : View.ld x2 r1_kv = x2 := View.ld_unit_zero (S := S1x2048x128) zero3 _ x2
  rw [e0, e1, e2]
  obtain ⟨a, r, d, rfl⟩ : ∃ (a : Fin 1) (r : Fin 512) (d : Fin 64), x = ix3 a r d := ⟨x 0, x 1, x 2, eq_ix3 x⟩
  obtain rfl : a = 0 := Subsingleton.elim _ _
  rw [hlo]
  unfold blockOut
  exact headAt_congr core (Fin.ext (by show 0 = (0 + 1 * d.val) / 64; omega)) (Fin.ext (by show r.val = 0 + 1 * r.val; omega))
    (Fin.ext (by show d.val = (0 + 1 * d.val) % 64; omega)) x0 x1 x2

/-- The store over lanes 64–127 likewise. -/
theorem hi_piece (hhi : HiFact core) (x0 : Vec Ideal S1x512x128 .bf16) (x1 x2 : Vec Ideal S1x2048x128 .bf16) (x : S1x512x64.Idx) :
    k1_pay1 (F := Ideal) (k1_pay6 (View.ld x2 r1_kv)) (k1_pay7 (View.ld x0 r1_q) (View.ld x1 r1_kv)) (k1_pay8 (View.ld x0 r1_q) (View.ld x1 r1_kv)) x
      = blockOut core x0 x1 x2 (r1_hi.emb x) := by
  have e0 : View.ld x0 r1_q = x0 := View.ld_unit_zero (S := S1x512x128) zero3 _ x0
  have e1 : View.ld x1 r1_kv = x1 := View.ld_unit_zero (S := S1x2048x128) zero3 _ x1
  have e2 : View.ld x2 r1_kv = x2 := View.ld_unit_zero (S := S1x2048x128) zero3 _ x2
  rw [e0, e1, e2]
  obtain ⟨a, r, d, rfl⟩ : ∃ (a : Fin 1) (r : Fin 512) (d : Fin 64), x = ix3 a r d := ⟨x 0, x 1, x 2, eq_ix3 x⟩
  obtain rfl : a = 0 := Subsingleton.elim _ _
  rw [hhi]
  unfold blockOut
  exact headAt_congr core (Fin.ext (by show 1 = (64 + 1 * d.val) / 64; omega)) (Fin.ext (by show r.val = 0 + 1 * r.val; omega))
    (Fin.ext (by show d.val = (64 + 1 * d.val) % 64; omega)) x0 x1 x2

/-- THE OUTPUT BLOCK after the body, at every index: the two stores are the two lane halves of one function. -/
theorem out1_3_apply (hlo : LoFact core) (hhi : HiFact core) (x0 : Vec Ideal S1x512x128 .bf16) (x1 x2 : Vec Ideal S1x2048x128 .bf16)
    (y : S1x512x128.Idx) : out1_3 (F := Ideal) x0 x1 x2 y = blockOut core x0 x1 x2 y := by
  unfold out1_3
  refine View.canon_apply_of_pieces (Val := Elt Ideal) (S := S1x512x128) (e := .bf16) (blockOut core x0 x1 x2) _ ?_ y (cover1_3 _ _ y)
  intro p hp
  rcases List.mem_cons.mp hp with rfl | hp
  · exact hi_piece core hhi x0 x1 x2
  · rcases List.mem_cons.mp hp with rfl | hp
    · exact lo_piece core hlo x0 x1 x2
    · exact absurd hp List.not_mem_nil

/-! ## The whole array -/

/-- The output array as one function of the three operand arrays: at batch entry `b`, position `p` and channel `f`, the
    head function of the 64 channels of `f`'s head (those from `f / 64 * 64`) of the query at `p`, of the same channels of
    every key of the batch entry, and of channel `f` of every value of the batch entry. -/
def arrayOut (Q K W : S4x2048x1024.Idx → EReal) : S4x2048x1024.Idx → EReal := fun i =>
  core (fun j => Q (ix3 (i 0) (i 1) ⟨(i 2).val / 64 * 64 + j.val, by have h : (i 2).val < 1024 := (i 2).isLt; omega⟩))
    (fun m j => K (ix3 (i 0) m ⟨(i 2).val / 64 * 64 + j.val, by have h : (i 2).val < 1024 := (i 2).isLt; omega⟩))
    (fun m => W (ix3 (i 0) m (i 2)))

/-- A block whose entries are the arrays' entries at the block's place — batch entry `b`, rows from `512 qi` for the
    queries and all rows for the keys and values, lanes from `128 hp` — has the array function's values at that place. -/
theorem blockOut_eq_arrayOut (Q K W : S4x2048x1024.Idx → EReal) (x0 : Vec Ideal S1x512x128 .bf16) (x1 x2 : Vec Ideal S1x2048x128 .bf16)
    (b qi hp : ℕ)
    (h0 : ∀ (r : Fin 512) (l : Fin 128) (i : S4x2048x1024.Idx), (i 0).val = b → (i 1).val = qi * 512 + r.val →
      (i 2).val = hp * 128 + l.val → x0 (ix3 0 r l) = Q i)
    (h1 : ∀ (m : Fin 2048) (l : Fin 128) (i : S4x2048x1024.Idx), (i 0).val = b → (i 1).val = m.val →
      (i 2).val = hp * 128 + l.val → x1 (ix3 0 m l) = K i)
    (h2 : ∀ (m : Fin 2048) (l : Fin 128) (i : S4x2048x1024.Idx), (i 0).val = b → (i 1).val = m.val →
      (i 2).val = hp * 128 + l.val → x2 (ix3 0 m l) = W i)
    (y : S1x512x128.Idx) (i : S4x2048x1024.Idx) (hi0 : (i 0).val = b) (hi1 : (i 1).val = qi * 512 + (y 1).val)
    (hi2 : (i 2).val = hp * 128 + (y 2).val) :
    blockOut core x0 x1 x2 y = arrayOut core Q K W i := by
  have hy2 : (y 2).val < 128 := (y 2).isLt
  unfold blockOut arrayOut headAt
  refine congr (congr (congrArg core ?_) ?_) ?_
  · funext j
    refine h0 _ _ _ hi0 hi1 ?_
    show (i 2).val / 64 * 64 + j.val = hp * 128 + ((y 2).val / 64 * 64 + j.val)
    omega
  · funext m j
    refine h1 _ _ _ hi0 rfl ?_
    show (i 2).val / 64 * 64 + j.val = hp * 128 + ((y 2).val / 64 * 64 + j.val)
    omega
  · funext m
    refine h2 _ _ _ hi0 rfl ?_
    show (i 2).val = hp * 128 + ((y 2).val / 64 * 64 + (y 2).val % 64)
    omega

/-- The printed index maps, decided over the grid's 128 points: the query window moves with the output window; the
    key and value windows follow it on the batch entry and on the lanes and stay at row block 0; and the output's
    block indices stay in their ranges. -/
theorem index_facts : ∀ t : Fin cfg1.N,
    win1_0.index t (0 : Fin 3) = win1_3.index t (0 : Fin 3) ∧ win1_0.index t (1 : Fin 3) = win1_3.index t (1 : Fin 3)
    ∧ win1_0.index t (2 : Fin 3) = win1_3.index t (2 : Fin 3)
    ∧ win1_1.index t (0 : Fin 3) = win1_3.index t (0 : Fin 3) ∧ win1_1.index t (1 : Fin 3) = 0
    ∧ win1_1.index t (2 : Fin 3) = win1_3.index t (2 : Fin 3)
    ∧ win1_2.index t (0 : Fin 3) = win1_3.index t (0 : Fin 3) ∧ win1_2.index t (1 : Fin 3) = 0
    ∧ win1_2.index t (2 : Fin 3) = win1_3.index t (2 : Fin 3)
    ∧ win1_3.index t (0 : Fin 3) ≤ 3 ∧ win1_3.index t (1 : Fin 3) ≤ 3 ∧ win1_3.index t (2 : Fin 3) ≤ 7 :=
  (by decide +kernel : ∀ t : Fin grid1.N, _)

/-- Every block of the output array is some point's. -/
theorem index_onto : ∀ (q0 : Fin 4) (q1 : Fin 4) (q2 : Fin 8), ∃ t : Fin cfg1.N, win1_3.index t = ![q0.val, q1.val, q2.val] :=
  (by decide +kernel : ∀ (q0 : Fin 4) (q1 : Fin 4) (q2 : Fin 8), ∃ t : Fin grid1.N, win1_3.index t = ![q0.val, q1.val, q2.val])

variable (V : (c : Dev nD) → (b : Ref sig .tc) → Buf (Elt Ideal) ((c : Thread nD τ).loc b))

/-- The query window's block at point `t`, at row `r` and lane `l`, is the query array's entry at the block's place. -/
theorem iblk1_0_apply (c : Dev nD) (t : Fin cfg1.N) (r : Fin 512) (l : Fin 128) (i : S4x2048x1024.Idx)
    (h0 : (i 0).val = win1_0.index t (0 : Fin 3)) (h1 : (i 1).val = win1_0.index t (1 : Fin 3) * 512 + r.val)
    (h2 : (i 2).val = win1_0.index t (2 : Fin 3) * 128 + l.val) :
    (iblk1 V c 0 t : Vec Ideal S1x512x128 .bf16) (ix3 0 r l) = (V c main_v40 : S4x2048x1024.Idx → EReal) i := by
  unfold iblk1
  rw [View.read_apply]
  show V c main_v40 _ = V c main_v40 _
  congr 1
  funext a
  apply Fin.ext
  match a with
  | ⟨0, _⟩ => show win1_0.index t (0 : Fin 3) * 1 + 1 * 0 = (i 0).val; rw [h0]; omega
  | ⟨1, _⟩ => show win1_0.index t (1 : Fin 3) * 512 + 1 * r.val = (i 1).val; rw [h1]; omega
  | ⟨2, _⟩ => show win1_0.index t (2 : Fin 3) * 128 + 1 * l.val = (i 2).val; rw [h2]; omega

/-- The key window's block likewise. -/
theorem iblk1_1_apply (c : Dev nD) (t : Fin cfg1.N) (r : Fin 2048) (l : Fin 128) (i : S4x2048x1024.Idx)
    (h0 : (i 0).val = win1_1.index t (0 : Fin 3)) (h1 : (i 1).val = win1_1.index t (1 : Fin 3) * 2048 + r.val)
    (h2 : (i 2).val = win1_1.index t (2 : Fin 3) * 128 + l.val) :
    (iblk1 V c 1 t : Vec Ideal S1x2048x128 .bf16) (ix3 0 r l) = (V c main_v41 : S4x2048x1024.Idx → EReal) i := by
  unfold iblk1
  rw [View.read_apply]
  show V c main_v41 _ = V c main_v41 _
  congr 1
  funext a
  apply Fin.ext
  match a with
  | ⟨0, _⟩ => show win1_1.index t (0 : Fin 3) * 1 + 1 * 0 = (i 0).val; rw [h0]; omega
  | ⟨1, _⟩ => show win1_1.index t (1 : Fin 3) * 2048 + 1 * r.val = (i 1).val; rw [h1]; omega
  | ⟨2, _⟩ => show win1_1.index t (2 : Fin 3) * 128 + 1 * l.val = (i 2).val; rw [h2]; omega

/-- The value window's block likewise. -/
theorem iblk1_2_apply (c : Dev nD) (t : Fin cfg1.N) (r : Fin 2048) (l : Fin 128) (i : S4x2048x1024.Idx)
    (h0 : (i 0).val = win1_2.index t (0 : Fin 3)) (h1 : (i 1).val = win1_2.index t (1 : Fin 3) * 2048 + r.val)
    (h2 : (i 2).val = win1_2.index t (2 : Fin 3) * 128 + l.val) :
    (iblk1 V c 2 t : Vec Ideal S1x2048x128 .bf16) (ix3 0 r l) = (V c main_v42 : S4x2048x1024.Idx → EReal) i := by
  unfold iblk1
  rw [View.read_apply]
  show V c main_v42 _ = V c main_v42 _
  congr 1
  funext a
  apply Fin.ext
  match a with
  | ⟨0, _⟩ => show win1_2.index t (0 : Fin 3) * 1 + 1 * 0 = (i 0).val; rw [h0]; omega
  | ⟨1, _⟩ => show win1_2.index t (1 : Fin 3) * 2048 + 1 * r.val = (i 1).val; rw [h1]; omega
  | ⟨2, _⟩ => show win1_2.index t (2 : Fin 3) * 128 + 1 * l.val = (i 2).val; rw [h2]; omega

/-- WHAT POINT `t` WRITES BACK is block `t` of the array function of the three operand arrays as the region finds them. -/
theorem flushed_eq (hlo : LoFact core) (hhi : HiFact core) (c : Dev nD) (t : Fin cfg1.N) :
    (dat1 (F := Ideal) V c).flushed 3 t
      = ((cfg1.win 3).blk t).view.read (Elt Ideal) (arrayOut core (V c main_v40) (V c main_v41) (V c main_v42)) := by
  show (cfg1.win 3).cut (grid1.coords t) ((dat1 (F := Ideal) V c).after 3 t) = _
  rw [after1_3]
  obtain ⟨a0, a1, a2, k0, k1, k2, w0, w1, w2, -, -, -⟩ := index_facts t
  funext j
  show out1_3 (F := Ideal) (iblk1 V c 0 t) (iblk1 V c 1 t) (iblk1 V c 2 t) ((cfg1.win 3).xinj (grid1.coords t) j)
    = arrayOut core (V c main_v40) (V c main_v41) (V c main_v42) (((cfg1.win 3).blk t).view.emb j)
  refine (out1_3_apply core hlo hhi _ _ _ _).trans ?_
  have hj0 : (j 0).val < 1 := (j 0).isLt
  refine blockOut_eq_arrayOut core _ _ _ _ _ _ (win1_3.index t (0 : Fin 3)) (win1_3.index t (1 : Fin 3)) (win1_3.index t (2 : Fin 3))
    (fun r l i e0 e1 e2 => iblk1_0_apply V c t r l i (by rw [a0]; exact e0) (by rw [a1]; exact e1) (by rw [a2]; exact e2))
    (fun m l i e0 e1 e2 => iblk1_1_apply V c t m l i (by rw [k0]; exact e0) (by rw [k1]; omega) (by rw [k2]; exact e2))
    (fun m l i e0 e1 e2 => iblk1_2_apply V c t m l i (by rw [w0]; exact e0) (by rw [w1]; omega) (by rw [w2]; exact e2))
    _ _ ?_ ?_ ?_
  · show win1_3.index t (0 : Fin 3) * 1 + 1 * (j 0).val = win1_3.index t (0 : Fin 3); omega
  · show win1_3.index t (1 : Fin 3) * 512 + 1 * (j 1).val = win1_3.index t (1 : Fin 3) * 512 + (j 1).val; omega
  · show win1_3.index t (2 : Fin 3) * 128 + 1 * (j 2).val = win1_3.index t (2 : Fin 3) * 128 + (j 2).val; omega

/-- An index of the array is in point `t`'s block iff each coordinate is in the block's range on its axis. -/
theorem mem_blk (t : Fin cfg1.N) (i : S4x2048x1024.Idx) :
    i ∈ ((cfg1.win 3).blk t).view.set ↔ ∀ a : Fin 3, win1_3.index t a * S1x512x128.size a ≤ (i a).val
      ∧ (i a).val < win1_3.index t a * S1x512x128.size a + S1x512x128.size a := by
  show i ∈ ((View.whole main_v43).slice (win1_3.rect t)).set ↔ _
  rw [View.set_slice_whole, Rect.mem_set_unit]
  exact Iff.rfl

/-- The output's blocks tile the array: every index is in some point's block, and every point writes its block back. -/
theorem covered (i : S4x2048x1024.Idx) :
    ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  obtain ⟨t, ht⟩ := index_onto ⟨(i 0).val, hi0⟩ ⟨(i 1).val / 512, by omega⟩ ⟨(i 2).val / 128, by omega⟩
  have q0 : win1_3.index t (0 : Fin 3) = (i 0).val := congrFun ht 0
  have q1 : win1_3.index t (1 : Fin 3) = (i 1).val / 512 := congrFun ht 1
  have q2 : win1_3.index t (2 : Fin 3) = (i 2).val / 128 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 128 ≤ (i 2).val ∧ (i 2).val < win1_3.index t (2 : Fin 3) * 128 + 128; omega

/-- THE OUTPUT ARRAY AFTER THE REGION: at every index the head function of the index's head's 64 channels of the query
    at the index's position, of the same channels of all keys of the batch entry, and of the index's channel of all
    values of the batch entry — the three operand arrays as the region finds them. -/
theorem arrayAttn (hlo : LoFact core) (hhi : HiFact core) (c : Dev nD) :
    (dat1 (F := Ideal) V c).arrAt 3 cfg1.N = arrayOut core (V c main_v40) (V c main_v41) (V c main_v42) :=
  (dat1 (F := Ideal) V c).arrAt_eq_of_cover 3 _ (fun t _ => flushed_eq core V hlo hhi c t) covered

/-- The array function at an index given by its coordinates. -/
theorem arrayOut_apply (Q K W : S4x2048x1024.Idx → EReal) (b : Fin 4) (p : Fin 2048) (f : Fin 1024) :
    arrayOut core Q K W (ix3 b p f)
      = core (fun j => Q (ix3 b p ⟨f.val / 64 * 64 + j.val, by omega⟩))
          (fun m j => K (ix3 b m ⟨f.val / 64 * 64 + j.val, by omega⟩))
          (fun m => W (ix3 b m f)) := rfl

end Cert.KernelIdeal.Arr

end
-- ==== Proof.LibLaneMax.lean ====
/-
  General lemmas: a maximum along the last axis of a matrix, read at an index.

  * `laneMax_ab_apply`: at the ideal values the f32 lane maximum of an `[a, b]` matrix (a
    `vector.multi_reduction <maximumf>` over axis 1 into `[a]`, from the maximum's neutral word) is, at row `p`, the
    fold of `max` from that word's value over the row's entries `v (p, k)`.
  * `fold_max_absorb`: the value a fold of `max` starts from is below the fold, so taking `max` with it again changes
    nothing.
-/
import Idealize.ShloMosaic.Lib.Pipeline.Value
import Idealize.ShloMosaic.Lib.ValueIdx
import Idealize.ShloMosaic.PureOps.Ideal.Laws

noncomputable section

namespace Idealize.ShloMosaic.ValueIdx

open Idealize.ShloMosaic

/-- At the ideal values an f32 lane maximum of an `[a, b]` matrix is, at row `p`, the fold of `max` over the row's
    entries from the accumulator word's value. -/
theorem laneMax_ab_apply {a b : ℕ} (v : FVec Ideal ⟨2, ![a, b]⟩ .f32) (acc : BitVec FTy.f32.bits)
    (h : (⟨2, ![a, b]⟩ : Shape).Reduces [1] ⟨1, ![a]⟩) (hφ : FKind.Formats .f32) (hacc : acc = FKind.maximumf.neutral .f32 hφ)
    (p : Fin a) :
    multiReduction .maximumf [1] ⟨1, ![a]⟩ v acc h hφ hacc (ix1 p)
      = (Finset.univ : Finset (Fin b)).fold max (Ideal.ofBits .f32 acc) (fun k => v (ix2 p k)) :=
  (Ideal.multiReduction_maximumf_single v acc h hφ hacc (ix1 p)).trans
    (congrArg (fun f => (Finset.univ : Finset (Fin b)).fold max (Ideal.ofBits .f32 acc) f)
      (funext fun k => congrArg v (funext fun ax => Fin.ext (by
        match ax with
        | ⟨0, _⟩ => rfl
        | ⟨1, _⟩ => rfl))))

/-- A fold of `max` absorbs the value it starts from. -/
theorem fold_max_absorb {ι : Type} (s : Finset ι) (b : EReal) (f : ι → EReal) :
    max b (s.fold max b f) = s.fold max b f :=
  max_eq_right (Finset.le_fold_max b |>.mpr (Or.inl le_rfl))

end Idealize.ShloMosaic.ValueIdx

end
-- ==== Proof.LibKeepdims.lean ====
/-
  General lemmas: a sum along the last axis of a matrix that keeps the axis as a unit column, read at an index.

  A `keepdims` row reduction of an `[a, b]` matrix passes through three layout steps: the lane sum into `[a]`, the
  cast of `[a]` to the column `[a, 1]`, and the broadcast of the column `[a, 1]` back over `[a, b]`. Each is read
  here at an index written by its coordinates, so that it applies to a printed operation by unification:
  * `laneSum_ab_apply`: at the ideal values the f32 lane sum at row `p` is `Σ k, v (p, k)`;
  * `shapeCast_a_a1_apply`: the column's entry `(p, 0)` is the vector's entry `p`;
  * `broadcastTo_a1_ab_apply`: the broadcast's entry `(p, c)` is the column's entry `(p, 0)`.
-/
import Idealize.ShloMosaic.Lib.Pipeline.Value
import Idealize.ShloMosaic.Lib.ValueIdx
import Idealize.ShloMosaic.PureOps.Ideal.Laws

noncomputable section

open scoped BigOperators

namespace Idealize.ShloMosaic.ValueIdx

open Idealize.ShloMosaic

variable {α : Type}

/-- An `[a]` array cast to the column `[a, 1]` reads, at `(p, u)`, the operand at `p`, whatever the unit
    coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values an f32 lane sum of an `[a, b]` matrix (a `vector.multi_reduction <add>` over axis 1 into
    `[a]`, from the sum's neutral word) is, at row `p`, the sum over the row's entries. -/
theorem laneSum_ab_apply {a b : ℕ} (v : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

end Idealize.ShloMosaic.ValueIdx

end
-- ==== Proof.PayAttnOps.lean ====
/-
  The attention body's non-pointwise operations read at an index, at the ideal values.

  * the score product contracts the LAST axis of both operands: at `(r, m)` it is `Σ j, A (r, j) * B (m, j)`;
  * the product with the values contracts the key axis: at `(r, d)` it is `Σ m, A (r, m) * B (m, d)`;
  * the row maximum kept as a column and spread back over the row reads, at `(r, m)`, the fold of `max` over row `r`
    from the value of the accumulator word (the word for `-∞`);
  * the row sum kept as a column and spread back reads, at `(r, m)`, the sum over row `r`;
  * the two 64-lane halves of a 128-lane pair, and the unit leading axis of the blocks.
-/
import proofs.«124737_j13280038879618_2_alg».proof.Proof.Gen.KernelIdeal.Skeleton
import proofs.«124737_j13280038879618_2_alg».proof.Proof.LibLaneMax
import proofs.«124737_j13280038879618_2_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pay

open Cert.KernelIdeal Cert.KernelIdeal.Gen Idealize.ShloMosaic Idealize.ShloMosaic.ValueIdx

/-! ## The two products -/

/-- Row coordinate of the score product's left index: the query row. -/
theorem matmul_qk_lhs0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide),
    dif_pos (show (0 : Fin S512x64.rank) ∈ dot_S512x64_S2048x64_S512x2048_1_1_0_0_n_n.lhsNonContracting by decide)]
  rfl

/-- Row coordinate of the score product's right index: the key row, the output's column. -/
theorem matmul_qk_rhs0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide),
    dif_pos (show (0 : Fin S2048x64.rank) ∈ dot_S512x64_S2048x64_S512x2048_1_1_0_0_n_n.rhsNonContracting by decide)]
  rfl

/-- The score product into the zero accumulator, at `(r, m)`: query row `r` against key row `m` over the head width. -/
theorem matmul_qk_apply (A : FVec Ideal S512x64 .bf16) (B : FVec Ideal S2048x64 .bf16) (r : Fin 512) (m : Fin 2048) :
    matmul dot_S512x64_S2048x64_S512x2048_1_1_0_0_n_n none A B (constant (F := Ideal) S512x2048 .f32 0x00000000#32) (ix2 r m)
      = ∑ j : Fin 64, A (ix2 r j) * B (ix2 m j) := by
  refine (Ideal.matmul_constant_zero_apply dot_S512x64_S2048x64_S512x2048_1_1_0_0_n_n none A B (ix2 r m)).trans ?_
  rw [← Equiv.sum_comp (contrEquiv1 dot_S512x64_S2048x64_S512x2048_1_1_0_0_n_n 64 rfl rfl).symm]
  refine Finset.sum_congr rfl fun j _ => ?_
  have hj := contrEquiv1_symm_val dot_S512x64_S2048x64_S512x2048_1_1_0_0_n_n 64 rfl rfl j
  have el : dot_S512x64_S2048x64_S512x2048_1_1_0_0_n_n.lhsIdx (ix2 r m) ((contrEquiv1 dot_S512x64_S2048x64_S512x2048_1_1_0_0_n_n 64 rfl rfl).symm j) = ix2 r j :=
    funext fun ax => Fin.ext (by
      match ax with
      | ⟨0, _⟩ => exact matmul_qk_lhs0 _ _
      | ⟨1, _⟩ => exact (dot_S512x64_S2048x64_S512x2048_1_1_0_0_n_n.lhsIdx_val_of_single rfl _ _).trans hj)
  have er : dot_S512x64_S2048x64_S512x2048_1_1_0_0_n_n.rhsIdx (ix2 r m) ((contrEquiv1 dot_S512x64_S2048x64_S512x2048_1_1_0_0_n_n 64 rfl rfl).symm j) = ix2 m j :=
    funext fun ax => Fin.ext (by
      match ax with
      | ⟨0, _⟩ => exact matmul_qk_rhs0 _ _
      | ⟨1, _⟩ => exact (dot_S512x64_S2048x64_S512x2048_1_1_0_0_n_n.rhsIdx_val_of_single rfl _ _).trans hj)
  rw [el, er]

/-- Row coordinate of the value product's left index: the query row. -/
theorem matmul_pv_lhs0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl

/-- Column coordinate of the value product's right index: the output column. -/
theorem matmul_pv_rhs1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

/-- The product with the values into the zero accumulator, at `(r, d)`: row `r` of the weights against column `d` of the
    values over the 2048 keys. -/
theorem matmul_pv_apply (A : FVec Ideal S512x2048 .bf16) (B : FVec Ideal S2048x64 .bf16) (r : Fin 512) (d : Fin 64) :
    matmul dot_S512x2048_S2048x64_S512x64_1_0_0_1_n_n none A B (constant (F := Ideal) S512x64 .f32 0x00000000#32) (ix2 r d)
      = ∑ m : Fin 2048, A (ix2 r m) * B (ix2 m d) := by
  refine (Ideal.matmul_constant_zero_apply dot_S512x2048_S2048x64_S512x64_1_0_0_1_n_n none A B (ix2 r d)).trans ?_
  rw [← Equiv.sum_comp (contrEquiv1 dot_S512x2048_S2048x64_S512x64_1_0_0_1_n_n 2048 rfl rfl).symm]
  refine Finset.sum_congr rfl fun m _ => ?_
  have hm := contrEquiv1_symm_val dot_S512x2048_S2048x64_S512x64_1_0_0_1_n_n 2048 rfl rfl m
  have el : dot_S512x2048_S2048x64_S512x64_1_0_0_1_n_n.lhsIdx (ix2 r d) ((contrEquiv1 dot_S512x2048_S2048x64_S512x64_1_0_0_1_n_n 2048 rfl rfl).symm m) = ix2 r m :=
    funext fun ax => Fin.ext (by
      match ax with
      | ⟨0, _⟩ => exact matmul_pv_lhs0 _ _
      | ⟨1, _⟩ => exact (dot_S512x2048_S2048x64_S512x64_1_0_0_1_n_n.lhsIdx_val_of_single rfl _ _).trans hm)
  have er : dot_S512x2048_S2048x64_S512x64_1_0_0_1_n_n.rhsIdx (ix2 r d) ((contrEquiv1 dot_S512x2048_S2048x64_S512x64_1_0_0_1_n_n 2048 rfl rfl).symm m) = ix2 m d :=
    funext fun ax => Fin.ext (by
      match ax with
      | ⟨0, _⟩ => exact (dot_S512x2048_S2048x64_S512x64_1_0_0_1_n_n.rhsIdx_val_of_single rfl _ _).trans hm
      | ⟨1, _⟩ => exact matmul_pv_rhs1 _ _)
  rw [el, er]

/-! ## A row statistic kept as a column and spread back over the row -/

/-- The row maximum, kept as a column and spread over the row, at `(r, m)`: the fold of `max` over row `r` from the value
    of the accumulator word. -/
theorem rowMax_spread_apply (S : FVec Ideal S512x2048 .f32) (r : Fin 512) (m : Fin 2048) :
    broadcastTo S512x2048
        (shapeCast S512x1
          (multiReduction .maximumf [1] S512 S 0xFF800000#32 Facts₀.reduces_S512x2048_S512 (.inl rfl) rfl)
          Facts₀.shapeCasts_S512_S512x1)
        Facts₀.broadcasts_S512x1_S512x2048 (ix2 r m)
      = (Finset.univ : Finset (Fin 2048)).fold max (Ideal.ofBits .f32 0xFF800000#32) (fun m' => S (ix2 r m')) :=
  (broadcastTo_a1_ab_apply _ _ r m).trans
    ((shapeCast_a_a1_apply _ _ r 0).trans (laneMax_ab_apply S _ _ _ _ r))

/-- The row sum, kept as a column and spread over the row, at `(r, m)`: the sum over row `r`. -/
theorem rowSum_spread_apply (E : FVec Ideal S512x2048 .f32) (r : Fin 512) (m : Fin 2048) :
    broadcastTo S512x2048
        (shapeCast S512x1
          (multiReduction .add [1] S512 E 0x00000000#32 Facts₀.reduces_S512x2048_S512 (.inl rfl) rfl)
          Facts₀.shapeCasts_S512_S512x1)
        Facts₀.broadcasts_S512x1_S512x2048 (ix2 r m)
      = ∑ m' : Fin 2048, E (ix2 r m') :=
  (broadcastTo_a1_ab_apply _ _ r m).trans
    ((shapeCast_a_a1_apply _ _ r 0).trans (laneSum_ab_apply E _ _ _ _ r))

/-- The accumulator word of the row maximum denotes `-∞`. -/
theorem neg_inf_f32 : Ideal.ofBits .f32 0xFF800000#32 = (⊥ : EReal) := by
  simp [Ideal.ofBits, Ideal.ieee]

/-! ## The blocks' unit leading axis, and the two 64-lane halves of a 128-lane pair -/

/-- Lane `j` of the first head of a pair. -/
def laneLo (j : Fin 64) : Fin 128 := ⟨j.val, by omega⟩
/-- Lane `j` of the second head of a pair. -/
def laneHi (j : Fin 64) : Fin 128 := ⟨64 + j.val, by omega⟩

/-- The query block without its unit axis, at `(r, c)`. -/
theorem k1_pay2_apply (v0 : FVec Ideal S1x512x128 .bf16) (r : Fin 512) (c : Fin 128) :
    k1_pay2 (F := Ideal) v0 (ix2 r c) = v0 (ix3 (0 : Fin 1) r c) := by
  unfold k1_pay2
  exact shapeCast_1ab_ab_apply v0 _ r c

/-- The key block without its unit axis, at `(m, c)`. -/
theorem k1_pay3_apply (v2 : FVec Ideal S1x2048x128 .bf16) (m : Fin 2048) (c : Fin 128) :
    k1_pay3 (F := Ideal) v2 (ix2 m c) = v2 (ix3 (0 : Fin 1) m c) := by
  unfold k1_pay3
  exact shapeCast_1ab_ab_apply v2 _ m c

/-- The value block without its unit axis, at `(m, c)`. -/
theorem k1_pay4_apply (v4 : FVec Ideal S1x2048x128 .bf16) (m : Fin 2048) (c : Fin 128) :
    k1_pay4 (F := Ideal) v4 (ix2 m c) = v4 (ix3 (0 : Fin 1) m c) := by
  unfold k1_pay4
  exact shapeCast_1ab_ab_apply v4 _ m c

end Cert.KernelIdeal.Pay

end
-- ==== Proof.PayAttn.lean ====
/-
  The attention body's two stored values read at an index, at the ideal values.

  For one head of a 128-lane pair (lanes `ℓ j`, `j : Fin 64`), with `q`, `k`, `v` the query, key and value blocks:
    score r m  = Σ j, (q (r, ℓ j) * c) * k (m, ℓ j)            (c the bf16 word for 1/8)
    rowMax r   = the fold of max over m of score r m, from the value of the word for -∞
    weight r m = exp (score r m - rowMax r)
    denom r    = Σ m, weight r m
    attn r d   = Σ m, (weight r m / denom r) * v (m, ℓ d)
  The first head's stored value is `attn` at the low lanes, the second head's at the high lanes. The narrowings of the
  weights and of the result are the identity at the ideal values; the quotient is the ideal instance's division.
-/
import proofs.«124737_j13280038879618_2_alg».proof.Proof.PayAttnOps

noncomputable section

open scoped BigOperators

namespace Cert.KernelIdeal.Pay

open Cert.KernelIdeal Cert.KernelIdeal.Gen Idealize.ShloMosaic Idealize.ShloMosaic.ValueIdx

/-! ## The mathematical form -/

/-- The scaled score of query row `r` against key row `m`, over the head's lanes. -/
def score (ℓ : Fin 64 → Fin 128) (v0 : FVec Ideal S1x512x128 .bf16) (v2 : FVec Ideal S1x2048x128 .bf16)
    (r : Fin 512) (m : Fin 2048) : EReal :=
  ∑ j : Fin 64, (v0 (ix3 (0 : Fin 1) r (ℓ j)) * (Scalar.ofBits (F := Ideal) .bf16 0x3E00#16 : EReal))
    * v2 (ix3 (0 : Fin 1) m (ℓ j))

/-- The maximum of row `r` of the scores, folded from the value of the word for `-∞`. -/
def rowMax (ℓ : Fin 64 → Fin 128) (v0 : FVec Ideal S1x512x128 .bf16) (v2 : FVec Ideal S1x2048x128 .bf16)
    (r : Fin 512) : EReal :=
  (Finset.univ : Finset (Fin 2048)).fold max (Ideal.ofBits .f32 0xFF800000#32) (fun m => score ℓ v0 v2 r m)

/-- The unnormalized weight of key `m` for query `r`. -/
def weight (ℓ : Fin 64 → Fin 128) (v0 : FVec Ideal S1x512x128 .bf16) (v2 : FVec Ideal S1x2048x128 .bf16)
    (r : Fin 512) (m : Fin 2048) : EReal :=
  Ideal.exp (score ℓ v0 v2 r m - rowMax ℓ v0 v2 r)

/-- The normalizer of query `r`. -/
def denom (ℓ : Fin 64 → Fin 128) (v0 : FVec Ideal S1x512x128 .bf16) (v2 : FVec Ideal S1x2048x128 .bf16)
    (r : Fin 512) : EReal :=
  ∑ m : Fin 2048, weight ℓ v0 v2 r m

/-- The attention output of query `r` at lane `d` of the head. -/
def attn (ℓ : Fin 64 → Fin 128) (v0 : FVec Ideal S1x512x128 .bf16) (v2 : FVec Ideal S1x2048x128 .bf16)
    (v4 : FVec Ideal S1x2048x128 .bf16) (r : Fin 512) (d : Fin 64) : EReal :=
  ∑ m : Fin 2048, Ideal.div (weight ℓ v0 v2 r m) (denom ℓ v0 v2 r) * v4 (ix3 (0 : Fin 1) m (ℓ d))

/-! ## The pieces -/

/-- From the scores `S`, the spread row maximum `MX` and the values `V` on: the normalized weights against the values. -/
theorem tail_apply (V : FVec Ideal S2048x64 .bf16) (S MX : FVec Ideal S512x2048 .f32) (u : Fin 1) (r : Fin 512)
    (d : Fin 64) :
    k1_pay1 (F := Ideal) V S MX (ix3 u r d)
      = ∑ m : Fin 2048, Ideal.div (Ideal.exp (S (ix2 r m) - MX (ix2 r m)))
            (∑ m' : Fin 2048, Ideal.exp (S (ix2 r m') - MX (ix2 r m'))) * V (ix2 m d) := by
  unfold k1_pay1
  refine (shapeCast_ab_1ab_apply _ _ u r d).trans ?_
  refine (truncf_apply (φ := .f32) (ψ := .bf16) _ _ _).trans ?_
  refine (matmul_pv_apply _ V r d).trans ?_
  refine Finset.sum_congr rfl fun m _ => ?_
  refine congrArg (· * V (ix2 m d)) ?_
  refine (truncf_apply (φ := .f32) (ψ := .bf16) _ _ _).trans ?_
  refine (divf_apply (φ := .f32) _ _ _).trans ?_
  exact congrArg (Ideal.div _) (rowSum_spread_apply _ r m)

/-- The score product of one head (lanes from `off`) at `(r, m)`. -/
theorem scores_apply (ℓ : Fin 64 → Fin 128) (off : Nat) (hℓ : ∀ j, (ℓ j).val = off + j.val)
    (v0 : FVec Ideal S1x512x128 .bf16) (v2 : FVec Ideal S1x2048x128 .bf16)
    (hq : S512x128.Slices ![0, off] S512x64) (hk : S2048x128.Slices ![0, off] S2048x64) (r : Fin 512) (m : Fin 2048) :
    matmul dot_S512x64_S2048x64_S512x2048_1_1_0_0_n_n none
        (mulf (extractStridedSlice S512x64 ![0, off] (k1_pay2 (F := Ideal) v0) hq)
          (broadcast S512x64 (Scalar.ofBits (F := Ideal) .bf16 0x3E00#16)))
        (extractStridedSlice S2048x64 ![0, off] (k1_pay3 (F := Ideal) v2) hk)
        (constant (F := Ideal) S512x2048 .f32 0x00000000#32) (ix2 r m)
      = score ℓ v0 v2 r m := by
  refine (matmul_qk_apply _ _ r m).trans ?_
  unfold score
  refine Finset.sum_congr rfl fun j _ => ?_
  refine congrArg₂ (· * ·) ?_ ?_
  · refine (mulf_apply _ _ _).trans ?_
    refine congrArg₂ (· * ·) ?_ (broadcast_apply _ _)
    exact (slice2_axis1_apply off _ hq r j (ℓ j) (hℓ j)).trans (k1_pay2_apply v0 r _)
  · exact (slice2_axis1_apply off _ hk m j (ℓ j) (hℓ j)).trans (k1_pay3_apply v2 m _)

/-- The value lanes of one head (from `off`) at `(m, d)`. -/
theorem values_apply (ℓ : Fin 64 → Fin 128) (off : Nat) (hℓ : ∀ j, (ℓ j).val = off + j.val)
    (v4 : FVec Ideal S1x2048x128 .bf16) (hv : S2048x128.Slices ![0, off] S2048x64) (m : Fin 2048) (d : Fin 64) :
    extractStridedSlice S2048x64 ![0, off] (k1_pay4 (F := Ideal) v4) hv (ix2 m d) = v4 (ix3 (0 : Fin 1) m (ℓ d)) :=
  (slice2_axis1_apply off _ hv m d (ℓ d) (hℓ d)).trans (k1_pay4_apply v4 m _)

/-- The composition: from pointwise readings of the scores, the spread maximum and the values to `attn`. -/
theorem attn_of_parts (ℓ : Fin 64 → Fin 128) (v0 : FVec Ideal S1x512x128 .bf16) (v2 : FVec Ideal S1x2048x128 .bf16)
    (v4 : FVec Ideal S1x2048x128 .bf16) (V : FVec Ideal S2048x64 .bf16) (S MX : FVec Ideal S512x2048 .f32)
    (u : Fin 1) (r : Fin 512) (d : Fin 64)
    (hS : ∀ m, S (ix2 r m) = score ℓ v0 v2 r m)
    (hM : ∀ m, MX (ix2 r m) = rowMax ℓ v0 v2 r)
    (hV : ∀ m, V (ix2 m d) = v4 (ix3 (0 : Fin 1) m (ℓ d))) :
    k1_pay1 (F := Ideal) V S MX (ix3 u r d) = attn ℓ v0 v2 v4 r d := by
  refine (tail_apply V S MX u r d).trans ?_
  unfold attn
  unfold denom weight
  refine Finset.sum_congr rfl fun m _ => ?_
  refine congrArg₂ (· * ·) (congrArg₂ Ideal.div ?_ ?_) (hV m)
  · exact congrArg Ideal.exp (congrArg₂ (· - ·) (hS m) (hM m))
  · exact Finset.sum_congr rfl fun m' _ => congrArg Ideal.exp (congrArg₂ (· - ·) (hS m') (hM m'))

/-! ## The second head: the high lanes -/

/-- The second head's scores at `(r, m)`. -/
theorem k1_pay7_apply (v0 : FVec Ideal S1x512x128 .bf16) (v2 : FVec Ideal S1x2048x128 .bf16) (r : Fin 512)
    (m : Fin 2048) : k1_pay7 (F := Ideal) v0 v2 (ix2 r m) = score laneHi v0 v2 r m := by
  unfold k1_pay7
  exact scores_apply laneHi 64 (fun _ => rfl) v0 v2 _ _ r m

/-- The second head's spread row maximum at `(r, m)`. -/
theorem k1_pay8_apply (v0 : FVec Ideal S1x512x128 .bf16) (v2 : FVec Ideal S1x2048x128 .bf16) (r : Fin 512)
    (m : Fin 2048) : k1_pay8 (F := Ideal) v0 v2 (ix2 r m) = rowMax laneHi v0 v2 r := by
  unfold k1_pay8
  refine (rowMax_spread_apply _ r m).trans ?_
  unfold rowMax
  exact congrArg (fun f => (Finset.univ : Finset (Fin 2048)).fold max (Ideal.ofBits .f32 0xFF800000#32) f)
    (funext fun m' => k1_pay7_apply v0 v2 r m')

/-- The second head's values at `(m, d)`. -/
theorem k1_pay6_apply (v4 : FVec Ideal S1x2048x128 .bf16) (m : Fin 2048) (d : Fin 64) :
    k1_pay6 (F := Ideal) v4 (ix2 m d) = v4 (ix3 (0 : Fin 1) m (laneHi d)) := by
  unfold k1_pay6
  exact values_apply laneHi 64 (fun _ => rfl) v4 _ m d

/-- THE SECOND HEAD'S STORED VALUE at `(u, r, d)`: `attn` at the high lanes. -/
theorem k1_pay1_apply (v0 : FVec Ideal S1x512x128 .bf16) (v2 : FVec Ideal S1x2048x128 .bf16)
    (v4 : FVec Ideal S1x2048x128 .bf16) (u : Fin 1) (r : Fin 512) (d : Fin 64) :
    k1_pay1 (F := Ideal) (k1_pay6 (F := Ideal) v4) (k1_pay7 (F := Ideal) v0 v2) (k1_pay8 (F := Ideal) v0 v2) (ix3 u r d)
      = attn laneHi v0 v2 v4 r d :=
  attn_of_parts laneHi v0 v2 v4 _ _ _ u r d (k1_pay7_apply v0 v2 r) (k1_pay8_apply v0 v2 r)
    (fun m => k1_pay6_apply v4 m d)

/-! ## The first head: the low lanes -/

/-- The first head's scores. -/
def scoresLo (v0 : FVec Ideal S1x512x128 .bf16) (v2 : FVec Ideal S1x2048x128 .bf16) : FVec Ideal S512x2048 .f32 :=
  matmul dot_S512x64_S2048x64_S512x2048_1_1_0_0_n_n none
    (mulf (extractStridedSlice S512x64 ![0, 0] (k1_pay2 (F := Ideal) v0) Facts₀.slices_S512x128_o0_0_S512x64)
      (broadcast S512x64 (Scalar.ofBits (F := Ideal) .bf16 0x3E00#16)))
    (extractStridedSlice S2048x64 ![0, 0] (k1_pay3 (F := Ideal) v2) Facts₀.slices_S2048x128_o0_0_S2048x64)
    (constant (F := Ideal) S512x2048 .f32 0x00000000#32)

/-- The first head's row maximum, kept as a column and spread back over the row. -/
def maxLo (v0 : FVec Ideal S1x512x128 .bf16) (v2 : FVec Ideal S1x2048x128 .bf16) : FVec Ideal S512x2048 .f32 :=
  broadcastTo S512x2048
    (shapeCast S512x1
      (multiReduction .maximumf [1] S512 (scoresLo v0 v2) 0xFF800000#32 Facts₀.reduces_S512x2048_S512 (.inl rfl) rfl)
      Facts₀.shapeCasts_S512_S512x1)
    Facts₀.broadcasts_S512x1_S512x2048

/-- The first head's values. -/
def valuesLo (v4 : FVec Ideal S1x2048x128 .bf16) : FVec Ideal S2048x64 .bf16 :=
  extractStridedSlice S2048x64 ![0, 0] (k1_pay4 (F := Ideal) v4) Facts₀.slices_S2048x128_o0_0_S2048x64

/-- The first head's stored value is the same function of its scores, spread maximum and values as the second
    head's: the two bodies are the same sequence of operations. -/
theorem k1_pay5_eq (v0 : FVec Ideal S1x512x128 .bf16) (v2 : FVec Ideal S1x2048x128 .bf16)
    (v4 : FVec Ideal S1x2048x128 .bf16) :
    k1_pay5 (F := Ideal) v0 v2 v4 = k1_pay1 (F := Ideal) (valuesLo v4) (scoresLo v0 v2) (maxLo v0 v2) := rfl

/-- THE FIRST HEAD'S STORED VALUE at `(u, r, d)`: `attn` at the low lanes. -/
theorem k1_pay5_apply (v0 : FVec Ideal S1x512x128 .bf16) (v2 : FVec Ideal S1x2048x128 .bf16)
    (v4 : FVec Ideal S1x2048x128 .bf16) (u : Fin 1) (r : Fin 512) (d : Fin 64) :
    k1_pay5 (F := Ideal) v0 v2 v4 (ix3 u r d) = attn laneLo v0 v2 v4 r d := by
  rw [k1_pay5_eq]
  have hS : ∀ m, scoresLo v0 v2 (ix2 r m) = score laneLo v0 v2 r m := fun m =>
    scores_apply laneLo 0 (fun j => (Nat.zero_add _).symm) v0 v2 _ _ r m
  refine attn_of_parts laneLo v0 v2 v4 _ _ _ u r d hS (fun m => ?_) (fun m => ?_)
  · refine (rowMax_spread_apply _ r m).trans ?_
    unfold rowMax
    exact congrArg (fun f => (Finset.univ : Finset (Fin 2048)).fold max (Ideal.ofBits .f32 0xFF800000#32) f)
      (funext hS)
  · exact values_apply laneLo 0 (fun j => (Nat.zero_add _).symm) v4 _ m d

end Cert.KernelIdeal.Pay

end
-- ==== Proof.LibERealSum.lean ====
/-
  The coercion of the reals into the extended reals commutes with finite sums.
-/
import Mathlib.Data.EReal.Operations
import Mathlib.Algebra.BigOperators.Group.Finset.Basic

open scoped BigOperators

namespace Cert.Lib

/-- The coercion `ℝ → EReal` of a finite sum of reals is the sum of the coercions: the coercion is additive
    (`EReal.coe_add`) and sends `0` to `0`, so the statement follows by induction on the index set. -/
theorem EReal_coe_finset_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

end Cert.Lib
-- ==== Proof.AlgScale.lean ====
/-
  The algebra between the two arrangements of a scaled dot product, on the extended reals.

  One side multiplies every left factor by a constant before the contraction, `Σ j, (q j * c) * k j`; the other
  multiplies the contracted sum, `(Σ j, q j * k j) * c`. On the extended reals multiplication does not distribute
  over addition in general (`⊤ + ⊥`), so the law is proved for REAL entries: the coercion of the reals is
  multiplicative and commutes with finite sums, and in the reals the law is `Finset.sum_mul`. The constant here is
  1/8, written once as a bf16 word and once as an f32 word: both words denote the real 1/8.

  Also: the reals inside the extended reals are closed under a finite sum of products plus a constant, and under
  a product, so that the entries of a linear layer of real inputs are real.
-/
import Idealize.ShloMosaic.PureOps.Ideal
import proofs.«124737_j13280038879618_2_alg».proof.Proof.LibERealSum

open scoped BigOperators

namespace Cert.Alg

open Idealize.ShloMosaic

/-- An extended real that is neither infinity is the coercion of a real number. -/
theorem exists_real_of_ne {x : EReal} (ht : x ≠ ⊤) (hb : x ≠ ⊥) : ∃ r : ℝ, x = (r : EReal) :=
  ⟨x.toReal, (EReal.coe_toReal ht hb).symm⟩

/-- The product of two reals is real. -/
theorem exists_real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- A finite sum of products of reals, plus a real, is real. -/
theorem exists_real_sum_mul_add {ι : Type*} [Fintype ι] (X W : ι → EReal) (b : EReal)
    (hX : ∀ e, ∃ r : ℝ, X e = (r : EReal)) (hW : ∀ e, ∃ r : ℝ, W e = (r : EReal)) (hb : ∃ r : ℝ, b = (r : EReal)) :
    ∃ r : ℝ, (∑ e, X e * W e) + b = (r : EReal) := by
  choose x hx using hX
  choose w hw using hW
  obtain ⟨c, rfl⟩ := hb
  refine ⟨(∑ e, x e * w e) + c, ?_⟩
  rw [EReal.coe_add, Cert.Lib.EReal_coe_finset_sum]
  refine congrArg (· + (c : EReal)) (Finset.sum_congr rfl fun e _ => ?_)
  rw [hx e, hw e, EReal.coe_mul]

/-- A finite sum of products of reals is real. -/
theorem exists_real_sum_mul {ι : Type*} [Fintype ι] (X W : ι → EReal)
    (hX : ∀ e, ∃ r : ℝ, X e = (r : EReal)) (hW : ∀ e, ∃ r : ℝ, W e = (r : EReal)) :
    ∃ r : ℝ, (∑ e, X e * W e) = (r : EReal) := by
  choose x hx using hX
  choose w hw using hW
  refine ⟨∑ e, x e * w e, ?_⟩
  rw [Cert.Lib.EReal_coe_finset_sum]
  refine Finset.sum_congr rfl fun e _ => ?_
  rw [hx e, hw e, EReal.coe_mul]

/-- The law on coercions of reals: a constant factor on every left entry moves out of the sum of products. -/
theorem sum_scale_coe {ι : Type*} [Fintype ι] (q k : ι → ℝ) (c : ℝ) :
    ∑ j, ((q j : EReal) * (c : EReal)) * (k j : EReal) = (∑ j, (q j : EReal) * (k j : EReal)) * (c : EReal) := by
  have hl : ∀ j, ((q j : EReal) * (c : EReal)) * (k j : EReal) = ((q j * c * k j : ℝ) : EReal) := fun j => by
    rw [EReal.coe_mul, EReal.coe_mul]
  have hr : ∀ j, (q j : EReal) * (k j : EReal) = ((q j * k j : ℝ) : EReal) := fun j => by
    rw [EReal.coe_mul]
  rw [Finset.sum_congr rfl fun j _ => hl j, Finset.sum_congr rfl fun j _ => hr j,
    ← Cert.Lib.EReal_coe_finset_sum, ← Cert.Lib.EReal_coe_finset_sum, ← EReal.coe_mul]
  refine congrArg _ ?_
  rw [Finset.sum_mul]
  exact Finset.sum_congr rfl fun j _ => by ring

/-- The law for extended reals known to be real: `Σ j, (Q j * c) * K j = (Σ j, Q j * K j) * c`. -/
theorem sum_scale {ι : Type*} [Fintype ι] (Q K : ι → EReal) (c : ℝ)
    (hQ : ∀ j, ∃ r : ℝ, Q j = (r : EReal)) (hK : ∀ j, ∃ r : ℝ, K j = (r : EReal)) :
    ∑ j, (Q j * (c : EReal)) * K j = (∑ j, Q j * K j) * (c : EReal) := by
  choose q hq using hQ
  choose k hk using hK
  rw [Finset.sum_congr rfl fun j _ => show (Q j * (c : EReal)) * K j = ((q j : EReal) * (c : EReal)) * (k j : EReal) by
      rw [hq j, hk j],
    Finset.sum_congr rfl fun j _ => show Q j * K j = (q j : EReal) * (k j : EReal) by rw [hq j, hk j]]
  exact sum_scale_coe q k c

/-- The f32 word `0x3E000000` denotes the real 1/8. -/
theorem eighth_f32 : Ideal.ofBits .f32 0x3E000000#32 = (((1 : ℝ) / 8 : ℝ) : EReal) := by
  simp [Ideal.ofBits, Ideal.ieee, -EReal.coe_mul]; norm_num

/-- The bf16 word `0x3E00` denotes the real 1/8. -/
theorem eighth_bf16 : Ideal.ofBits .bf16 0x3E00#16 = (((1 : ℝ) / 8 : ℝ) : EReal) := by
  simp [Ideal.ofBits, Ideal.ieee, -EReal.coe_mul]; norm_num

/-- The same word read as the scalar literal a vector program broadcasts. -/
theorem eighth_bf16_scalar : (Scalar.ofBits (F := Ideal) .bf16 0x3E00#16 : EReal) = (((1 : ℝ) / 8 : ℝ) : EReal) :=
  eighth_bf16

/-- The two arrangements of the scaled dot product agree on real entries: every left entry times the bf16 word for
    1/8, contracted, is the contracted sum times the f32 word for 1/8. -/
theorem sum_scale_eighth {ι : Type*} [Fintype ι] (Q K : ι → EReal)
    (hQ : ∀ j, ∃ r : ℝ, Q j = (r : EReal)) (hK : ∀ j, ∃ r : ℝ, K j = (r : EReal)) :
    ∑ j, (Q j * (Scalar.ofBits (F := Ideal) .bf16 0x3E00#16 : EReal)) * K j
      = (∑ j, Q j * K j) * Ideal.ofBits .f32 0x3E000000#32 := by
  rw [eighth_f32, eighth_bf16_scalar]
  exact sum_scale Q K _ hQ hK

end Cert.Alg
-- ==== Proof.RefSpec.lean ====
/-
  Multi-head self-attention, written out index by index on the extended reals.

  Four tokens-batches of 2048 positions with 1024 channels each.  Three linear layers (query, key, value) map the 1024
  input channels to 1024 channels; channel `d * 16 + h` of such a layer belongs to head `h` (of 16) and is its
  coordinate `d` (of 64): the heads are the FASTEST part of the channel number.  Within a head, the score of query
  position `l` against key position `m` is the inner product over the 64 coordinates, times the scale 1/8 (= 1/√64,
  exactly representable); each row of scores goes through a softmax (subtract the row's maximum, exponentiate, divide by
  the row's sum); the weights average the values; the 16 heads are merged with the head as the SLOWEST part of the
  channel number (`h * 64 + d`), and a last linear layer maps the merged channels to the output.

  Every float literal is kept as the word it is written with (`Ideal.ofBits .f32 …`); none is evaluated here.
-/
import Idealize.ShloMosaic.PureOps.Ideal
import Idealize.ShloMosaic.Lib.ValueIdx

noncomputable section

open scoped BigOperators

namespace Cert.RefLeg

open Idealize.ShloMosaic Idealize.ShloMosaic.ValueIdx

/-- Activations: batch × position × channel. -/
abbrev Act : Type := (⟨3, ![4, 2048, 1024]⟩ : Shape).Idx → EReal
/-- A linear layer's matrix: output channel × input channel. -/
abbrev Mat : Type := (⟨2, ![1024, 1024]⟩ : Shape).Idx → EReal
/-- A linear layer's bias: one entry per output channel. -/
abbrev Row : Type := (⟨1, ![1024]⟩ : Shape).Idx → EReal

/-- The scale 1/8, as the f32 word the scores are multiplied by. -/
abbrev scale : EReal := Ideal.ofBits .f32 0x3E000000#32
/-- Minus infinity, as the f32 word a row maximum starts from. -/
abbrev negInf : EReal := Ideal.ofBits .f32 0xFF800000#32
/-- Zero, as the f32 word a row sum starts from. -/
abbrev zeroWord : EReal := Ideal.ofBits .f32 0x00000000#32

/-- A linear layer at batch `b`, position `l`, output channel `f`: `∑ₑ x[b,l,e] · W[f,e] + bias[f]`. -/
def linear (x : Act) (W : Mat) (bias : Row) (b : Fin 4) (l : Fin 2048) (f : Fin 1024) : EReal :=
  (∑ e : Fin 1024, x (ix3 b l e) * W (ix2 f e)) + bias (ix1 f)

/-- The channel that holds coordinate `d` of head `h` after a projection: heads vary fastest. -/
def splitChan (d : Fin 64) (h : Fin 16) : Fin 1024 := ⟨d.val * 16 + h.val, by omega⟩

/-- Coordinate `d` of head `h` at batch `b`, position `l`, of a projected activation. -/
def head (x : Act) (W : Mat) (bias : Row) (b : Fin 4) (h : Fin 16) (l : Fin 2048) (d : Fin 64) : EReal :=
  linear x W bias b l (splitChan d h)

/-- The scaled score of query position `l` against key position `m` in head `h`:
    `(∑_d q[b,h,l,d] · k[b,h,m,d]) · (1/8)`, the factor applied AFTER the sum. -/
def score (x : Act) (Wq : Mat) (bq : Row) (Wk : Mat) (bk : Row) (b : Fin 4) (h : Fin 16) (l m : Fin 2048) : EReal :=
  (∑ d : Fin 64, head x Wq bq b h l d * head x Wk bk b h m d) * scale

/-- The maximum of a row of scores over the key positions, started from minus infinity (and once more compared with
    minus infinity, as a softmax that guards against an empty row writes it). -/
def rowMax (x : Act) (Wq : Mat) (bq : Row) (Wk : Mat) (bk : Row) (b : Fin 4) (h : Fin 16) (l : Fin 2048) : EReal :=
  max negInf ((Finset.univ : Finset (Fin 2048)).fold max negInf (fun m => score x Wq bq Wk bk b h l m))

/-- The exponential of a score's distance below its row's maximum. -/
def expScore (x : Act) (Wq : Mat) (bq : Row) (Wk : Mat) (bk : Row) (b : Fin 4) (h : Fin 16) (l m : Fin 2048) : EReal :=
  Ideal.exp (score x Wq bq Wk bk b h l m - rowMax x Wq bq Wk bk b h l)

/-- The sum of a row's exponentials over the key positions, started from zero. -/
def rowSum (x : Act) (Wq : Mat) (bq : Row) (Wk : Mat) (bk : Row) (b : Fin 4) (h : Fin 16) (l : Fin 2048) : EReal :=
  zeroWord + ∑ m : Fin 2048, expScore x Wq bq Wk bk b h l m

/-- The softmax weight of key position `m` for query position `l`. -/
def weight (x : Act) (Wq : Mat) (bq : Row) (Wk : Mat) (bk : Row) (b : Fin 4) (h : Fin 16) (l m : Fin 2048) : EReal :=
  Ideal.div (expScore x Wq bq Wk bk b h l m) (rowSum x Wq bq Wk bk b h l)

/-- The attended value: the weighted sum of the value head over the 2048 key positions. -/
def attend (x : Act) (Wq : Mat) (bq : Row) (Wk : Mat) (bk : Row) (Wv : Mat) (bv : Row)
    (b : Fin 4) (h : Fin 16) (l : Fin 2048) (d : Fin 64) : EReal :=
  ∑ m : Fin 2048, weight x Wq bq Wk bk b h l m * head x Wv bv b h m d

/-- The head a merged channel belongs to: heads vary slowest. -/
def mergeHead (f : Fin 1024) : Fin 16 := ⟨f.val / 64, by omega⟩
/-- The coordinate within its head of a merged channel. -/
def mergeCoord (f : Fin 1024) : Fin 64 := ⟨f.val % 64, by omega⟩

/-- The merged attention output at batch `b`, position `l`, channel `f = h * 64 + d`. -/
def merged (x : Act) (Wq : Mat) (bq : Row) (Wk : Mat) (bk : Row) (Wv : Mat) (bv : Row)
    (b : Fin 4) (l : Fin 2048) (f : Fin 1024) : EReal :=
  attend x Wq bq Wk bk Wv bv b (mergeHead f) l (mergeCoord f)

/-- The layer's output at batch `b`, position `l`, channel `e`: `∑_f merged[b,l,f] · Wo[e,f] + bo[e]`. -/
def output (x : Act) (Wq : Mat) (bq : Row) (Wk : Mat) (bk : Row) (Wv : Mat) (bv : Row) (Wo : Mat) (bo : Row)
    (b : Fin 4) (l : Fin 2048) (e : Fin 1024) : EReal :=
  (∑ f : Fin 1024, merged x Wq bq Wk bk Wv bv b l f * Wo (ix2 e f)) + bo (ix1 e)

/-- The whole layer as one array of the nine argument arrays. -/
def attention (x : Act) (Wq : Mat) (bq : Row) (Wk : Mat) (bk : Row) (Wv : Mat) (bv : Row) (Wo : Mat) (bo : Row) : Act :=
  fun i => output x Wq bq Wk bk Wv bv Wo bo (i 0) (i 1) (i 2)

/-- The layer at an index given by its coordinates. -/
theorem attention_apply (x : Act) (Wq : Mat) (bq : Row) (Wk : Mat) (bk : Row) (Wv : Mat) (bv : Row) (Wo : Mat) (bo : Row)
    (b : Fin 4) (l : Fin 2048) (e : Fin 1024) :
    attention x Wq bq Wk bk Wv bv Wo bo (ix3 b l e) = output x Wq bq Wk bk Wv bv Wo bo b l e := rfl

/-- Comparing a fold of `max` once more with its starting value changes nothing: the starting value is already below
    the fold. -/
theorem max_fold_max_self {ι : Type*} (s : Finset ι) (c : EReal) (f : ι → EReal) :
    max c (s.fold max c f) = s.fold max c f := by
  classical
  induction s using Finset.induction_on with
  | empty => simp
  | insert a s ha ih => rw [Finset.fold_insert ha, max_left_comm, ih]

/-- So a row's maximum is the plain fold of `max` over the row, started from minus infinity. -/
theorem rowMax_eq_fold (x : Act) (Wq : Mat) (bq : Row) (Wk : Mat) (bk : Row) (b : Fin 4) (h : Fin 16) (l : Fin 2048) :
    rowMax x Wq bq Wk bk b h l
      = (Finset.univ : Finset (Fin 2048)).fold max negInf (fun m => score x Wq bq Wk bk b h l m) :=
  max_fold_max_self _ _ _

/-- The channel of head `h`, coordinate `d` after the merge is `h * 64 + d`: its head and coordinate read back. -/
theorem mergeHead_mk (h : Fin 16) (d : Fin 64) (hf : h.val * 64 + d.val < 1024) : mergeHead ⟨h.val * 64 + d.val, hf⟩ = h :=
  Fin.ext (by show (h.val * 64 + d.val) / 64 = h.val; omega)
theorem mergeCoord_mk (h : Fin 16) (d : Fin 64) (hf : h.val * 64 + d.val < 1024) : mergeCoord ⟨h.val * 64 + d.val, hf⟩ = d :=
  Fin.ext (by show (h.val * 64 + d.val) % 64 = d.val; omega)

end Cert.RefLeg

end
-- ==== Proof.AlgAttn.lean ====
/-
  One attention head on abstract rows, and its agreement with the index-by-index specification.

  `coreK q k v` is one query row `q` (64 coordinates) against 2048 key rows `k m` and one value column `v`:
    s m = Σ j, (q j * c) * k m j        (c the bf16 word for 1/8, applied to every query coordinate BEFORE the sum)
    mx  = the fold of max over m of s m, from the value of the word for -∞
    w m = exp (s m - mx),   den = Σ m, w m,   coreK q k v = Σ m, (w m / den) * v m.
  The specification applies the factor 1/8 (as an f32 word) AFTER the sum over the coordinates, compares the row
  maximum once more with -∞, and starts the row sum from the zero word. For real query and key heads the three
  differences vanish: a real factor moves across a finite sum of products of reals; the fold of `max` already
  dominates its starting value; the zero word is `0`. The value head needs no finiteness.
-/
import proofs.«124737_j13280038879618_2_alg».proof.Proof.PayAttn
import proofs.«124737_j13280038879618_2_alg».proof.Proof.AlgScale
import proofs.«124737_j13280038879618_2_alg».proof.Proof.RefSpec

noncomputable section

open scoped BigOperators

namespace Cert.Alg

open Cert.KernelIdeal Cert.RefLeg Idealize.ShloMosaic Idealize.ShloMosaic.ValueIdx

/-! ## One head on abstract rows -/

/-- The scaled score of the query row against key row `m`. -/
def coreScore (q : Fin 64 → EReal) (k : Fin 2048 → Fin 64 → EReal) (m : Fin 2048) : EReal :=
  ∑ j : Fin 64, (q j * (Scalar.ofBits (F := Ideal) .bf16 0x3E00#16 : EReal)) * k m j

/-- The maximum of the scores, folded from the value of the word for `-∞`. -/
def coreMax (q : Fin 64 → EReal) (k : Fin 2048 → Fin 64 → EReal) : EReal :=
  (Finset.univ : Finset (Fin 2048)).fold max (Ideal.ofBits .f32 0xFF800000#32) (fun m => coreScore q k m)

/-- The unnormalized weight of key row `m`. -/
def coreWeight (q : Fin 64 → EReal) (k : Fin 2048 → Fin 64 → EReal) (m : Fin 2048) : EReal :=
  Ideal.exp (coreScore q k m - coreMax q k)

/-- The normalizer. -/
def coreDen (q : Fin 64 → EReal) (k : Fin 2048 → Fin 64 → EReal) : EReal :=
  ∑ m : Fin 2048, coreWeight q k m

/-- The attended value: the normalized weights against the value column. -/
def coreK (q : Fin 64 → EReal) (k : Fin 2048 → Fin 64 → EReal) (v : Fin 2048 → EReal) : EReal :=
  ∑ m : Fin 2048, Ideal.div (coreWeight q k m) (coreDen q k) * v m

/-- The stored value of one head of a block is `coreK` of the block's query row, key rows and value column at the
    head's lanes. -/
theorem attn_eq_coreK (ℓ : Fin 64 → Fin 128) (v0 : FVec Ideal S1x512x128 .bf16) (v2 : FVec Ideal S1x2048x128 .bf16)
    (v4 : FVec Ideal S1x2048x128 .bf16) (r : Fin 512) (d : Fin 64) :
    Cert.KernelIdeal.Pay.attn ℓ v0 v2 v4 r d
      = coreK (fun j => v0 (ix3 (0 : Fin 1) r (ℓ j))) (fun m j => v2 (ix3 (0 : Fin 1) m (ℓ j)))
          (fun m => v4 (ix3 (0 : Fin 1) m (ℓ d))) := rfl

/-! ## Agreement with the specification -/

/-- A coordinate of a head of a linear layer of real inputs is real. -/
theorem exists_real_head (x : Act) (W : Mat) (bias : Row) (hx : ∀ i, ∃ r : ℝ, x i = (r : EReal))
    (hW : ∀ i, ∃ r : ℝ, W i = (r : EReal)) (hb : ∀ i, ∃ r : ℝ, bias i = (r : EReal))
    (b : Fin 4) (h : Fin 16) (l : Fin 2048) (d : Fin 64) : ∃ r : ℝ, head x W bias b h l d = (r : EReal) := by
  unfold head linear
  exact exists_real_sum_mul_add (fun e : Fin 1024 => x (ix3 b l e)) (fun e : Fin 1024 => W (ix2 (splitChan d h) e))
    (bias (ix1 (splitChan d h))) (fun e => hx _) (fun e => hW _) (hb _)

/-- The score with the factor applied before the sum is the specification's score, for real query and key heads. -/
theorem coreScore_eq_score (x : Act) (Wq : Mat) (bq : Row) (Wk : Mat) (bk : Row)
    (hx : ∀ i, ∃ r : ℝ, x i = (r : EReal)) (hWq : ∀ i, ∃ r : ℝ, Wq i = (r : EReal))
    (hbq : ∀ i, ∃ r : ℝ, bq i = (r : EReal)) (hWk : ∀ i, ∃ r : ℝ, Wk i = (r : EReal))
    (hbk : ∀ i, ∃ r : ℝ, bk i = (r : EReal)) (b : Fin 4) (h : Fin 16) (l m : Fin 2048) :
    coreScore (fun j => head x Wq bq b h l j) (fun m j => head x Wk bk b h m j) m = score x Wq bq Wk bk b h l m := by
  unfold coreScore score
  exact sum_scale_eighth (fun j => head x Wq bq b h l j) (fun j => head x Wk bk b h m j)
    (fun j => exists_real_head x Wq bq hx hWq hbq b h l j) (fun j => exists_real_head x Wk bk hx hWk hbk b h m j)

/-- THE AGREEMENT: one head on the specification's query, key and value heads is the specification's attended
    value, for real inputs, query and key matrices and biases. -/
theorem coreK_eq_attend (x : Act) (Wq : Mat) (bq : Row) (Wk : Mat) (bk : Row) (Wv : Mat) (bv : Row)
    (hx : ∀ i, ∃ r : ℝ, x i = (r : EReal)) (hWq : ∀ i, ∃ r : ℝ, Wq i = (r : EReal))
    (hbq : ∀ i, ∃ r : ℝ, bq i = (r : EReal)) (hWk : ∀ i, ∃ r : ℝ, Wk i = (r : EReal))
    (hbk : ∀ i, ∃ r : ℝ, bk i = (r : EReal)) (b : Fin 4) (h : Fin 16) (l : Fin 2048) (d : Fin 64) :
    coreK (fun j => head x Wq bq b h l j) (fun m j => head x Wk bk b h m j) (fun m => head x Wv bv b h m d)
      = attend x Wq bq Wk bk Wv bv b h l d := by
  have hS := coreScore_eq_score x Wq bq Wk bk hx hWq hbq hWk hbk b h l
  have hM : coreMax (fun j => head x Wq bq b h l j) (fun m j => head x Wk bk b h m j) = rowMax x Wq bq Wk bk b h l := by
    rw [rowMax_eq_fold]
    unfold coreMax
    exact congrArg (fun f => (Finset.univ : Finset (Fin 2048)).fold max (Ideal.ofBits .f32 0xFF800000#32) f)
      (funext hS)
  have hW : ∀ m, coreWeight (fun j => head x Wq bq b h l j) (fun m j => head x Wk bk b h m j) m
      = expScore x Wq bq Wk bk b h l m := fun m => by
    unfold coreWeight expScore
    exact congrArg Ideal.exp (congrArg₂ (· - ·) (hS m) hM)
  have hD : coreDen (fun j => head x Wq bq b h l j) (fun m j => head x Wk bk b h m j) = rowSum x Wq bq Wk bk b h l := by
    unfold coreDen rowSum
    rw [show zeroWord = (0 : EReal) from Ideal.ofBits_zero_f32, zero_add]
    exact Finset.sum_congr rfl fun m _ => hW m
  unfold coreK attend
  refine Finset.sum_congr rfl fun m _ => ?_
  unfold weight
  exact congrArg (· * head x Wv bv b h m d) (congrArg₂ Ideal.div (hW m) hD)

end Cert.Alg

end
-- ==== Proof.ArrAttnCore.lean ====
/-
  The attention region's output array with the head function made concrete, and its agreement with the
  index-by-index specification of the merged heads.

  The head function is one query row against 2048 key rows and one value column (scores scaled by 1/8, softmax over
  the keys, weighted sum of the values). The body's two stored values are that function of the pair's first and second
  head's lanes, so the region's output array is that function of each channel's head, channel by channel. When the three
  operand arrays hold the specification's query, key and value heads with the head as the slowest part of the channel
  number, the output array is the specification's merged attention.
-/
import proofs.«124737_j13280038879618_2_alg».proof.Proof.ArrAttn
import proofs.«124737_j13280038879618_2_alg».proof.Proof.PayAttn
import proofs.«124737_j13280038879618_2_alg».proof.Proof.AlgAttn

set_option maxRecDepth 16384

noncomputable section

namespace Cert.KernelIdeal.Arr

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Body
open Cert.RefLeg (Act Mat Row head attend merged mergeHead mergeCoord)

/-- The first head's lanes of a pair are lanes `0 · 64 + j`. -/
theorem laneLo_eq (j : Fin 64) : Pay.laneLo j = ⟨(0 : Fin 2).val * 64 + j.val, by omega⟩ :=
  Fin.ext (by show j.val = 0 * 64 + j.val; omega)

/-- The second head's lanes of a pair are lanes `1 · 64 + j`. -/
theorem laneHi_eq (j : Fin 64) : Pay.laneHi j = ⟨(1 : Fin 2).val * 64 + j.val, by omega⟩ :=
  Fin.ext (by show 64 + j.val = 1 * 64 + j.val; omega)

/-- The store over lanes 0–63 holds the head function of the pair's first head. -/
theorem lo_coreK : LoFact Cert.Alg.coreK := fun v0 v2 v4 r d => by
  refine (Pay.k1_pay5_apply v0 v2 v4 0 r d).trans ?_
  rw [Cert.Alg.attn_eq_coreK]
  unfold headAt
  simp only [laneLo_eq]

/-- The store over lanes 64–127 holds the head function of the pair's second head. -/
theorem hi_coreK : HiFact Cert.Alg.coreK := fun v0 v2 v4 r d => by
  refine (Pay.k1_pay1_apply v0 v2 v4 0 r d).trans ?_
  rw [Cert.Alg.attn_eq_coreK]
  unfold headAt
  simp only [laneHi_eq]

/-- THE OUTPUT ARRAY AFTER THE REGION, with the head function concrete. -/
theorem arrayAttn_coreK (V : (c : Dev nD) → (b : Ref sig .tc) → Buf (Elt Ideal) ((c : Thread nD τ).loc b)) (c : Dev nD) :
    (dat1 (F := Ideal) V c).arrAt 3 cfg1.N = arrayOut Cert.Alg.coreK (V c main_v40) (V c main_v41) (V c main_v42) :=
  arrayAttn Cert.Alg.coreK V lo_coreK hi_coreK c

/-- When the three operand arrays hold the specification's query, key and value heads, head `h`'s coordinate `j` at
    channel `64 h + j`, the array function is the specification's merged attention — for real inputs, query and key
    matrices and biases. -/
theorem arrayOut_eq_merged (Q K W : S4x2048x1024.Idx → EReal) (x : Act) (Wq : Mat) (bq : Row) (Wk : Mat) (bk : Row)
    (Wv : Mat) (bv : Row)
    (hx : ∀ i, ∃ r : ℝ, x i = (r : EReal)) (hWq : ∀ i, ∃ r : ℝ, Wq i = (r : EReal))
    (hbq : ∀ i, ∃ r : ℝ, bq i = (r : EReal)) (hWk : ∀ i, ∃ r : ℝ, Wk i = (r : EReal))
    (hbk : ∀ i, ∃ r : ℝ, bk i = (r : EReal))
    (hQ : ∀ (b : Fin 4) (l : Fin 2048) (h : Fin 16) (j : Fin 64),
      Q (ix3 b l ⟨h.val * 64 + j.val, by omega⟩) = head x Wq bq b h l j)
    (hK : ∀ (b : Fin 4) (l : Fin 2048) (h : Fin 16) (j : Fin 64),
      K (ix3 b l ⟨h.val * 64 + j.val, by omega⟩) = head x Wk bk b h l j)
    (hV : ∀ (b : Fin 4) (l : Fin 2048) (h : Fin 16) (j : Fin 64),
      W (ix3 b l ⟨h.val * 64 + j.val, by omega⟩) = head x Wv bv b h l j)
    (b : Fin 4) (l : Fin 2048) (f : Fin 1024) :
    arrayOut Cert.Alg.coreK Q K W (ix3 b l f) = merged x Wq bq Wk bk Wv bv b l f := by
  rw [arrayOut_apply]
  unfold merged
  rw [← Cert.Alg.coreK_eq_attend x Wq bq Wk bk Wv bv hx hWq hbq hWk hbk b (mergeHead f) l (mergeCoord f)]
  have ef : f = ⟨(mergeHead f).val * 64 + (mergeCoord f).val, by omega⟩ :=
    Fin.ext (by show f.val = f.val / 64 * 64 + f.val % 64; omega)
  refine congr (congr (congrArg Cert.Alg.coreK ?_) ?_) ?_
  · funext j
    exact hQ b l (mergeHead f) j
  · funext m j
    exact hK b m (mergeHead f) j
  · funext m
    exact (congrArg (fun g => W (ix3 b m g)) ef).trans (hV b m (mergeHead f) (mergeCoord f))

end Cert.KernelIdeal.Arr

end
-- ==== Proof.AlgPerm.lean ====
/-
  The index bookkeeping between the fused projection's channel order and the specification's heads, and the output
  layer against the specification's output.

  The fused projection lays the 1024 channels of each of its three parts out head-major: channel `g = h * 64 + j` is
  coordinate `j` of head `h`. The specification numbers the same channel `j * 16 + h` (heads fastest). `headMajor`
  is that renumbering. Rows of the flattened activations are numbered `b * 2048 + l`. With the flattened
  activations, the re-ordered weight columns and bias entries identified with the specification's arrays, an entry of
  the fused projection is a coordinate of a head, term by term; and the output layer on the merged heads, with the
  weights transposed, is the specification's output, term by term.
-/
import proofs.«124737_j13280038879618_2_alg».proof.Proof.RefSpec
import proofs.«124737_j13280038879618_2_alg».proof.Proof.ArrLinear0

noncomputable section

open scoped BigOperators

namespace Cert.Alg

open Cert.KernelIdeal Cert.KernelIdeal.Arr Cert.RefLeg Idealize.ShloMosaic Idealize.ShloMosaic.ValueIdx

/-! ## The renumbering of the channels -/

/-- The specification's number of the head-major channel `g = h * 64 + j`: `j * 16 + h`. -/
def headMajor (g : Fin 1024) : Fin 1024 := ⟨(g.val % 64) * 16 + g.val / 64, by omega⟩

/-- At `g = h * 64 + j` it is the channel of coordinate `j` of head `h`. -/
theorem headMajor_mk (h : Fin 16) (j : Fin 64) (hg : h.val * 64 + j.val < 1024) :
    headMajor ⟨h.val * 64 + j.val, hg⟩ = splitChan j h :=
  Fin.ext (by
    show ((h.val * 64 + j.val) % 64) * 16 + (h.val * 64 + j.val) / 64 = j.val * 16 + h.val
    omega)

/-! ## An entry of the fused projection is a coordinate of a head -/

/-- The core, on a row `R` and a column `C` already identified with the specification's arrays: the row holds
    position `(b, l)`, the column holds the weights and the bias of coordinate `j` of head `h`. -/
theorem fused_sum_eq_head (x : Act) (W : Mat) (bias : Row) (A : S8192x1024.Idx → EReal)
    (Wc : S1024x3072.Idx → EReal) (Bc : S3072.Idx → EReal)
    (b : Fin 4) (h : Fin 16) (l : Fin 2048) (j : Fin 64) (R : Fin 8192) (C : Fin 3072)
    (hA : ∀ e : Fin 1024, A (ix2 R e) = x (ix3 b l e))
    (hW : ∀ e : Fin 1024, Wc (ix2 e C) = W (ix2 (splitChan j h) e))
    (hB : Bc (ix1 C) = bias (ix1 (splitChan j h))) :
    (∑ e : Fin 1024, A (ix2 R e) * Wc (ix2 e C)) + Bc (ix1 C) = head x W bias b h l j := by
  unfold head linear
  rw [hB]
  exact congrArg (· + bias (ix1 (splitChan j h))) (Finset.sum_congr rfl fun e _ => by rw [hA e, hW e])

/-- The same through the values of the row and column numbers: row `b * 2048 + l`, column `off + (h * 64 + j)` of
    the part that starts at column `off`. -/
theorem fused_eq_head_of_val (x : Act) (W : Mat) (bias : Row) (A : S8192x1024.Idx → EReal)
    (Wc : S1024x3072.Idx → EReal) (Bc : S3072.Idx → EReal) (off : ℕ)
    (hA : ∀ (b : Fin 4) (l : Fin 2048) (e : Fin 1024) (R : Fin 8192), R.val = b.val * 2048 + l.val →
      A (ix2 R e) = x (ix3 b l e))
    (hW : ∀ (e g : Fin 1024) (C : Fin 3072), C.val = off + g.val → Wc (ix2 e C) = W (ix2 (headMajor g) e))
    (hB : ∀ (g : Fin 1024) (C : Fin 3072), C.val = off + g.val → Bc (ix1 C) = bias (ix1 (headMajor g)))
    (b : Fin 4) (h : Fin 16) (l : Fin 2048) (j : Fin 64) (R : Fin 8192) (C : Fin 3072)
    (hR : R.val = b.val * 2048 + l.val) (hC : C.val = off + (h.val * 64 + j.val)) :
    linear0 A Wc Bc (ix2 R C) = head x W bias b h l j := by
  have hg : h.val * 64 + j.val < 1024 := by omega
  have e1 : headMajor ⟨h.val * 64 + j.val, hg⟩ = splitChan j h := headMajor_mk h j hg
  refine (linear0_apply A Wc Bc R C).trans ?_
  refine fused_sum_eq_head x W bias A Wc Bc b h l j R C (fun e => hA b l e R hR) (fun e => ?_) ?_
  · rw [← e1]
    exact hW e ⟨h.val * 64 + j.val, hg⟩ C hC
  · rw [← e1]
    exact hB ⟨h.val * 64 + j.val, hg⟩ C hC

/-- The same with the row and the column written out. -/
theorem fused_eq_head (x : Act) (W : Mat) (bias : Row) (A : S8192x1024.Idx → EReal)
    (Wc : S1024x3072.Idx → EReal) (Bc : S3072.Idx → EReal) (off : ℕ) (hoff : off + 1024 ≤ 3072)
    (hA : ∀ (b : Fin 4) (l : Fin 2048) (e : Fin 1024), A (ix2 ⟨b.val * 2048 + l.val, by omega⟩ e) = x (ix3 b l e))
    (hW : ∀ (e g : Fin 1024), Wc (ix2 e ⟨off + g.val, by omega⟩) = W (ix2 (headMajor g) e))
    (hB : ∀ g : Fin 1024, Bc (ix1 ⟨off + g.val, by omega⟩) = bias (ix1 (headMajor g)))
    (b : Fin 4) (h : Fin 16) (l : Fin 2048) (j : Fin 64) :
    linear0 A Wc Bc (ix2 ⟨b.val * 2048 + l.val, by omega⟩ ⟨off + (h.val * 64 + j.val), by omega⟩)
      = head x W bias b h l j := by
  refine fused_eq_head_of_val x W bias A Wc Bc off (fun b l e R hR => ?_) (fun e g C hC => ?_) (fun g C hC => ?_)
    b h l j _ _ rfl rfl
  · rw [show R = ⟨b.val * 2048 + l.val, by omega⟩ from Fin.ext hR]
    exact hA b l e
  · rw [show C = ⟨off + g.val, by omega⟩ from Fin.ext hC]
    exact hW e g
  · rw [show C = ⟨off + g.val, by omega⟩ from Fin.ext hC]
    exact hB g

/-- The part that starts at column `0`, with the column written without the offset. -/
theorem fused_eq_head_zero (x : Act) (W : Mat) (bias : Row) (A : S8192x1024.Idx → EReal)
    (Wc : S1024x3072.Idx → EReal) (Bc : S3072.Idx → EReal)
    (hA : ∀ (b : Fin 4) (l : Fin 2048) (e : Fin 1024), A (ix2 ⟨b.val * 2048 + l.val, by omega⟩ e) = x (ix3 b l e))
    (hW : ∀ (e g : Fin 1024), Wc (ix2 e ⟨g.val, by omega⟩) = W (ix2 (headMajor g) e))
    (hB : ∀ g : Fin 1024, Bc (ix1 ⟨g.val, by omega⟩) = bias (ix1 (headMajor g)))
    (b : Fin 4) (h : Fin 16) (l : Fin 2048) (j : Fin 64) :
    linear0 A Wc Bc (ix2 ⟨b.val * 2048 + l.val, by omega⟩ ⟨h.val * 64 + j.val, by omega⟩)
      = head x W bias b h l j := by
  refine fused_eq_head_of_val x W bias A Wc Bc 0 (fun b l e R hR => ?_) (fun e g C hC => ?_) (fun g C hC => ?_)
    b h l j _ _ rfl (Nat.zero_add _).symm
  · rw [show R = ⟨b.val * 2048 + l.val, by omega⟩ from Fin.ext hR]
    exact hA b l e
  · rw [show C = ⟨g.val, by omega⟩ from Fin.ext (hC.trans (Nat.zero_add _))]
    exact hW e g
  · rw [show C = ⟨g.val, by omega⟩ from Fin.ext (hC.trans (Nat.zero_add _))]
    exact hB g

/-! ## The output layer -/

/-- The core, on a row `R` already identified with position `(b, l)` of the merged heads. -/
theorem out_sum_eq_output (x : Act) (Wq : Mat) (bq : Row) (Wk : Mat) (bk : Row) (Wv : Mat) (bv : Row) (Wo : Mat)
    (bo : Row) (AO : S8192x1024.Idx → EReal) (Wt : S1024x1024.Idx → EReal) (Bo : S1024.Idx → EReal)
    (b : Fin 4) (l : Fin 2048) (e : Fin 1024) (R : Fin 8192)
    (hAO : ∀ f : Fin 1024, AO (ix2 R f) = merged x Wq bq Wk bk Wv bv b l f)
    (hWt : ∀ f e : Fin 1024, Wt (ix2 f e) = Wo (ix2 e f)) (hBo : Bo = bo) :
    (∑ f : Fin 1024, AO (ix2 R f) * Wt (ix2 f e)) + Bo (ix1 e) = output x Wq bq Wk bk Wv bv Wo bo b l e := by
  subst hBo
  unfold output
  exact congrArg (· + Bo (ix1 e)) (Finset.sum_congr rfl fun f _ => by rw [hAO f, hWt f e])

/-- The output layer on the flattened merged heads, with the weights transposed, is the specification's output. -/
theorem out_eq_output (x : Act) (Wq : Mat) (bq : Row) (Wk : Mat) (bk : Row) (Wv : Mat) (bv : Row) (Wo : Mat)
    (bo : Row) (AO : S8192x1024.Idx → EReal) (Wt : S1024x1024.Idx → EReal) (Bo : S1024.Idx → EReal)
    (hAO : ∀ (b : Fin 4) (l : Fin 2048) (f : Fin 1024),
      AO (ix2 ⟨b.val * 2048 + l.val, by omega⟩ f) = merged x Wq bq Wk bk Wv bv b l f)
    (hWt : ∀ f e : Fin 1024, Wt (ix2 f e) = Wo (ix2 e f)) (hBo : Bo = bo)
    (b : Fin 4) (l : Fin 2048) (e : Fin 1024) :
    (∑ f : Fin 1024, AO (ix2 ⟨b.val * 2048 + l.val, by omega⟩ f) * Wt (ix2 f e)) + Bo (ix1 e)
      = output x Wq bq Wk bk Wv bv Wo bo b l e :=
  out_sum_eq_output x Wq bq Wk bk Wv bv Wo bo AO Wt Bo b l e _ (fun f => hAO b l f) hWt hBo

end Cert.Alg

end
-- ==== Proof.BridgeAll.lean ====
/-
  The kernel program's result as a function of its nine arguments, on the extended reals, and its agreement with the
  reference's.

  Follow the result buffer back through the run. The last reshape reads the output projection's array at row b·2048+l.
  That array is, row by row, the merged heads times the transposed output weight plus the output bias. The merged
  heads are the attention region's array, which at channel f = h·64+d is head h's softmax-weighted sum of the values'
  coordinate d, computed from the query, key and value slices of the fused projection. The fused projection at channel
  off + h·64+j is the activations' row times the head-major weight column plus bias, i.e. coordinate j of head h of the
  corresponding reference projection. With the inputs finite every query and key coordinate is a real number, so the
  kernel's score (Σ_j (q_j·⅛)·k_j) is the reference's ((Σ_j q_j·k_j)·⅛), and everything after the score is the same
  operation on both sides.
-/
import proofs.«124737_j13280038879618_2_alg».proof.Proof.RunKi
import proofs.«124737_j13280038879618_2_alg».proof.Proof.BridgeHost0
import proofs.«124737_j13280038879618_2_alg».proof.Proof.HostPre
import proofs.«124737_j13280038879618_2_alg».proof.Proof.HostMid1
import proofs.«124737_j13280038879618_2_alg».proof.Proof.HostMid2
import proofs.«124737_j13280038879618_2_alg».proof.Proof.HostMid3
import proofs.«124737_j13280038879618_2_alg».proof.Proof.ArrLinear0
import proofs.«124737_j13280038879618_2_alg».proof.Proof.ArrLinear2
import proofs.«124737_j13280038879618_2_alg».proof.Proof.PayLinear
import proofs.«124737_j13280038879618_2_alg».proof.Proof.ArrAttnCore
import proofs.«124737_j13280038879618_2_alg».proof.Proof.AlgPerm
import proofs.«124737_j13280038879618_2_alg».proof.Proof.RefSpec

set_option maxRecDepth 16384

noncomputable section

namespace Cert.KernelIdeal.Bridge

open Idealize.ShloMosaic Idealize.ShloMosaic.TcCoe Idealize.ShloMosaic.ValueIdx
open Idealize.SL Idealize.SL.Sem
open Cert.KernelIdeal Cert.KernelIdeal.Gen Cert.KernelIdeal.Body
open Cert.RefLeg (Act Mat Row head merged output attention attention_apply)

variable (m : (ℓ : Loc nD τ sig) → Buf (Elt Ideal) ℓ) (ρ : Dev nD → PrngReg) (c : Dev nD)

/-- The fused projection's array after its region: the row-by-row product of the entry arrays plus the bias row. -/
theorem fused_array : W2 (F := Ideal) m ρ c (Proc.devRef .tc main_v38)
    = Arr.linear0 (Ent0 (F := Ideal) m ρ c main_v37) (Ent0 (F := Ideal) m ρ c main_v34) (Ent0 (F := Ideal) m ρ c main_v35) :=
  (W2_arr m ρ c 3).trans (Arr.array0 (Ent0 (F := Ideal) m ρ) Pay.k0_pay1_apply c)

/-- The attention region's array after it: head by head, the softmax-weighted sums of the values. -/
theorem attn_array : W4 (F := Ideal) m ρ c (Proc.devRef .tc main_v43)
    = Arr.arrayOut Cert.Alg.coreK (Ent1 (F := Ideal) m ρ c main_v40) (Ent1 (F := Ideal) m ρ c main_v41) (Ent1 (F := Ideal) m ρ c main_v42) :=
  (W4_arr m ρ c 3).trans (Arr.arrayAttn_coreK (Ent1 (F := Ideal) m ρ) c)

/-- The output projection's array after its region. -/
theorem out_array : W6 (F := Ideal) m ρ c (Proc.devRef .tc main_v47)
    = Arr.linear2 (Ent2 (F := Ideal) m ρ c main_v46) (Ent2 (F := Ideal) m ρ c main_v45) (Ent2 (F := Ideal) m ρ c main_arg8) :=
  (W6_arr m ρ c 3).trans (Arr.array2 (Ent2 (F := Ideal) m ρ) Pay.k2_pay1_apply c)

section
variable (hx : ∀ i, ∃ r : ℝ, (m ((c : Thread nD τ).loc main_arg0) : Act) i = (r : EReal))
  (hWq : ∀ i, ∃ r : ℝ, (m ((c : Thread nD τ).loc main_arg1) : Mat) i = (r : EReal))
  (hbq : ∀ i, ∃ r : ℝ, (m ((c : Thread nD τ).loc main_arg2) : Row) i = (r : EReal))
  (hWk : ∀ i, ∃ r : ℝ, (m ((c : Thread nD τ).loc main_arg3) : Mat) i = (r : EReal))
  (hbk : ∀ i, ∃ r : ℝ, (m ((c : Thread nD τ).loc main_arg4) : Row) i = (r : EReal))

/-- The query slice of the fused projection holds the reference's query heads: channel h·64+j is coordinate j of head h. -/
theorem query_heads (b : Fin 4) (l : Fin 2048) (h : Fin 16) (j : Fin 64) :
    Ent1 (F := Ideal) m ρ c main_v40 (ix3 b l ⟨h.val * 64 + j.val, by omega⟩)
      = head (m ((c : Thread nD τ).loc main_arg0)) (m ((c : Thread nD τ).loc main_arg1)) (m ((c : Thread nD τ).loc main_arg2)) b h l j := by
  rw [HostMid.ent1_q m ρ c b l ⟨h.val * 64 + j.val, by omega⟩, fused_array m ρ c]
  exact Cert.Alg.fused_eq_head_of_val _ _ _ _ _ _ 0
    (fun b l e R hR => HostPre.ent0_x m ρ c b l e R hR)
    (fun e g C hC => Host0.ent0_wq m ρ c e g C (by omega))
    (fun g C hC => HostPre.ent0_bq m ρ c g C (by omega))
    b h l j _ _ rfl (by show h.val * 64 + j.val = 0 + (h.val * 64 + j.val); omega)

/-- The key slice holds the key heads. -/
theorem key_heads (b : Fin 4) (l : Fin 2048) (h : Fin 16) (j : Fin 64) :
    Ent1 (F := Ideal) m ρ c main_v41 (ix3 b l ⟨h.val * 64 + j.val, by omega⟩)
      = head (m ((c : Thread nD τ).loc main_arg0)) (m ((c : Thread nD τ).loc main_arg3)) (m ((c : Thread nD τ).loc main_arg4)) b h l j := by
  rw [HostMid.ent1_k m ρ c b l ⟨h.val * 64 + j.val, by omega⟩, fused_array m ρ c]
  exact Cert.Alg.fused_eq_head_of_val _ _ _ _ _ _ 1024
    (fun b l e R hR => HostPre.ent0_x m ρ c b l e R hR)
    (fun e g C hC => Host0.ent0_wk m ρ c e g C hC)
    (fun g C hC => HostPre.ent0_bk m ρ c g C hC)
    b h l j _ _ rfl rfl

/-- The value slice holds the value heads. -/
theorem value_heads (b : Fin 4) (l : Fin 2048) (h : Fin 16) (j : Fin 64) :
    Ent1 (F := Ideal) m ρ c main_v42 (ix3 b l ⟨h.val * 64 + j.val, by omega⟩)
      = head (m ((c : Thread nD τ).loc main_arg0)) (m ((c : Thread nD τ).loc main_arg5)) (m ((c : Thread nD τ).loc main_arg6)) b h l j := by
  rw [HostMid.ent1_v m ρ c b l ⟨h.val * 64 + j.val, by omega⟩, fused_array m ρ c]
  exact Cert.Alg.fused_eq_head_of_val _ _ _ _ _ _ 2048
    (fun b l e R hR => HostPre.ent0_x m ρ c b l e R hR)
    (fun e g C hC => Host0.ent0_wv m ρ c e g C hC)
    (fun g C hC => HostPre.ent0_bv m ρ c g C hC)
    b h l j _ _ rfl rfl

include hx hWq hbq hWk hbk in
/-- The rows the output projection is entered with are the reference's merged heads. -/
theorem merged_rows (b : Fin 4) (l : Fin 2048) (f : Fin 1024) :
    Ent2 (F := Ideal) m ρ c main_v46 (ix2 ⟨b.val * 2048 + l.val, by omega⟩ f)
      = merged (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) b l f := by
  rw [HostMid.ent2_a m ρ c ⟨b.val * 2048 + l.val, by omega⟩ f, attn_array m ρ c]
  rw [show (⟨(b.val * 2048 + l.val) / 2048, by omega⟩ : Fin 4) = b from Fin.ext (by show (b.val * 2048 + l.val) / 2048 = b.val; omega),
    show (⟨(b.val * 2048 + l.val) % 2048, by omega⟩ : Fin 2048) = l from Fin.ext (by show (b.val * 2048 + l.val) % 2048 = l.val; omega)]
  exact Arr.arrayOut_eq_merged _ _ _ _ _ _ _ _ _ _ hx hWq hbq hWk hbk
    (query_heads m ρ c) (key_heads m ρ c) (value_heads m ρ c) b l f

include hx hWq hbq hWk hbk in
/-- The kernel program's result buffer holds the reference's attention layer of the nine arguments. -/
theorem kernel_value : W7 (F := Ideal) m ρ c (Proc.devRef .tc main_v48)
    = attention (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) := by
  funext i
  obtain ⟨b, l, e, rfl⟩ : ∃ (b : Fin 4) (l : Fin 2048) (e : Fin 1024), i = ix3 b l e := ⟨i 0, i 1, i 2, eq_ix3 i⟩
  rw [attention_apply, HostMid.out_reshape m ρ c b l e, out_array m ρ c, Arr.linear2_apply]
  exact Cert.Alg.out_eq_output _ _ _ _ _ _ _ _ _ _ _ _
    (merged_rows m ρ c hx hWq hbq hWk hbk) (fun f e => HostMid.ent2_w m ρ c f e) (HostMid.ent2_b m ρ c) b l e

end

end Cert.KernelIdeal.Bridge

end
-- ==== Proof.RefValueHeads.lean ====
/-
  The reference's three projections, read at an index.

  Each of the query, key and value paths of the reference is: a contraction of the activations with a weight matrix over
  the 1024 input channels, plus the bias broadcast over batch and position; then a reshape of the 1024 channels into
  64 × 16 and a transposition that brings the 16 to the front of the position axis.  Read at batch `b`, head `h`,
  position `l`, coordinate `d`, the result is the linear layer's channel `d * 16 + h`.
-/
import proofs.«124737_j13280038879618_2_alg».proof.Proof.Gen.ReferenceIdeal.Read
import proofs.«124737_j13280038879618_2_alg».proof.Proof.RefSpec

noncomputable section

open scoped BigOperators

namespace Cert.RefLeg

open Cert.ReferenceIdeal Cert.ReferenceIdeal.Gen Cert.ReferenceIdeal.Read Idealize.ShloMosaic Idealize.ShloMosaic.ValueIdx

/-- The reshape-then-transpose of a projection reads channel `d * 16 + h` at (b, h, l, d). -/
theorem splitIdx (b : Fin 4) (h : Fin 16) (l : Fin 2048) (d : Fin 64) :
    idx_main_v4 (idx_main_v5 (ix4 b h l d)) = ix3 b l (splitChan d h) := by
  have hb := b.isLt; have hh := h.isLt; have hl := l.isLt; have hd := d.isLt
  funext a
  match a with
  | ⟨0, _⟩ => exact Fin.ext (by show (((b.val * 2048 + l.val) * 64 + d.val) * 16 + h.val) / 2097152 = b.val; omega)
  | ⟨1, _⟩ => exact Fin.ext (by show (((b.val * 2048 + l.val) * 64 + d.val) * 16 + h.val) / 1024 % 2048 = l.val; omega)
  | ⟨2, _⟩ => exact Fin.ext (by show (((b.val * 2048 + l.val) * 64 + d.val) * 16 + h.val) % 1024 = d.val * 16 + h.val; omega)

/-- The contraction over the input channels reads the activations at (b, l, k) … -/
theorem actIdx (b : Fin 4) (l : Fin 2048) (f k : Fin 1024) : lidx_main_v0 (ix3 b l f) k = ix3 b l k :=
  funext fun a => by match a with | ⟨0, _⟩ => rfl | ⟨1, _⟩ => rfl | ⟨2, _⟩ => rfl
/-- … and the matrix at (f, k). -/
theorem matIdx (b : Fin 4) (l : Fin 2048) (f k : Fin 1024) : ridx_main_v0 (ix3 b l f) k = ix2 f k :=
  funext fun a => by match a with | ⟨0, _⟩ => rfl | ⟨1, _⟩ => rfl
/-- The bias broadcast over batch and position reads entry `f`. -/
theorem biasIdx (b : Fin 4) (l : Fin 2048) (f : Fin 1024) : idx_main_v1 (idx_main_v2 (ix3 b l f)) = ix1 f :=
  funext fun a => by match a with | ⟨0, _⟩ => rfl

/-- A contraction with a matrix plus a broadcast bias, in the index form the three paths share, is the linear layer. -/
theorem linear_core (x : Act) (W : Mat) (bias : Row) (b : Fin 4) (l : Fin 2048) (f : Fin 1024) :
    FloatOps.addf (F := Ideal) (φ := .f32) (∑ k : Fin 1024, x (lidx_main_v0 (ix3 b l f) k) * W (ridx_main_v0 (ix3 b l f) k))
      (bias (idx_main_v1 (idx_main_v2 (ix3 b l f)))) = linear x W bias b l f := by
  simp only [actIdx, matIdx, biasIdx]
  rfl

/-- The query path's linear layer at (b, l, f). -/
theorem linear_q (x0 : Act) (x1 : Mat) (x2 : Row) (b : Fin 4) (l : Fin 2048) (f : Fin 1024) :
    val_main_v3 (F := Ideal) x0 x1 x2 (ix3 b l f) = linear x0 x1 x2 b l f := by
  rw [val_main_v3_apply, val_main_v0_apply, val_main_v2_apply, val_main_v1_apply]
  exact linear_core x0 x1 x2 b l f

/-- The key path's linear layer at (b, l, f). -/
theorem linear_k (x0 : Act) (x3 : Mat) (x4 : Row) (b : Fin 4) (l : Fin 2048) (f : Fin 1024) :
    val_main_v9 (F := Ideal) x0 x3 x4 (ix3 b l f) = linear x0 x3 x4 b l f := by
  rw [val_main_v9_apply, val_main_v6_apply, val_main_v8_apply, val_main_v7_apply]
  exact linear_core x0 x3 x4 b l f

/-- The value path's linear layer at (b, l, f). -/
theorem linear_v (x0 : Act) (x5 : Mat) (x6 : Row) (b : Fin 4) (l : Fin 2048) (f : Fin 1024) :
    val_main_v15 (F := Ideal) x0 x5 x6 (ix3 b l f) = linear x0 x5 x6 b l f := by
  rw [val_main_v15_apply, val_main_v12_apply, val_main_v14_apply, val_main_v13_apply]
  exact linear_core x0 x5 x6 b l f

/-- The query heads at (b, h, l, d). -/
theorem head_q (x0 : Act) (x1 : Mat) (x2 : Row) (b : Fin 4) (h : Fin 16) (l : Fin 2048) (d : Fin 64) :
    val_main_v5 (F := Ideal) x0 x1 x2 (ix4 b h l d) = head x0 x1 x2 b h l d := by
  rw [val_main_v5_apply, val_main_v4_apply, splitIdx, linear_q]
  rfl

/-- The key heads at (b, h, l, d). -/
theorem head_k (x0 : Act) (x3 : Mat) (x4 : Row) (b : Fin 4) (h : Fin 16) (l : Fin 2048) (d : Fin 64) :
    val_main_v11 (F := Ideal) x0 x3 x4 (ix4 b h l d) = head x0 x3 x4 b h l d := by
  rw [val_main_v11_apply, val_main_v10_apply]
  exact (congrArg (val_main_v9 (F := Ideal) x0 x3 x4) (splitIdx b h l d)).trans (linear_k x0 x3 x4 b l _)

/-- The value heads at (b, h, l, d). -/
theorem head_v (x0 : Act) (x5 : Mat) (x6 : Row) (b : Fin 4) (h : Fin 16) (l : Fin 2048) (d : Fin 64) :
    val_main_v17 (F := Ideal) x0 x5 x6 (ix4 b h l d) = head x0 x5 x6 b h l d := by
  rw [val_main_v17_apply, val_main_v16_apply]
  exact (congrArg (val_main_v15 (F := Ideal) x0 x5 x6) (splitIdx b h l d)).trans (linear_v x0 x5 x6 b l _)

end Cert.RefLeg

end
-- ==== Proof.RefValueSoftmax.lean ====
/-
  The reference's scores and their softmax, read at an index.

  The score of query position `l` against key position `m` in head `h` of batch `b` is the contraction of the two
  heads over their 64 coordinates, times the scale.  The softmax along the key positions is written as: the row's
  maximum (a fold of `max` from minus infinity, once more compared with minus infinity), the exponential of the score
  minus that maximum, the row's sum of exponentials from zero, and the quotient.
-/
import proofs.«124737_j13280038879618_2_alg».proof.Proof.RefValueHeads

noncomputable section

open scoped BigOperators

namespace Cert.RefLeg

open Cert.ReferenceIdeal Cert.ReferenceIdeal.Gen Cert.ReferenceIdeal.Read Idealize.ShloMosaic Idealize.ShloMosaic.ValueIdx

/-- The contraction over a head's coordinates reads the query head at (b, h, l, k) … -/
theorem queryIdx (b : Fin 4) (h : Fin 16) (l m : Fin 2048) (k : Fin 64) : lidx_main_v18 (ix4 b h l m) k = ix4 b h l k :=
  funext fun a => by match a with | ⟨0, _⟩ => rfl | ⟨1, _⟩ => rfl | ⟨2, _⟩ => rfl | ⟨3, _⟩ => rfl
/-- … and the key head at (b, h, m, k). -/
theorem keyIdx (b : Fin 4) (h : Fin 16) (l m : Fin 2048) (k : Fin 64) : ridx_main_v18 (ix4 b h l m) k = ix4 b h m k :=
  funext fun a => by match a with | ⟨0, _⟩ => rfl | ⟨1, _⟩ => rfl | ⟨2, _⟩ => rfl | ⟨3, _⟩ => rfl

/-- The scaled scores at (b, h, l, m). -/
theorem score_eq (x0 : Act) (x1 : Mat) (x2 : Row) (x3 : Mat) (x4 : Row) (b : Fin 4) (h : Fin 16) (l m : Fin 2048) :
    val_main_v20 (F := Ideal) x0 x1 x2 x3 x4 (ix4 b h l m) = score x0 x1 x2 x3 x4 b h l m := by
  rw [val_main_v20_apply, val_main_v18_apply, val_main_v19_apply, val_main_cst_apply]
  simp only [queryIdx, keyIdx, head_q, head_k]
  rfl

/-- A row statistic kept as a column and broadcast back along the keys reads the row's entry. -/
theorem rowIdx (b : Fin 4) (h : Fin 16) (l m : Fin 2048) : idx_main_v24 (idx_main_v25 (ix4 b h l m)) = ix3 b h l :=
  funext fun a => by match a with | ⟨0, _⟩ => rfl | ⟨1, _⟩ => rfl | ⟨2, _⟩ => rfl

/-- Key position `k` inserted on the last axis of a row's index. -/
theorem liftIdx (hr : (⟨4, ![4, 16, 2048, 2048]⟩ : Shape).Reduces [3] ⟨3, ![4, 16, 2048]⟩)
    (b : Fin 4) (h : Fin 16) (l k : Fin 2048) : hr.lift (ix3 b h l) k = ix4 b h l k :=
  funext fun a => Fin.ext (by match a with | ⟨0, _⟩ => rfl | ⟨1, _⟩ => rfl | ⟨2, _⟩ => rfl | ⟨3, _⟩ => rfl)

/-- The maximum over the keys, as the reduction computes it: a fold of `max` from minus infinity. -/
theorem reduceMax_eq (x0 : Act) (x1 : Mat) (x2 : Row) (x3 : Mat) (x4 : Row) (b : Fin 4) (h : Fin 16) (l : Fin 2048) :
    val_main_v21 (F := Ideal) x0 x1 x2 x3 x4 (ix3 b h l)
      = (Finset.univ : Finset (Fin 2048)).fold max negInf (fun m => score x0 x1 x2 x3 x4 b h l m) := by
  unfold val_main_v21
  rw [Host.reduce_eq_fold_single FloatOps.maximumf _ _ reducesTo_S4x16x2048x2048_S4x16x2048_d3 (by decide) h_S_]
  refine Finset.fold_congr (fun k _ => ?_)
  exact (congrArg (val_main_v20 (F := Ideal) x0 x1 x2 x3 x4) (liftIdx _ b h l k)).trans (score_eq x0 x1 x2 x3 x4 b h l k)

/-- The row maximum the softmax subtracts, at (b, h, l). -/
theorem rowMax_eq (x0 : Act) (x1 : Mat) (x2 : Row) (x3 : Mat) (x4 : Row) (b : Fin 4) (h : Fin 16) (l : Fin 2048) :
    val_main_v23 (F := Ideal) x0 x1 x2 x3 x4 (ix3 b h l) = rowMax x0 x1 x2 x3 x4 b h l := by
  rw [val_main_v23_apply, val_main_v22_apply, val_main_cst_1_apply, reduceMax_eq]
  rfl

/-- The exponentials at (b, h, l, m). -/
theorem expScore_eq (x0 : Act) (x1 : Mat) (x2 : Row) (x3 : Mat) (x4 : Row) (b : Fin 4) (h : Fin 16) (l m : Fin 2048) :
    val_main_v27 (F := Ideal) x0 x1 x2 x3 x4 (ix4 b h l m) = expScore x0 x1 x2 x3 x4 b h l m := by
  rw [val_main_v27_apply, val_main_v26_apply, val_main_v25_apply, val_main_v24_apply, rowIdx, score_eq, rowMax_eq]
  rfl

/-- A sum over the keys reads the row at (b, h, l, k). -/
theorem sumIdx (b : Fin 4) (h : Fin 16) (l k : Fin 2048) : idx_main_v28 (ix3 b h l) k = ix4 b h l k :=
  funext fun a => by match a with | ⟨0, _⟩ => rfl | ⟨1, _⟩ => rfl | ⟨2, _⟩ => rfl | ⟨3, _⟩ => rfl

/-- The row sums at (b, h, l). -/
theorem rowSum_eq (x0 : Act) (x1 : Mat) (x2 : Row) (x3 : Mat) (x4 : Row) (b : Fin 4) (h : Fin 16) (l : Fin 2048) :
    val_main_v28 (F := Ideal) x0 x1 x2 x3 x4 (ix3 b h l) = rowSum x0 x1 x2 x3 x4 b h l := by
  rw [val_main_v28_apply, val_main_cst_2_apply]
  simp only [sumIdx, expScore_eq]
  rfl

/-- The softmax weights at (b, h, l, m). -/
theorem weight_eq (x0 : Act) (x1 : Mat) (x2 : Row) (x3 : Mat) (x4 : Row) (b : Fin 4) (h : Fin 16) (l m : Fin 2048) :
    val_main_v31 (F := Ideal) x0 x1 x2 x3 x4 (ix4 b h l m) = weight x0 x1 x2 x3 x4 b h l m := by
  rw [val_main_v31_apply, val_main_v30_apply, val_main_v29_apply, expScore_eq]
  exact congrArg (Ideal.div (expScore x0 x1 x2 x3 x4 b h l m))
    ((congrArg (val_main_v28 (F := Ideal) x0 x1 x2 x3 x4) (rowIdx b h l m)).trans (rowSum_eq x0 x1 x2 x3 x4 b h l))

end Cert.RefLeg

end
-- ==== Proof.RefValue.lean ====
/-
  The reference's attended values, the merge of the heads and the output layer, read at an index; and the reference's
  whole result as the attention layer written out index by index.

  The weights are contracted with the value heads over the 2048 key positions; the result (batch, head, position,
  coordinate) is transposed to (batch, position, head, coordinate) and its last two axes are flattened, so that merged
  channel `f` holds head `f / 64`, coordinate `f % 64`; the output layer contracts the merged channels with its matrix
  and adds its bias.
-/
import proofs.«124737_j13280038879618_2_alg».proof.Proof.RefValueSoftmax

noncomputable section

open scoped BigOperators

namespace Cert.RefLeg

open Cert.ReferenceIdeal Cert.ReferenceIdeal.Gen Cert.ReferenceIdeal.Read Idealize.ShloMosaic Idealize.ShloMosaic.ValueIdx
open Idealize.ShloMosaic.TcCoe Idealize.SL.Sem

/-- The contraction over the keys reads the weights at (b, h, l, k) … -/
theorem weightIdx (b : Fin 4) (h : Fin 16) (l : Fin 2048) (d : Fin 64) (k : Fin 2048) :
    lidx_main_v32 (ix4 b h l d) k = ix4 b h l k :=
  funext fun a => by match a with | ⟨0, _⟩ => rfl | ⟨1, _⟩ => rfl | ⟨2, _⟩ => rfl | ⟨3, _⟩ => rfl
/-- … and the value head at (b, h, k, d). -/
theorem valueIdx (b : Fin 4) (h : Fin 16) (l : Fin 2048) (d : Fin 64) (k : Fin 2048) :
    ridx_main_v32 (ix4 b h l d) k = ix4 b h k d :=
  funext fun a => by match a with | ⟨0, _⟩ => rfl | ⟨1, _⟩ => rfl | ⟨2, _⟩ => rfl | ⟨3, _⟩ => rfl

/-- The attended values at (b, h, l, d). -/
theorem attend_eq (x0 : Act) (x1 : Mat) (x2 : Row) (x3 : Mat) (x4 : Row) (x5 : Mat) (x6 : Row)
    (b : Fin 4) (h : Fin 16) (l : Fin 2048) (d : Fin 64) :
    val_main_v32 (F := Ideal) x0 x1 x2 x3 x4 x5 x6 (ix4 b h l d) = attend x0 x1 x2 x3 x4 x5 x6 b h l d := by
  rw [val_main_v32_apply]
  simp only [weightIdx, valueIdx, weight_eq, head_v]
  rfl

/-- The transposition and flattening of the heads reads head `f / 64`, coordinate `f % 64` at merged channel `f`. -/
theorem mergeIdx (b : Fin 4) (l : Fin 2048) (f : Fin 1024) :
    idx_main_v33 (idx_main_v34 (ix3 b l f)) = ix4 b (mergeHead f) l (mergeCoord f) := by
  have hb := b.isLt; have hl := l.isLt; have hf := f.isLt
  funext a
  match a with
  | ⟨0, _⟩ => exact Fin.ext (by show ((b.val * 2048 + l.val) * 1024 + f.val) / 2097152 = b.val; omega)
  | ⟨1, _⟩ => exact Fin.ext (by show ((b.val * 2048 + l.val) * 1024 + f.val) / 64 % 16 = f.val / 64; omega)
  | ⟨2, _⟩ => exact Fin.ext (by show ((b.val * 2048 + l.val) * 1024 + f.val) / 1024 % 2048 = l.val; omega)
  | ⟨3, _⟩ => exact Fin.ext (by show ((b.val * 2048 + l.val) * 1024 + f.val) % 64 = f.val % 64; omega)

/-- The merged heads at (b, l, f). -/
theorem merged_eq (x0 : Act) (x1 : Mat) (x2 : Row) (x3 : Mat) (x4 : Row) (x5 : Mat) (x6 : Row)
    (b : Fin 4) (l : Fin 2048) (f : Fin 1024) :
    val_main_v34 (F := Ideal) x0 x1 x2 x3 x4 x5 x6 (ix3 b l f) = merged x0 x1 x2 x3 x4 x5 x6 b l f := by
  rw [val_main_v34_apply, val_main_v33_apply, mergeIdx, attend_eq]
  rfl

/-- The output layer's contraction reads the merged heads at (b, l, k) … -/
theorem outActIdx (b : Fin 4) (l : Fin 2048) (e k : Fin 1024) : lidx_main_v35 (ix3 b l e) k = ix3 b l k :=
  funext fun a => by match a with | ⟨0, _⟩ => rfl | ⟨1, _⟩ => rfl | ⟨2, _⟩ => rfl
/-- … and its matrix at (e, k). -/
theorem outMatIdx (b : Fin 4) (l : Fin 2048) (e k : Fin 1024) : ridx_main_v35 (ix3 b l e) k = ix2 e k :=
  funext fun a => by match a with | ⟨0, _⟩ => rfl | ⟨1, _⟩ => rfl
/-- Its bias, broadcast over batch and position, reads entry `e`. -/
theorem outBiasIdx (b : Fin 4) (l : Fin 2048) (e : Fin 1024) : idx_main_v36 (idx_main_v37 (ix3 b l e)) = ix1 e :=
  funext fun a => by match a with | ⟨0, _⟩ => rfl

/-- The reference's result at (b, l, e). -/
theorem output_eq (x0 : Act) (x1 : Mat) (x2 : Row) (x3 : Mat) (x4 : Row) (x5 : Mat) (x6 : Row) (x7 : Mat) (x8 : Row)
    (b : Fin 4) (l : Fin 2048) (e : Fin 1024) :
    val_main_v38 (F := Ideal) x0 x1 x2 x3 x4 x5 x6 x7 x8 (ix3 b l e) = output x0 x1 x2 x3 x4 x5 x6 x7 x8 b l e := by
  rw [val_main_v38_apply, val_main_v35_apply, val_main_v37_apply, val_main_v36_apply]
  simp only [outActIdx, outMatIdx, outBiasIdx, merged_eq]
  rfl

/-- THE REFERENCE IS THE ATTENTION LAYER: its last stage, as an array of the nine argument arrays. -/
theorem reference_eq (x0 : Act) (x1 : Mat) (x2 : Row) (x3 : Mat) (x4 : Row) (x5 : Mat) (x6 : Row) (x7 : Mat) (x8 : Row) :
    val_main_v38 (F := Ideal) x0 x1 x2 x3 x4 x5 x6 x7 x8 = attention x0 x1 x2 x3 x4 x5 x6 x7 x8 := by
  funext i
  obtain ⟨b, l, e, rfl⟩ : ∃ (b : Fin 4) (l : Fin 2048) (e : Fin 1024), i = ix3 b l e := ⟨i 0, i 1, i 2, eq_ix3 i⟩
  exact output_eq x0 x1 x2 x3 x4 x5 x6 x7 x8 b l e

/-- The result array the reference's run ends with, on device `c` from memory `m`, is the attention layer of the nine
    argument arrays as `m` holds them. -/
theorem result_eq (m : (ℓ : Loc nD τ sig) → Buf (Elt Ideal) ℓ) (c : Dev nD) :
    Cert.ReferenceIdeal.Value.res_out0 (F := Ideal) m c
      = attention (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) :=
  (val_main_v38_eq (F := Ideal) m c).trans (reference_eq _ _ _ _ _ _ _ _ _)

end Cert.RefLeg

end
-- ==== Proof.RefFinite.lean ====
/-
  Finite inputs are real numbers.

  The precondition says, of each of the nine argument arrays, that every entry's absolute value is below plus infinity
  (the f32 word 0x7F800000), all nine statements joined by `and`.  On the extended reals `max x (-x) < ⊤` leaves
  neither infinity, so every entry is (the image of) a real number.  This is the only place where the factor 1/8 moved
  across the sum over a head's coordinates needs support: multiplication distributes over a finite sum of reals.
-/
import proofs.«124737_j13280038879618_2_alg».proof.Pre_finite_inputs
import Idealize.ShloMosaic.PureOps.Ideal
import Idealize.ShloMosaic.Lib.ValueIdx
import Idealize.ShloMosaic.Lib.ReduceAll

noncomputable section

namespace Cert.RefLeg

open Idealize.ShloMosaic Idealize.ShloMosaic.ValueIdx

/-- The scalar shape has one index. -/
instance : Subsingleton (⟨0, ![]⟩ : Shape).Idx := ⟨fun _ _ => funext fun d => d.elim0⟩

/-- An extended real whose absolute value compares below the word of plus infinity is a real number. -/
theorem real_of_abs_lt_inf (x : EReal)
    (h : FloatOps.cmpf (F := Ideal) (φ := .f32) .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  unfold Ideal.cmp at h
  have hlt : max x (-x) < ⊤ := by
    by_contra hn
    simp [hn] at h
  rw [max_lt_iff] at hlt
  induction x using EReal.rec with
  | bot => simp at hlt
  | coe r => exact ⟨r, rfl⟩
  | top => simp at hlt

/-- One array: if "every entry's absolute value is below plus infinity", reduced by `and` over all axes, is true, then
    every entry is a real number. -/
theorem real_of_all {s : Shape} {axes : List (Fin s.rank)} (a : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (e : Host.reduce IntOp.andi
          (cmpf .olt (Host.absf a) (broadcastInDim s ![] hb (constant (F := Ideal) ⟨0, ![]⟩ .f32 0x7F800000#32))) init hr hu ix0 = 1#1)
    (i : s.Idx) : ∃ r : ℝ, a i = (r : EReal) :=
  real_of_abs_lt_inf (a i) (Host.reduce_andi_all _ init hr hu ix0 e i)

/-- THE PRECONDITION MAKES EVERY ENTRY OF THE NINE ARGUMENT ARRAYS A REAL NUMBER. -/
theorem real_of_finite_inputs [Cert.Pre_finite_inputs.Facts]
    (a0 : FVec Ideal ⟨3, ![4, 2048, 1024]⟩ .f32) (a1 : FVec Ideal ⟨2, ![1024, 1024]⟩ .f32) (a2 : FVec Ideal ⟨1, ![1024]⟩ .f32)
    (a3 : FVec Ideal ⟨2, ![1024, 1024]⟩ .f32) (a4 : FVec Ideal ⟨1, ![1024]⟩ .f32)
    (a5 : FVec Ideal ⟨2, ![1024, 1024]⟩ .f32) (a6 : FVec Ideal ⟨1, ![1024]⟩ .f32)
    (a7 : FVec Ideal ⟨2, ![1024, 1024]⟩ .f32) (a8 : FVec Ideal ⟨1, ![1024]⟩ .f32)
    (h : Cert.Pre_finite_inputs.fn (F := Ideal) a0 a1 a2 a3 a4 a5 a6 a7 a8 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) ∧ (∀ i, ∃ r : ℝ, a8 i = (r : EReal)) := by
  have h0 := congrFun h ix0
  dsimp only [Cert.Pre_finite_inputs.fn, Cert.Pre_finite_inputs.fn_part1, Cert.Pre_finite_inputs.fn_part2, andi] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all a0 _ _ _ _ e0, real_of_all a1 _ _ _ _ e1, real_of_all a2 _ _ _ _ e2, real_of_all a3 _ _ _ _ e3,
    real_of_all a4 _ _ _ _ e4, real_of_all a5 _ _ _ _ e5, real_of_all a6 _ _ _ _ e6, real_of_all a7 _ _ _ _ e7,
    real_of_all a8 _ _ _ _ e8⟩

end Cert.RefLeg

end
-- ==== Proof.lean ====
/-
  A multi-head attention layer — three projections of the activations, sixteen heads of width 64, a softmax over the 2048
  keys of each head, the heads merged and projected out — computed by three pipelined kernels with host glue between them,
  against the same layer written with einsums.

  Frames. Each kernel program is followed item by item (host operations, a kernel region, host operations, …): every
  region's body reads its input blocks and overwrites its output block, so each region leaves its inputs as entered and its
  output array at what the grid's write-backs leave; no item writes an argument array, so all nine end as launched. The
  reference is a straight line of host operations, and its run leaves its arguments alone.

  The idealization rewrote no operation, so there is nothing to preserve beyond the text itself.

  Values, on the extended reals. The kernel permutes the rows of the three projection weights so that the fused projection's
  output channel h·64+d is the reference's channel d·16+h, i.e. coordinate d of head h: splitting and merging heads are then
  plain slices. Its score is Σ_d (q_d·⅛)·k_d where the reference's is (Σ_d q_d·k_d)·⅛; the two agree because every q_d
  and k_d is a real number when the inputs are finite. Maximum, exponential, row sum, quotient, the weighted sum over the
  keys and the output projection are the same operations on both sides, format changes being the identity.
-/
import proofs.«124737_j13280038879618_2_alg».proof.Defs
import proofs.«124737_j13280038879618_2_alg».proof.Proof.Gen.Kernel
import proofs.«124737_j13280038879618_2_alg».proof.Proof.Gen.KernelIdeal
import proofs.«124737_j13280038879618_2_alg».proof.Proof.Gen.ReferenceIdeal
import proofs.«124737_j13280038879618_2_alg».proof.Proof.Gen.Pre_finite_inputs
import proofs.«124737_j13280038879618_2_alg».proof.Proof.Gen.ReferenceIdeal.Run
import proofs.«124737_j13280038879618_2_alg».proof.Proof.Gen.ReferenceIdeal.Read
import proofs.«124737_j13280038879618_2_alg».proof.Proof.RunKb
import proofs.«124737_j13280038879618_2_alg».proof.Proof.RunKi
import proofs.«124737_j13280038879618_2_alg».proof.Proof.BridgeAll
import proofs.«124737_j13280038879618_2_alg».proof.Proof.RefValue
import proofs.«124737_j13280038879618_2_alg».proof.Proof.RefFinite
import Idealize.ShloMosaic.Adequacy
import Idealize.ShloMosaic.Init

noncomputable section

namespace Cert.Proof

open Idealize.ShloMosaic Idealize.ShloMosaic.TcCoe Idealize.SL.Sem

/-- The kernel program as printed runs to the end, faults nowhere and leaves its nine arguments as launched. -/
theorem frame_kernel : Cert.frame_Kernel := fun m ρ _ => Cert.Kernel.Body.frame m ρ

/-- So does its reading on the extended reals. -/
theorem frame_kernelIdeal : Cert.frame_KernelIdeal := fun m ρ _ => Cert.KernelIdeal.Body.frame m ρ

/-- The reference is a line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- On the extended reals both programs end with the same array: the kernel program's result buffer read back through its
    three regions and the host operations between them is the reference's attention layer of the arguments (the inputs being
    finite, so that the factor ⅛ may cross the sum over a head's width), and the reference's run ends at that layer by its
    own operations. -/
theorem algebraic : Cert.algebraic_KernelIdeal_ReferenceIdeal := by
  intro m ρ m' ρ' hpre hagree
  refine ⟨fun c => Cert.RefLeg.attention (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ?_) (Cert.KernelIdeal.Body.run_all m ρ)
    obtain ⟨f0, f1, f2, f3, f4, -, -, -, -⟩ := Cert.RefLeg.real_of_finite_inputs _ _ _ _ _ _ _ _ _ (hpre c)
    exact ⟨(h c _ (Cert.KernelIdeal.Body.mem_uc Cert.KernelIdeal.main_v48 (by decide))).trans
        (Cert.KernelIdeal.Bridge.kernel_value m ρ c f0 f1 f2 f3 f4),
      (h c _ (Cert.KernelIdeal.Body.mem_uc Cert.KernelIdeal.main_arg0 (by decide))).trans (Cert.KernelIdeal.Body.W7_main_arg0 m ρ c),
      (h c _ (Cert.KernelIdeal.Body.mem_uc Cert.KernelIdeal.main_arg1 (by decide))).trans (Cert.KernelIdeal.Body.W7_main_arg1 m ρ c),
      (h c _ (Cert.KernelIdeal.Body.mem_uc Cert.KernelIdeal.main_arg2 (by decide))).trans (Cert.KernelIdeal.Body.W7_main_arg2 m ρ c),
      (h c _ (Cert.KernelIdeal.Body.mem_uc Cert.KernelIdeal.main_arg3 (by decide))).trans (Cert.KernelIdeal.Body.W7_main_arg3 m ρ c),
      (h c _ (Cert.KernelIdeal.Body.mem_uc Cert.KernelIdeal.main_arg4 (by decide))).trans (Cert.KernelIdeal.Body.W7_main_arg4 m ρ c),
      (h c _ (Cert.KernelIdeal.Body.mem_uc Cert.KernelIdeal.main_arg5 (by decide))).trans (Cert.KernelIdeal.Body.W7_main_arg5 m ρ c),
      (h c _ (Cert.KernelIdeal.Body.mem_uc Cert.KernelIdeal.main_arg6 (by decide))).trans (Cert.KernelIdeal.Body.W7_main_arg6 m ρ c),
      (h c _ (Cert.KernelIdeal.Body.mem_uc Cert.KernelIdeal.main_arg7 (by decide))).trans (Cert.KernelIdeal.Body.W7_main_arg7 m ρ c),
      (h c _ (Cert.KernelIdeal.Body.mem_uc Cert.KernelIdeal.main_arg8 (by decide))).trans (Cert.KernelIdeal.Body.W7_main_arg8 m ρ c)⟩
  · refine (θ_run Cert.ReferenceIdeal.defs _ _).mono (fun r h c => ⟨?_, (h c).2⟩) (Cert.ReferenceIdeal.Value.run (F := Ideal) m' ρ')
    obtain ⟨a0, a1, a2, a3, a4, a5, a6, a7, a8⟩ := hagree c
    refine ((h c).1.trans (Cert.RefLeg.result_eq m' c)).trans ?_
    rw [a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
